-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S4x2048x3 : Shape := ⟨3, ![4, 2048, 3]⟩
abbrev S4x1024x1 : Shape := ⟨3, ![4, 1024, 1]⟩
abbrev S4x1024x3 : Shape := ⟨3, ![4, 1024, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel
  bcast_S_S4x2048x3 : S_.BroadcastsInDim S4x2048x3 (![] : Fin 0 → Fin S4x2048x3.rank)
  reducesTo_S4x2048x3_S_d0_1_2 : S4x2048x3.ReducesTo [0, 1, 2] S_
  bcast_S_S4x1024x1 : S_.BroadcastsInDim S4x1024x1 (![] : Fin 0 → Fin S4x1024x1.rank)
  reducesTo_S4x1024x1_S_d0_1_2 : S4x1024x1.ReducesTo [0, 1, 2] S_
  bcast_S_S4x1024x3 : S_.BroadcastsInDim S4x1024x3 (![] : Fin 0 → Fin S4x1024x3.rank)
  reducesTo_S4x1024x3_S_d0_1_2 : S4x1024x3.ReducesTo [0, 1, 2] S_

variable [Facts]

def fn_part1 {F : FTy → Type} [FloatOps F] (main_arg4 : FVec F S4x1024x3 .f32) (main_v13 : IVec S_ 1) (main_v16 : IVec S4x8192x3 1) : IVec S_ 1 :=
  let main_c_5 : IVec S_ 1 := constantI S_ 1 1#1
  let main_v17 : IVec S_ 1 := (fun x v => Host.reduce IntOp.andi x v reducesTo_S4x8192x3_S_d0_1_2 h_S_) main_v16 main_c_5
  let main_v18 : IVec S_ 1 := andi main_v13 main_v17
  let main_v19 : FVec F S4x1024x3 .f32 := Host.absf main_arg4
  let main_cst_6 : FVec F S_ .f32 := constant S_ .f32 0x7F800000#32
  let main_v20 : FVec F S4x1024x3 .f32 := broadcastInDim S4x1024x3 ![] bcast_S_S4x1024x3 main_cst_6
  let main_v21 : IVec S4x1024x3 1 := cmpf .olt main_v19 main_v20
  let main_c_7 : IVec S_ 1 := constantI S_ 1 1#1
  let main_v22 : IVec S_ 1 := (fun x v => Host.reduce IntOp.andi x v reducesTo_S4x1024x3_S_d0_1_2 h_S_) main_v21 main_c_7
  let main_v23 : IVec S_ 1 := andi main_v18 main_v22
  main_v23

def fn {F : FTy → Type} [FloatOps F] (main_arg0 : FVec F S4x8192x3 .f32) (main_arg1 : FVec F S4x2048x3 .f32) (main_arg2 : FVec F S4x1024x1 .f32) (main_arg3 : FVec F S4x8192x3 .f32) (main_arg4 : FVec F S4x1024x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x2048x3 .f32 := Host.absf main_arg1
  let main_cst_0 : FVec F S_ .f32 := constant S_ .f32 0x7F800000#32
  let main_v5 : FVec F S4x2048x3 .f32 := broadcastInDim S4x2048x3 ![] bcast_S_S4x2048x3 main_cst_0
  let main_v6 : IVec S4x2048x3 1 := cmpf .olt main_v4 main_v5
  let main_c_1 : IVec S_ 1 := constantI S_ 1 1#1
  let main_v7 : IVec S_ 1 := (fun x v => Host.reduce IntOp.andi x v reducesTo_S4x2048x3_S_d0_1_2 h_S_) main_v6 main_c_1
  let main_v8 : IVec S_ 1 := andi main_v3 main_v7
  let main_v9 : FVec F S4x1024x1 .f32 := Host.absf main_arg2
  let main_cst_2 : FVec F S_ .f32 := constant S_ .f32 0x7F800000#32
  let main_v10 : FVec F S4x1024x1 .f32 := broadcastInDim S4x1024x1 ![] bcast_S_S4x1024x1 main_cst_2
  let main_v11 : IVec S4x1024x1 1 := cmpf .olt main_v9 main_v10
  let main_c_3 : IVec S_ 1 := constantI S_ 1 1#1
  let main_v12 : IVec S_ 1 := (fun x v => Host.reduce IntOp.andi x v reducesTo_S4x1024x1_S_d0_1_2 h_S_) main_v11 main_c_3
  let main_v13 : IVec S_ 1 := andi main_v8 main_v12
  let main_v14 : FVec F S4x8192x3 .f32 := Host.absf main_arg3
  let main_cst_4 : FVec F S_ .f32 := constant S_ .f32 0x7F800000#32
  let main_v15 : FVec F S4x8192x3 .f32 := broadcastInDim S4x8192x3 ![] bcast_S_S4x8192x3 main_cst_4
  let main_v16 : IVec S4x8192x3 1 := cmpf .olt main_v14 main_v15
  fn_part1 (F := F) main_arg4 main_v13 main_v16
-- ==== Kernel.lean ====
abbrev S4x8192x3 : Shape := ⟨3, ![4, 8192, 3]⟩
abbrev S4x2048x3 : Shape := ⟨3, ![4, 2048, 3]⟩
abbrev S4x1024x1 : Shape := ⟨3, ![4, 1024, 1]⟩
abbrev S4x1024x3 : Shape := ⟨3, ![4, 1024, 3]⟩
abbrev S4x3x8192 : Shape := ⟨3, ![4, 3, 8192]⟩
abbrev S4x3x1024 : Shape := ⟨3, ![4, 3, 1024]⟩
abbrev S4x8192 : Shape := ⟨2, ![4, 8192]⟩
abbrev S2x4x8192 : Shape := ⟨3, ![2, 4, 8192]⟩
abbrev S4x3x512 : Shape := ⟨3, ![4, 3, 512]⟩
abbrev S4x512 : Shape := ⟨2, ![4, 512]⟩
abbrev S1x4x8192 : Shape := ⟨3, ![1, 4, 8192]⟩
abbrev S4x1x512 : Shape := ⟨3, ![4, 1, 512]⟩
abbrev S4x512x1 : Shape := ⟨3, ![4, 512, 1]⟩
abbrev S4x1x1024 : Shape := ⟨3, ![4, 1, 1024]⟩
abbrev S4x1024 : Shape := ⟨2, ![4, 1024]⟩
abbrev S4x512x1024 : Shape := ⟨3, ![4, 512, 1024]⟩
abbrev S_ : Shape := ⟨0, ![]⟩

abbrev nBuf : Space → Nat
  | .hbm => 50
  | .vmem => 15
  | .smem => 0
  | _ => 0

abbrev bufTy : (tb : Table) → Fin (tcTables nBuf tb) → BufTy
  | .hbm, ⟨0, _⟩ => ⟨S4x8192x3, .f32⟩
  | .hbm, ⟨1, _⟩ => ⟨S4x2048x3, .f32⟩
  | .hbm, ⟨2, _⟩ => ⟨S4x1024x1, .f32⟩
  | .hbm, ⟨3, _⟩ => ⟨S4x8192x3, .f32⟩
  | .hbm, ⟨4, _⟩ => ⟨S4x1024x3, .f32⟩
  | .hbm, ⟨5, _⟩ => ⟨S4x3x8192, .f32⟩
  | .hbm, ⟨6, _⟩ => ⟨S4x3x8192, .f32⟩
  | .hbm, ⟨7, _⟩ => ⟨S4x3x1024, .f32⟩
  | .hbm, ⟨8, _⟩ => ⟨S4x8192, .f32⟩
  | .hbm, ⟨9, _⟩ => ⟨S2x4x8192, .f32⟩
  | .hbm, ⟨10, _⟩ => ⟨S1x4x8192, .f32⟩
  | .hbm, ⟨11, _⟩ => ⟨S4x8192, .f32⟩
  | .hbm, ⟨12, _⟩ => ⟨S1x4x8192, .f32⟩
  | .hbm, ⟨13, _⟩ => ⟨S4x8192, .f32⟩
  | .hbm, ⟨14, _⟩ => ⟨S4x8192, .f32⟩
  | .hbm, ⟨15, _⟩ => ⟨S4x1024, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S4x1024x1, .f32⟩
  | .hbm, ⟨20, _⟩ => ⟨S4x1024x1, .f32⟩
  | .hbm, ⟨21, _⟩ => ⟨S4x1024x1, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4x8192, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .local _ .vmem, ⟨0, _⟩ => ⟨S4x3x512, .f32⟩
  | .local _ .vmem, ⟨1, _⟩ => ⟨S4x3x512, .f32⟩
  | .local _ .vmem, ⟨2, _⟩ => ⟨S4x3x1024, .f32⟩
  | .local _ .vmem, ⟨3, _⟩ => ⟨S4x3x1024, .f32⟩
  | .local _ .vmem, ⟨4, _⟩ => ⟨S4x512, .f32⟩
  | .local _ .vmem, ⟨5, _⟩ => ⟨S4x512, .f32⟩
  | .local _ .vmem, ⟨6, _⟩ => ⟨S1x4x8192, .f32⟩
  | .local _ .vmem, ⟨7, _⟩ => ⟨S1x4x8192, .f32⟩
  | .local _ .vmem, ⟨8, _⟩ => ⟨S4x8192, .f32⟩
  | .local _ .vmem, ⟨9, _⟩ => ⟨S4x3x512, .f32⟩
  | .local _ .vmem, ⟨10, _⟩ => ⟨S4x3x512, .f32⟩
  | .local _ .vmem, ⟨11, _⟩ => ⟨S4x3x1024, .f32⟩
  | .local _ .vmem, ⟨12, _⟩ => ⟨S4x3x1024, .f32⟩
  | .local _ .vmem, ⟨13, _⟩ => ⟨S4x512, .f32⟩
  | .local _ .vmem, ⟨14, _⟩ => ⟨S4x512, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_7 : Ref sig .tc := ⟨.hbm, 40, rfl⟩
abbrev main_v26 : Ref sig .tc := ⟨.hbm, 41, rfl⟩
abbrev main_cst_8 : Ref sig .tc := ⟨.hbm, 42, rfl⟩
abbrev main_v27 : Ref sig .tc := ⟨.hbm, 43, rfl⟩
abbrev main_cst_9 : Ref sig .tc := ⟨.hbm, 44, rfl⟩
abbrev main_v28 : Ref sig .tc := ⟨.hbm, 45, rfl⟩
abbrev main_cst_10 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨3, ![2, 8, 8], ![false, false, false]⟩

def k0_mult1 (i : grid0.Coords) : BitVec 32 :=
  let arg2 : BitVec 32 := BitVec.ofNat 32 (i 2).val
  let c1024_i32 : BitVec 32 := 1024#32
  let v50 : BitVec 32 := Scalar.muli arg2 c1024_i32
  v50
def k0_off1 (i : grid0.Coords) : Fin 2 → Nat :=
  let c0_14 : Index := 0#32
  let arg2 : BitVec 32 := BitVec.ofNat 32 (i 2).val
  let c1024_i32 : BitVec 32 := 1024#32
  let v50 : BitVec 32 := Scalar.muli arg2 c1024_i32
  let v51 : BitVec 32 := v50
  let v52 : Index := Scalar.indexCast v51
  ![0, v52.toNat]
def k0_cond3 (i : grid0.Coords) : BitVec 1 :=
  let arg1 : BitVec 32 := BitVec.ofNat 32 (i 1).val
  let c7_i32 : BitVec 32 := 7#32
  let v59 : BitVec 1 := Scalar.cmpi .eq arg1 c7_i32
  let arg2 : BitVec 32 := BitVec.ofNat 32 (i 2).val
  let c7_i32_16 : BitVec 32 := 7#32
  let v60 : BitVec 1 := Scalar.cmpi .eq arg2 c7_i32_16
  let v61 : BitVec 1 := Scalar.andi v59 v60
  let v62 : BitVec 32 := Scalar.extui v61
  let c0_i32_17 : BitVec 32 := 0#32
  let v63 : BitVec 1 := Scalar.cmpi .ne v62 c0_i32_17
  v63

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x3x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S4x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev grid1 : Pipeline.Grid := ⟨2, ![2, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S4x3x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4x3x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S4x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  transposes_S4x8192x3_S4x3x8192_0_2_1 : S4x8192x3.Transposes [0, 2, 1] S4x3x8192
  transposes_S4x1024x3_S4x3x1024_0_2_1 : S4x1024x3.Transposes [0, 2, 1] S4x3x1024
  inb_S4x8192_S4x8192_0_0 : ∀ a, (![0, 0] : Fin 2 → Nat) a + S4x8192.size a ≤ S4x8192.size a
  h_S4x8192 : 0 < S4x8192.numel
  shapeCasts_S4x8192_S4x8192 : S4x8192.ShapeCasts S4x8192
  inb_S4x512_S4x512_0_0 : ∀ a, (![0, 0] : Fin 2 → Nat) a + S4x512.size a ≤ S4x512.size a
  h_S4x512 : 0 < S4x512.numel
  inb_S4x3x512_S4x3x512_0_0_0 : ∀ a, (![0, 0, 0] : Fin 3 → Nat) a + S4x3x512.size a ≤ S4x3x512.size a
  h_S4x3x512 : 0 < S4x3x512.numel
  shapeCasts_S4x3x512_S4x3x512 : S4x3x512.ShapeCasts S4x3x512
  inb_S4x3x1024_S4x3x1024_0_0_0 : ∀ a, (![0, 0, 0] : Fin 3 → Nat) a + S4x3x1024.size a ≤ S4x3x1024.size a
  h_S4x3x1024 : 0 < S4x3x1024.numel
  shapeCasts_S4x3x1024_S4x3x1024 : S4x3x1024.ShapeCasts S4x3x1024
  slices_S4x3x512_o0_0_0_S4x1x512 : S4x3x512.Slices ![0, 0, 0] S4x1x512
  shapeCasts_S4x1x512_S4x512 : S4x1x512.ShapeCasts S4x512
  shapeCasts_S4x512_S4x512x1 : S4x512.ShapeCasts S4x512x1
  slices_S4x3x1024_o0_0_0_S4x1x1024 : S4x3x1024.Slices ![0, 0, 0] S4x1x1024
  shapeCasts_S4x1x1024_S4x1024 : S4x1x1024.ShapeCasts S4x1024
  shapeCasts_S4x1024_S4x1x1024 : S4x1024.ShapeCasts S4x1x1024
  broadcasts_S4x512x1_S4x512x1024 : S4x512x1.Broadcasts S4x512x1024
  broadcasts_S4x1x1024_S4x512x1024 : S4x1x1024.Broadcasts S4x512x1024
  slices_S4x3x512_o0_1_0_S4x1x512 : S4x3x512.Slices ![0, 1, 0] S4x1x512
  slices_S4x3x1024_o0_1_0_S4x1x1024 : S4x3x1024.Slices ![0, 1, 0] S4x1x1024
  slices_S4x3x512_o0_2_0_S4x1x512 : S4x3x512.Slices ![0, 2, 0] S4x1x512
  slices_S4x3x1024_o0_2_0_S4x1x1024 : S4x3x1024.Slices ![0, 2, 0] S4x1x1024
  reduces_S4x512x1024_S4x512 : S4x512x1024.Reduces [2] S4x512
  reduces_S4x512x1024_S4x1024 : S4x512x1024.Reduces [1] S4x1024
  shapeCasts_S4x512_S4x512 : S4x512.ShapeCasts S4x512
  h_S4x1024 : 0 < S4x1024.numel
  shapeCasts_S4x1024_S4x1024 : S4x1024.ShapeCasts S4x1024
  inb_S1x4x8192_S1x4x8192_0_0_0 : ∀ a, (![0, 0, 0] : Fin 3 → Nat) a + S1x4x8192.size a ≤ S1x4x8192.size a
  h_S1x4x8192 : 0 < S1x4x8192.numel
  shapeCasts_S1x4x8192_S4x8192 : S1x4x8192.ShapeCasts S4x8192
  shapeCasts_S4x8192_S1x4x8192 : S4x8192.ShapeCasts S1x4x8192
  slices_S2x4x8192_S1x4x8192_0_0_0 : S2x4x8192.Slices ![0, 0, 0] S1x4x8192
  slices_S2x4x8192_S1x4x8192_1_0_0 : S2x4x8192.Slices ![1, 0, 0] S1x4x8192
  bcast_S4x1024_S4x1024x1_0_1 : S4x1024.BroadcastsInDim S4x1024x1 (![0, 1] : Fin 2 → Fin S4x1024x1.rank)
  reducesTo_S4x1024x1_S_d0_1_2 : S4x1024x1.ReducesTo [0, 1, 2] S_
  h_S_ : 0 < S_.numel
  reducesTo_S4x8192_S_d0_1 : S4x8192.ReducesTo [0, 1] S_
  hrank0 : 0 < grid0.rank
  k0_mult1_dvd : ∀ i : grid0.Coords, 1024 ∣ (k0_mult1 i).toNat
  k0_off1_inb : ∀ i : grid0.Coords, ∀ a, (k0_off1 i) a + S4x1024.size a ≤ S4x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x3x512.size a ≤ S4x3x8192.size a
  hwx0_0 : ∀ i : grid0.Coords, EltTy.bits .f32 = 32 ∨ (Rect.block (s := S4x3x8192) S4x3x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x3x1024.size a ≤ S4x3x8192.size a
  hwx0_1 : ∀ i : grid0.Coords, EltTy.bits .f32 = 32 ∨ (Rect.block (s := S4x3x8192) S4x3x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x512.size a ≤ S4x8192.size a
  hwx0_2 : ∀ i : grid0.Coords, EltTy.bits .f32 = 32 ∨ (Rect.block (s := S4x8192) S4x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4x8192.size a ≤ S2x4x8192.size a
  hwx0_3 : ∀ i : grid0.Coords, EltTy.bits .f32 = 32 ∨ (Rect.block (s := S2x4x8192) S1x4x8192.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x3x512.size a ≤ S4x3x1024.size a
  hwx1_0 : ∀ i : grid1.Coords, EltTy.bits .f32 = 32 ∨ (Rect.block (s := S4x3x1024) S4x3x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x3x1024.size a ≤ S4x3x8192.size a
  hwx1_1 : ∀ i : grid1.Coords, EltTy.bits .f32 = 32 ∨ (Rect.block (s := S4x3x8192) S4x3x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x512.size a ≤ S4x1024.size a
  hwx1_2 : ∀ i : grid1.Coords, EltTy.bits .f32 = 32 ∨ (Rect.block (s := S4x1024) S4x512.size (cc1_transform_2 i) (hinb1_2 i)).WholeWords (EltTy.packing .f32)

variable [Facts₀]

abbrev win0_0 : Pipeline.Window sig grid0 :=
  Pipeline.Window.ofSpec (Memref.whole main_v0) S4x3x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x3x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3_0) S4x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_1) S1x4x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond3 i == 1#1) | ⟨_ + 4, h⟩ => absurd h (Nat.not_lt.2 (Nat.le_add_left _ _))

abbrev win1_0 : Pipeline.Window sig grid1 :=
  Pipeline.Window.ofSpec (Memref.whole main_v2) S4x3x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S4x3x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S4x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x8192x3 : Shape := ⟨3, ![4, 8192, 3]⟩
abbrev S4x2048x3 : Shape := ⟨3, ![4, 2048, 3]⟩
abbrev S4x1024x1 : Shape := ⟨3, ![4, 1024, 1]⟩
abbrev S4x1024x3 : Shape := ⟨3, ![4, 1024, 3]⟩
abbrev S_ : Shape := ⟨0, ![]⟩
abbrev S4x1024 : Shape := ⟨2, ![4, 1024]⟩
abbrev S4x8192 : Shape := ⟨2, ![4, 8192]⟩
abbrev S4x1x8192 : Shape := ⟨3, ![4, 1, 8192]⟩
abbrev S4x1024x8192 : Shape := ⟨3, ![4, 1024, 8192]⟩
abbrev S4x8192x1 : Shape := ⟨3, ![4, 8192, 1]⟩
abbrev S4x8192x8192 : Shape := ⟨3, ![4, 8192, 8192]⟩

abbrev nBuf : Space → Nat
  | .hbm => 83
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x2048x3, .f32⟩
  | .hbm, ⟨2, _⟩ => ⟨S4x1024x1, .f32⟩
  | .hbm, ⟨3, _⟩ => ⟨S4x8192x3, .f32⟩
  | .hbm, ⟨4, _⟩ => ⟨S4x1024x3, .f32⟩
  | .hbm, ⟨5, _⟩ => ⟨S4x1024x3, .f32⟩
  | .hbm, ⟨6, _⟩ => ⟨S_, .f32⟩
  | .hbm, ⟨7, _⟩ => ⟨S4x1024, .f32⟩
  | .hbm, ⟨8, _⟩ => ⟨S4x1024x1, .f32⟩
  | .hbm, ⟨9, _⟩ => ⟨S4x8192x3, .f32⟩
  | .hbm, ⟨10, _⟩ => ⟨S_, .f32⟩
  | .hbm, ⟨11, _⟩ => ⟨S4x8192, .f32⟩
  | .hbm, ⟨12, _⟩ => ⟨S4x1x8192, .f32⟩
  | .hbm, ⟨13, _⟩ => ⟨S4x1024x8192, .f32⟩
  | .hbm, ⟨14, _⟩ => ⟨S4x1024x8192, .f32⟩
  | .hbm, ⟨15, _⟩ => ⟨S4x1024x8192, .f32⟩
  | .hbm, ⟨16, _⟩ => ⟨S4x1024x8192, .f32⟩
  | .hbm, ⟨17, _⟩ => ⟨S_, .f32⟩
  | .hbm, ⟨18, _⟩ => ⟨S4x1024x8192, .f32⟩
  | .hbm, ⟨19, _⟩ => ⟨S4x1024x8192, .f32⟩
  | .hbm, ⟨20, _⟩ => ⟨S4x1024x8192, .f32⟩
  | .hbm, ⟨21, _⟩ => ⟨S_, .f32⟩
  | .hbm, ⟨22, _⟩ => ⟨S4x1024x8192, .f32⟩
  | .hbm, ⟨23, _⟩ => ⟨S4x1024x8192, .f32⟩
  | .hbm, ⟨24, _⟩ => ⟨S_, .f32⟩
  | .hbm, ⟨25, _⟩ => ⟨S4x1024, .f32⟩
  | .hbm, ⟨26, _⟩ => ⟨S4x1024, .f32⟩
  | .hbm, ⟨27, _⟩ => ⟨S4x1024, .f32⟩
  | .hbm, ⟨28, _⟩ => ⟨S4x1024, .f32⟩
  | .hbm, ⟨29, _⟩ => ⟨S4x1024x1, .f32⟩
  | .hbm, ⟨30, _⟩ => ⟨S4x1024x1, .f32⟩
  | .hbm, ⟨31, _⟩ => ⟨S4x1024x1, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S4x8192x3, .f32⟩
  | .hbm, ⟨37, _⟩ => ⟨S_, .f32⟩
  | .hbm, ⟨38, _⟩ => ⟨S4x8192, .f32⟩
  | .hbm, ⟨39, _⟩ => ⟨S4x8192x1, .f32⟩
  | .hbm, ⟨40, _⟩ => ⟨S4x8192x3, .f32⟩
  | .hbm, ⟨41, _⟩ => ⟨S_, .f32⟩
  | .hbm, ⟨42, _⟩ => ⟨S4x8192, .f32⟩
  | .hbm, ⟨43, _⟩ => ⟨S4x1x8192, .f32⟩
  | .hbm, ⟨44, _⟩ => ⟨S4x8192x8192, .f32⟩
  | .hbm, ⟨45, _⟩ => ⟨S4x8192x8192, .f32⟩
  | .hbm, ⟨46, _⟩ => ⟨S4x8192x8192, .f32⟩
  | .hbm, ⟨47, _⟩ => ⟨S4x8192x8192, .f32⟩
  | .hbm, ⟨48, _⟩ => ⟨S_, .f32⟩
  | .hbm, ⟨49, _⟩ => ⟨S4x8192x8192, .f32⟩
  | .hbm, ⟨50, _⟩ => ⟨S4x8192x8192, .f32⟩
  | .hbm, ⟨51, _⟩ => ⟨S4x8192x8192, .f32⟩
  | .hbm, ⟨52, _⟩ => ⟨S_, .f32⟩
  | .hbm, ⟨53, _⟩ => ⟨S4x8192x8192, .f32⟩
  | .hbm, ⟨54, _⟩ => ⟨S4x8192x8192, .f32⟩
  | .hbm, ⟨55, _⟩ => ⟨S_, .f32⟩
  | .hbm, ⟨56, _⟩ => ⟨S4x8192, .f32⟩
  | .hbm, ⟨57, _⟩ => ⟨S_, .f32⟩
  | .hbm, ⟨58, _⟩ => ⟨S4x8192, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S4x8192, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_cst_10 : Ref sig .tc := ⟨.hbm, 55, rfl⟩
abbrev main_v39 : Ref sig .tc := ⟨.hbm, 56, rfl⟩
abbrev main_cst_11 : Ref sig .tc := ⟨.hbm, 57, rfl⟩
abbrev main_v40 : Ref sig .tc := ⟨.hbm, 58, rfl⟩
abbrev main_cst_12 : Ref sig .tc := ⟨.hbm, 59, rfl⟩
abbrev main_v41 : Ref sig .tc := ⟨.hbm, 60, rfl⟩
abbrev main_cst_13 : Ref sig .tc := ⟨.hbm, 61, rfl⟩
abbrev main_v42 : Ref sig .tc := ⟨.hbm, 62, rfl⟩
abbrev main_cst_14 : Ref sig .tc := ⟨.hbm, 63, rfl⟩
abbrev main_v43 : Ref sig .tc := ⟨.hbm, 64, rfl⟩
abbrev main_cst_15 : Ref sig .tc := ⟨.hbm, 65, rfl⟩
abbrev main_v44 : Ref sig .tc := ⟨.hbm, 66, rfl⟩
abbrev main_cst_16 : Ref sig .tc := ⟨.hbm, 67, rfl⟩
abbrev main_v45 : Ref sig .tc := ⟨.hbm, 68, rfl⟩
abbrev main_cst_17 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_18 : Ref sig .tc := ⟨.hbm, 73, rfl⟩
abbrev main_v49 : Ref sig .tc := ⟨.hbm, 74, rfl⟩
abbrev main_cst_19 : Ref sig .tc := ⟨.hbm, 75, rfl⟩
abbrev main_v50 : Ref sig .tc := ⟨.hbm, 76, rfl⟩
abbrev main_cst_20 : Ref sig .tc := ⟨.hbm, 77, rfl⟩
abbrev main_v51 : Ref sig .tc := ⟨.hbm, 78, rfl⟩
abbrev main_cst_21 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩

abbrev nD : Nat := 1
abbrev τ : Topo := Topo.v7x

variable {F : FTy → Type} [FloatOps F]

class Facts₀ : Prop where
  reducesTo_S4x1024x3_S4x1024_d2 : S4x1024x3.ReducesTo [2] S4x1024
  h_S_ : 0 < S_.numel
  bcast_S4x1024_S4x1024x1_0_1 : S4x1024.BroadcastsInDim S4x1024x1 (![0, 1] : Fin 2 → Fin S4x1024x1.rank)
  reducesTo_S4x8192x3_S4x8192_d2 : S4x8192x3.ReducesTo [2] S4x8192
  bcast_S4x8192_S4x1x8192_0_2 : S4x8192.BroadcastsInDim S4x1x8192 (![0, 2] : Fin 2 → Fin S4x1x8192.rank)
  bcast_S4x1024x1_S4x1024x8192_0_1_2 : S4x1024x1.BroadcastsInDim S4x1024x8192 (![0, 1, 2] : Fin 3 → Fin S4x1024x8192.rank)
  bcast_S4x1x8192_S4x1024x8192_0_1_2 : S4x1x8192.BroadcastsInDim S4x1024x8192 (![0, 1, 2] : Fin 3 → Fin S4x1024x8192.rank)
  bcast_S_S4x1024x8192 : S_.BroadcastsInDim S4x1024x8192 (![] : Fin 0 → Fin S4x1024x8192.rank)
  reducesTo_S4x1024x8192_S4x1024_d2 : S4x1024x8192.ReducesTo [2] S4x1024
  reducesTo_S4x1024x1_S_d0_1_2 : S4x1024x1.ReducesTo [0, 1, 2] S_
  bcast_S4x8192_S4x8192x1_0_1 : S4x8192.BroadcastsInDim S4x8192x1 (![0, 1] : Fin 2 → Fin S4x8192x1.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192x8192_S4x8192_d1 : S4x8192x8192.ReducesTo [1] S4x8192
  reducesTo_S4x8192_S_d0_1 : S4x8192.ReducesTo [0, 1] S_
  dot_S4x1024x3_S4x8192x3_S4x1024x8192_2_2_1_1_0_0_wf : DotDims.WF S4x1024x3 S4x8192x3 S4x1024x8192 [2] [2] [1] [1] [0] [0]
  dot_S4x8192x3_S4x8192x3_S4x8192x8192_2_2_1_1_0_0_wf : DotDims.WF S4x8192x3 S4x8192x3 S4x8192x8192 [2] [2] [1] [1] [0] [0]

variable [Facts₀]

def dot_S4x1024x3_S4x8192x3_S4x1024x8192_2_2_1_1_0_0 : DotDims S4x1024x3 S4x8192x3 S4x1024x8192 where
  lhsContracting := [2]
  rhsContracting := [2]
  lhsNonContracting := [1]
  rhsNonContracting := [1]
  lhsBatch := [0]
  rhsBatch := [0]
  wf := dot_S4x1024x3_S4x8192x3_S4x1024x8192_2_2_1_1_0_0_wf
def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.Kernel.Region0.Defs.lean ====
/-
  The first pallas_call (the fused nearest-neighbour kernel) over its grid of 2 x 8 x 8 points (core half c,
  query tile i, database tile j; point t = 64 c + 8 i + j): which of the body's three conditionals hold at a
  point, in closed form, where its second output window is idle, and the memrefs a point's body is called on.
  The body resets its scratch running minimum (over query tiles, per database column) where i = 0 and j = 0,
  resets the first output's running minimum (over database tiles, per query row) where j = 0, and copies the
  scratch to the second output where i = 7 and j = 7.
-/
import proofs.«115777_j15960098472629_2_alg».proof.Proof.Gen.Kernel.Launch
import proofs.«115777_j15960098472629_2_alg».proof.Proof.Gen.Kernel.Skeleton
import proofs.«115777_j15960098472629_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's three conditions -/

/-- The scratch is reset: query tile 0 and database tile 0 of a core half. -/
abbrev cond0_0 (i : grid0.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
theorem hcond0_0 : ∀ t : Fin cfg0.N, cond0_0 (grid0.coords t) ↔ t.val % 64 = 0 :=
  (by decide +kernel : ∀ t : Fin grid0.N, cond0_0 (grid0.coords t) ↔ t.val % 64 = 0)

/-- The first output's block is reset: database tile 0. -/
abbrev cond0_1 (i : grid0.Coords) : Prop := (Scalar.cmpi .ne (Scalar.extui (Scalar.cmpi .eq (BitVec.ofNat 32 (i 2).val) 0#32)) 0#32) = 1#1
theorem hcond0_1 : ∀ t : Fin cfg0.N, cond0_1 (grid0.coords t) ↔ t.val % 8 = 0 :=
  (by decide +kernel : ∀ t : Fin grid0.N, cond0_1 (grid0.coords t) ↔ t.val % 8 = 0)

/-- The scratch is copied out: the last query tile and the last database tile of a core half. -/
abbrev cond0_2 (i : grid0.Coords) : Prop := k0_cond3 i = 1#1
theorem hcond0_2 : ∀ t : Fin cfg0.N, cond0_2 (grid0.coords t) ↔ t.val % 64 = 63 :=
  (by decide +kernel : ∀ t : Fin grid0.N, cond0_2 (grid0.coords t) ↔ t.val % 64 = 63)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the copy-out points the second output is idle and is not written back. -/
theorem idleAt0_3 : ∀ t : Fin cfg0.N, ¬cond0_2 (grid0.coords t) → cfg0.idle 3 (grid0.coords t) = true := by decide +kernel
theorem noFlush0_3 : ∀ t : Fin cfg0.N, ¬cond0_2 (grid0.coords t) → (cfg0.win 3).flush t = false := by decide +kernel
theorem liveAt0_3 : ∀ t : Fin cfg0.N, cond0_2 (grid0.coords t) → cfg0.idle 3 (grid0.coords t) = false := by decide +kernel

/-! ## The memrefs a point's body is called on -/

abbrev ms0_0 (t : Fin cfg0.N) : Memref sig .tc .vmem S4x3x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x3x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x4x8192 .f32 := win0_3.stage (cfg0.slots t 3)
abbrev hs0_3 (t : Fin cfg0.N) : (ms0_3 t).IsWhole := hstage0_3 ((cfg0.slots t 3).cast nbuf0_3)
/-- The scratch: a whole scoped buffer of the kernel's own. -/
abbrev scM0 : Memref sig .tc .vmem S4x8192 .f32 := Memref.whole cc0_scratch0
theorem hscM0 : (scM0 : Memref sig .tc .vmem S4x8192 .f32).IsWhole := Memref.isWhole_whole _

/-- The core's other scoped buffers (the second pallas_call's staging buffers), each whole at some contents: they
    ride through this pallas_call untouched. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The class invariant with the scratch as a memref owned at some contents. -/
theorem PhiA0_eq (c : Dev nD) :
    (Pipeline.ΦA spec0 c : sProp 𝕄)
      = iprop(iprop((∃ d, owns (c : Thread nD τ) scM0 fullShare d) ∗ others0 c) ∗ (∃ r, prngReg c r)) := by
  unfold Pipeline.ΦA others0; rw [scopedRest0_eq]; simp only [scM0, owns_whole]; try rfl

end Cert.Kernel.Hand

end
-- ==== Proof.Kernel.Region0.RunA.lean ====
/-
  The fused nearest-neighbour kernel's body run whole at a point of case A of its conditionals.
-/
import proofs.«115777_j15960098472629_2_alg».proof.Proof.Kernel.Region0.Defs

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple at a point of case A: on whole memrefs, the two input blocks at their contents, the first output's block at anything, the second output's block (idle here) at contents handed back untouched, the scratch at anything, the body runs to the continuation with the
    inputs as they were and each buffer it stores into with its stores written, as pieces, last first: the pieces are the
    witness the run finds. -/
noncomputable def kernelRun0_A (c : Dev nD) (i : grid0.Coords) (arg3 : Memref sig .tc .vmem S4x3x512 .f32) (harg3 : arg3.IsWhole) (arg4 : Memref sig .tc .vmem S4x3x1024 .f32) (harg4 : arg4.IsWhole) (arg5 : Memref sig .tc .vmem S4x512 .f32) (harg5 : arg5.IsWhole) (arg6 : Memref sig .tc .vmem S1x4x8192 .f32) (harg6 : arg6.IsWhole) (arg7 : Memref sig .tc .vmem S4x8192 .f32) (harg7 : arg7.IsWhole) (hc0 : cond0_0 i) (hc1 : cond0_1 i) (hc2 : ¬cond0_2 i)
    (x0 : Vec F S4x3x512 .f32) (x1 : Vec F S4x3x1024 .f32) :
    Σ' (L2 : List (View.Piece (Elt F) S4x512 .f32)), { LS : List (View.Piece (Elt F) S4x8192 .f32) //
      ∀ (xi3 : Vec F S1x4x8192 .f32) (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc0__fused_updist_kernel i arg3 harg3 arg4 harg4 arg5 harg5 arg6 harg6 arg7 harg7) K } := by
  refine ⟨?_, ?_, fun xi3 E K => ?run⟩
  case run =>
    simp only [cc0__fused_updist_kernel_eq_skeleton]; unfold cc0__fused_updist_kernel_skel
    simp only [k0_part1_eq_skeleton]
    unfold owns
    iintro ⟨⟨%f0, %hf0, H0⟩, ⟨%f1, %hf1, H1⟩, ⟨%d2, %f2, -, H2⟩, ⟨%f3, %hf3, H3⟩, ⟨%ds, %fs, -, HS⟩, Hk⟩
    obtain rfl := harg3.eq_unread hf0; obtain rfl := harg4.eq_unread hf1; obtain rfl := harg6.eq_unread hf3
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H3]
    · iexists _; isplitr; · ipureintro; exact harg6.read_unread _
      iexact H3
    iexists _; iexact HS

end Cert.Kernel.Hand

end
-- ==== Proof.Kernel.Region0.RunB.lean ====
/-
  The fused nearest-neighbour kernel's body run whole at a point of case B of its conditionals.
-/
import proofs.«115777_j15960098472629_2_alg».proof.Proof.Kernel.Region0.RunA

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple at a point of case B: on whole memrefs, the two input blocks at their contents, the first output's block at anything, the second output's block (idle here) at contents handed back untouched, the scratch at what the point before left, the body runs to the continuation with the
    inputs as they were and each buffer it stores into with its stores written, as pieces, last first: the pieces are the
    witness the run finds. -/
noncomputable def kernelRun0_B (c : Dev nD) (i : grid0.Coords) (arg3 : Memref sig .tc .vmem S4x3x512 .f32) (harg3 : arg3.IsWhole) (arg4 : Memref sig .tc .vmem S4x3x1024 .f32) (harg4 : arg4.IsWhole) (arg5 : Memref sig .tc .vmem S4x512 .f32) (harg5 : arg5.IsWhole) (arg6 : Memref sig .tc .vmem S1x4x8192 .f32) (harg6 : arg6.IsWhole) (arg7 : Memref sig .tc .vmem S4x8192 .f32) (harg7 : arg7.IsWhole) (hc0 : ¬cond0_0 i) (hc1 : cond0_1 i) (hc2 : ¬cond0_2 i)
    (x0 : Vec F S4x3x512 .f32) (x1 : Vec F S4x3x1024 .f32) (xs : Vec F S4x8192 .f32) :
    Σ' (L2 : List (View.Piece (Elt F) S4x512 .f32)), { LS : List (View.Piece (Elt F) S4x8192 .f32) //
      ∀ (xi3 : Vec F S1x4x8192 .f32) (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xi3 ∗ owns (c : Thread nD τ) arg7 fullShare xs
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ owns (c : Thread nD τ) arg6 fullShare xi3 ∗ (arg7.view.loc (c : Thread nD τ) ↦[arg7.view.set]{fullShare} arg7.view.writes (Elt F) (harg7.unread xs) LS)) -∗ K ⟨⟩))
          ⊢ wp frame (wpE (defs₀ (F := F)) Variants.none c none) E (cc0__fused_updist_kernel i arg3 harg3 arg4 harg4 arg5 harg5 arg6 harg6 arg7 harg7) K } := by
  refine ⟨?_, ?_, fun xi3 E K => ?run⟩
  case run =>
    simp only [cc0__fused_updist_kernel_eq_skeleton]; unfold cc0__fused_updist_kernel_skel
    simp only [k0_part1_eq_skeleton]
    unfold owns
    iintro ⟨⟨%f0, %hf0, H0⟩, ⟨%f1, %hf1, H1⟩, ⟨%d2, %f2, -, H2⟩, ⟨%f3, %hf3, H3⟩, ⟨%fs, %hfs, HS⟩, Hk⟩
    obtain rfl := harg3.eq_unread hf0; obtain rfl := harg4.eq_unread hf1; obtain rfl := harg6.eq_unread hf3; obtain rfl := harg7.eq_unread hfs
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H3]
    · iexists _; isplitr; · ipureintro; exact harg6.read_unread _
      iexact H3
    iexact HS

end Cert.Kernel.Hand

end
-- ==== Proof.Kernel.Region0.RunC.lean ====
/-
  The fused nearest-neighbour kernel's body run whole at a point of case C of its conditionals.
-/
import proofs.«115777_j15960098472629_2_alg».proof.Proof.Kernel.Region0.RunB

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple at a point of case C: on whole memrefs, the two input blocks at their contents, the first output's block at the running minimum the point before left, the second output's block (idle here) at contents handed back untouched, the scratch at what the point before left, the body runs to the continuation with the
    inputs as they were and each buffer it stores into with its stores written, as pieces, last first: the pieces are the
    witness the run finds. -/
noncomputable def kernelRun0_C (c : Dev nD) (i : grid0.Coords) (arg3 : Memref sig .tc .vmem S4x3x512 .f32) (harg3 : arg3.IsWhole) (arg4 : Memref sig .tc .vmem S4x3x1024 .f32) (harg4 : arg4.IsWhole) (arg5 : Memref sig .tc .vmem S4x512 .f32) (harg5 : arg5.IsWhole) (arg6 : Memref sig .tc .vmem S1x4x8192 .f32) (harg6 : arg6.IsWhole) (arg7 : Memref sig .tc .vmem S4x8192 .f32) (harg7 : arg7.IsWhole) (hc0 : ¬cond0_0 i) (hc1 : ¬cond0_1 i) (hc2 : ¬cond0_2 i)
    (x0 : Vec F S4x3x512 .f32) (x1 : Vec F S4x3x1024 .f32) (xo2 : Vec F S4x512 .f32) (xs : Vec F S4x8192 .f32) :
    Σ' (L2 : List (View.Piece (Elt F) S4x512 .f32)), { LS : List (View.Piece (Elt F) S4x8192 .f32) //
      ∀ (xi3 : Vec F S1x4x8192 .f32) (E : Set ℕ) (K : PUnit → sProp 𝕄),
        iprop(owns (c : Thread nD τ) arg3 fullShare x0 ∗ owns (c : Thread nD τ) arg4 fullShare x1 ∗ owns (c : Thread nD τ) arg5 fullShare xo2 ∗ owns (c : Thread nD τ) arg6 fullShare xi3 ∗ owns (c : Thread nD τ) arg7 fullShare xs
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ owns (c : Thread nD τ) arg6 fullShare xi3 ∗ (arg7.view.loc (c : Thread nD τ) ↦[arg7.view.set]{fullShare} arg7.view.writes (Elt F) (harg7.unread xs) LS)) -∗ K ⟨⟩))
          ⊢ wp frame (wpE (defs₀ (F := F)) Variants.none c none) E (cc0__fused_updist_kernel i arg3 harg3 arg4 harg4 arg5 harg5 arg6 harg6 arg7 harg7) K } := by
  refine ⟨?_, ?_, fun xi3 E K => ?run⟩
  case run =>
    simp only [cc0__fused_updist_kernel_eq_skeleton]; unfold cc0__fused_updist_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H3]
    · iexists _; isplitr; · ipureintro; exact harg6.read_unread _
      iexact H3
    iexact HS

end Cert.Kernel.Hand

end
-- ==== Proof.Kernel.Region0.RunD.lean ====
/-
  The fused nearest-neighbour kernel's body run whole at a point of case D of its conditionals.
-/
import proofs.«115777_j15960098472629_2_alg».proof.Proof.Kernel.Region0.RunC

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple at a point of case D: on whole memrefs, the two input blocks at their contents, the first output's block at the running minimum the point before left, the second output's block at anything, the scratch at what the point before left, the body runs to the continuation with the
    inputs as they were and each buffer it stores into with its stores written, as pieces, last first: the pieces are the
    witness the run finds. -/
noncomputable def kernelRun0_D (c : Dev nD) (i : grid0.Coords) (arg3 : Memref sig .tc .vmem S4x3x512 .f32) (harg3 : arg3.IsWhole) (arg4 : Memref sig .tc .vmem S4x3x1024 .f32) (harg4 : arg4.IsWhole) (arg5 : Memref sig .tc .vmem S4x512 .f32) (harg5 : arg5.IsWhole) (arg6 : Memref sig .tc .vmem S1x4x8192 .f32) (harg6 : arg6.IsWhole) (arg7 : Memref sig .tc .vmem S4x8192 .f32) (harg7 : arg7.IsWhole) (hc0 : ¬cond0_0 i) (hc1 : ¬cond0_1 i) (hc2 : cond0_2 i)
    (x0 : Vec F S4x3x512 .f32) (x1 : Vec F S4x3x1024 .f32) (xo2 : Vec F S4x512 .f32) (xs : Vec F S4x8192 .f32) :
    Σ' (L2 : List (View.Piece (Elt F) S4x512 .f32)), Σ' (L3 : List (View.Piece (Elt F) S1x4x8192 .f32)), { LS : List (View.Piece (Elt F) S4x8192 .f32) //
      ∀ (E : Set ℕ) (K : PUnit → sProp 𝕄),
        iprop(owns (c : Thread nD τ) arg3 fullShare x0 ∗ owns (c : Thread nD τ) arg4 fullShare x1 ∗ owns (c : Thread nD τ) arg5 fullShare xo2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f L3) ∗ (arg7.view.loc (c : Thread nD τ) ↦[arg7.view.set]{fullShare} arg7.view.writes (Elt F) (harg7.unread xs) LS)) -∗ K ⟨⟩))
          ⊢ wp frame (wpE (defs₀ (F := F)) Variants.none c none) E (cc0__fused_updist_kernel i arg3 harg3 arg4 harg4 arg5 harg5 arg6 harg6 arg7 harg7) K } := by
  refine ⟨?_, ?_, ?_, fun E K => ?run⟩
  case run =>
    simp only [cc0__fused_updist_kernel_eq_skeleton]; unfold cc0__fused_updist_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H3]; · iexists _; iexact H3
    iexact HS

end Cert.Kernel.Hand

end
-- ==== Proof.Kernel.Region0.Step.lean ====
/-
  The first pallas_call, point by point: what its first output's block (the running minimum over database tiles of a
  query tile's rows), its second output's block (the copy-out of the scratch) and its scratch (the running minimum
  over a core half's query tiles, per database column) hold after each point, by recursion on the point; the
  pipeline's proof data over these; and the body obligation. Stated at a parameter V: the buffer contents when the
  pallas_call is entered.
-/
import proofs.«115777_j15960098472629_2_alg».proof.Proof.Kernel.Region0.RunD

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the pallas_call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## One point's step -/

/-- The views through which the buffers' contents are stated. -/
abbrev VO0_2 : View sig .tc .vmem S4x512 .f32 := (Memref.whole cc0_stg2_0 : Memref sig .tc .vmem S4x512 .f32).view
abbrev VO0_3 : View sig .tc .vmem S1x4x8192 .f32 := (Memref.whole cc0_stg3_0 : Memref sig .tc .vmem S1x4x8192 .f32).view
abbrev VS0 : View sig .tc .vmem S4x8192 .f32 := (scM0 : Memref sig .tc .vmem S4x8192 .f32).view

/-- After a point: the first output's block, the second output's block, the scratch. -/
abbrev St0 (F : FTy → Type) [FloatOps F] : Type := Vec F S4x512 .f32 × Vec F S1x4x8192 .f32 × Vec F S4x8192 .f32

/-- Contents nothing consults (an idle window's block; the state before the first point). -/
def junk0 : St0 F := (VO0_2.read (Elt F) VO0_2.junk, VO0_3.read (Elt F) VO0_3.junk, VS0.read (Elt F) VS0.junk)

section Point
variable (c : Dev nD) (t : Fin cfg0.N)

/-- Case A: both resets, no copy-out. -/
def runA (h0 : t.val % 64 = 0) :=
  kernelRun0_A (F := F) c (grid0.coords t) (ms0_0 t) (hs0_0 t) (ms0_1 t) (hs0_1 t) (ms0_2 t) (hs0_2 t) (ms0_3 t) (hs0_3 t) scM0 hscM0 ((hcond0_0 t).mpr h0) ((hcond0_1 t).mpr (by omega)) (fun h => by have := (hcond0_2 t).mp h; omega) (iblk0 V c 0 t) (iblk0 V c 1 t)
/-- Case B: the first output's block reset only. -/
def runB (h0 : ¬t.val % 64 = 0) (h1 : t.val % 8 = 0) (xs : Vec F S4x8192 .f32) :=
  kernelRun0_B (F := F) c (grid0.coords t) (ms0_0 t) (hs0_0 t) (ms0_1 t) (hs0_1 t) (ms0_2 t) (hs0_2 t) (ms0_3 t) (hs0_3 t) scM0 hscM0 (fun h => h0 ((hcond0_0 t).mp h)) ((hcond0_1 t).mpr h1) (fun h => by have := (hcond0_2 t).mp h; omega) (iblk0 V c 0 t) (iblk0 V c 1 t) xs
/-- Case C: no reset, no copy-out. -/
def runC (h1 : ¬t.val % 8 = 0) (h2 : ¬t.val % 64 = 63) (xo2 : Vec F S4x512 .f32) (xs : Vec F S4x8192 .f32) :=
  kernelRun0_C (F := F) c (grid0.coords t) (ms0_0 t) (hs0_0 t) (ms0_1 t) (hs0_1 t) (ms0_2 t) (hs0_2 t) (ms0_3 t) (hs0_3 t) scM0 hscM0 (fun h => by have := (hcond0_0 t).mp h; omega) (fun h => h1 ((hcond0_1 t).mp h)) (fun h => h2 ((hcond0_2 t).mp h)) (iblk0 V c 0 t) (iblk0 V c 1 t) xo2 xs
/-- Case D: no reset, the copy-out. -/
def runD (h2 : t.val % 64 = 63) (xo2 : Vec F S4x512 .f32) (xs : Vec F S4x8192 .f32) :=
  kernelRun0_D (F := F) c (grid0.coords t) (ms0_0 t) (hs0_0 t) (ms0_1 t) (hs0_1 t) (ms0_2 t) (hs0_2 t) (ms0_3 t) (hs0_3 t) scM0 hscM0 (fun h => by have := (hcond0_0 t).mp h; omega) (fun h => by have := (hcond0_1 t).mp h; omega) ((hcond0_2 t).mpr h2) (iblk0 V c 0 t) (iblk0 V c 1 t) xo2 xs

/-- What the buffers hold after point t's body, from what they held after the point before. -/
def step0 (prev : St0 F) : St0 F :=
  if h0 : t.val % 64 = 0 then
    (VO0_2.read (Elt F) (VO0_2.writes (Elt F) VO0_2.junk (runA V c t h0).1), junk0.2.1,
      VS0.read (Elt F) (VS0.writes (Elt F) VS0.junk (runA V c t h0).2.1))
  else if h1 : t.val % 8 = 0 then
    (VO0_2.read (Elt F) (VO0_2.writes (Elt F) VO0_2.junk (runB V c t h0 h1 prev.2.2).1), junk0.2.1,
      VS0.read (Elt F) (VS0.writes (Elt F) (hscM0.unread prev.2.2) (runB V c t h0 h1 prev.2.2).2.1))
  else if h2 : t.val % 64 = 63 then
    (VO0_2.read (Elt F) (VO0_2.writes (Elt F) VO0_2.junk (runD V c t h2 prev.1 prev.2.2).1),
      VO0_3.read (Elt F) (VO0_3.writes (Elt F) VO0_3.junk (runD V c t h2 prev.1 prev.2.2).2.1),
      VS0.read (Elt F) (VS0.writes (Elt F) (hscM0.unread prev.2.2) (runD V c t h2 prev.1 prev.2.2).2.2.1))
  else
    (VO0_2.read (Elt F) (VO0_2.writes (Elt F) VO0_2.junk (runC V c t h1 h2 prev.1 prev.2.2).1), junk0.2.1,
      VS0.read (Elt F) (VS0.writes (Elt F) (hscM0.unread prev.2.2) (runC V c t h1 h2 prev.1 prev.2.2).2.1))

theorem step0_A (prev : St0 F) (h0 : t.val % 64 = 0) : step0 V c t prev =
    (VO0_2.read (Elt F) (VO0_2.writes (Elt F) VO0_2.junk (runA V c t h0).1), junk0.2.1,
      VS0.read (Elt F) (VS0.writes (Elt F) VS0.junk (runA V c t h0).2.1)) := dif_pos h0
theorem step0_B (prev : St0 F) (h0 : ¬t.val % 64 = 0) (h1 : t.val % 8 = 0) : step0 V c t prev =
    (VO0_2.read (Elt F) (VO0_2.writes (Elt F) VO0_2.junk (runB V c t h0 h1 prev.2.2).1), junk0.2.1,
      VS0.read (Elt F) (VS0.writes (Elt F) (hscM0.unread prev.2.2) (runB V c t h0 h1 prev.2.2).2.1)) :=
  (dif_neg h0).trans (dif_pos h1)
theorem step0_D (prev : St0 F) (h2 : t.val % 64 = 63) : step0 V c t prev =
    (VO0_2.read (Elt F) (VO0_2.writes (Elt F) VO0_2.junk (runD V c t h2 prev.1 prev.2.2).1),
      VO0_3.read (Elt F) (VO0_3.writes (Elt F) VO0_3.junk (runD V c t h2 prev.1 prev.2.2).2.1),
      VS0.read (Elt F) (VS0.writes (Elt F) (hscM0.unread prev.2.2) (runD V c t h2 prev.1 prev.2.2).2.2.1)) :=
  (dif_neg (by omega)).trans ((dif_neg (by omega)).trans (dif_pos h2))
theorem step0_C (prev : St0 F) (h1 : ¬t.val % 8 = 0) (h2 : ¬t.val % 64 = 63) : step0 V c t prev =
    (VO0_2.read (Elt F) (VO0_2.writes (Elt F) VO0_2.junk (runC V c t h1 h2 prev.1 prev.2.2).1), junk0.2.1,
      VS0.read (Elt F) (VS0.writes (Elt F) (hscM0.unread prev.2.2) (runC V c t h1 h2 prev.1 prev.2.2).2.1)) :=
  (dif_neg (by omega)).trans ((dif_neg h1).trans (dif_neg h2))

end Point

/-! ## The covers: a whole-block store is among each covered buffer's pieces -/

section Covers
variable (c : Dev nD) (t : Fin cfg0.N)

theorem cover0_A_2 (h0 : t.val % 64 = 0) (y : S4x512.Idx) : ∃ pc ∈ (runA V c t h0).1, y ∈ pc.1.set :=
  View.cover_of_tiledL (runA V c t h0).1 S4x512.size (by sl_kernel_rfl) y
theorem scover0_A (h0 : t.val % 64 = 0) (y : S4x8192.Idx) : ∃ pc ∈ (runA V c t h0).2.1, y ∈ pc.1.set :=
  View.cover_of_tiledL (runA V c t h0).2.1 S4x8192.size (by sl_kernel_rfl) y
theorem cover0_B_2 (h0 : ¬t.val % 64 = 0) (h1 : t.val % 8 = 0) (xs) (y : S4x512.Idx) : ∃ pc ∈ (runB V c t h0 h1 xs).1, y ∈ pc.1.set :=
  View.cover_of_tiledL (runB V c t h0 h1 xs).1 S4x512.size (by sl_kernel_rfl) y
theorem cover0_C_2 (h1 : ¬t.val % 8 = 0) (h2 : ¬t.val % 64 = 63) (xo2 xs) (y : S4x512.Idx) : ∃ pc ∈ (runC V c t h1 h2 xo2 xs).1, y ∈ pc.1.set :=
  View.cover_of_tiledL (runC V c t h1 h2 xo2 xs).1 S4x512.size (by sl_kernel_rfl) y
theorem cover0_D_2 (h2 : t.val % 64 = 63) (xo2 xs) (y : S4x512.Idx) : ∃ pc ∈ (runD V c t h2 xo2 xs).1, y ∈ pc.1.set :=
  View.cover_of_tiledL (runD V c t h2 xo2 xs).1 S4x512.size (by sl_kernel_rfl) y
theorem cover0_D_3 (h2 : t.val % 64 = 63) (xo2 xs) (y : S1x4x8192.Idx) : ∃ pc ∈ (runD V c t h2 xo2 xs).2.1, y ∈ pc.1.set :=
  View.cover_of_tiledL (runD V c t h2 xo2 xs).2.1 S1x4x8192.size (by sl_kernel_rfl) y

end Covers

end Cert.Kernel.Hand

end
-- ==== Proof.Kernel.Region0.Data.lean ====
/-
  The first pallas_call's proof data and body obligation: the buffers' contents after each point by recursion on the
  point (the step of the point's case over what the point before left), the invariant that carries the scratch at
  those contents from point to point, and the body's triple at every point from the four cases' runs.
-/
import proofs.«115777_j15960098472629_2_alg».proof.Proof.Kernel.Region0.Step

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The buffers after each point -/

/-- After position n: the step at n over what position n - 1 left (before the first point: contents nothing consults,
    the first point resets everything it reads). -/
def outsAt0 (c : Dev nD) : (n : ℕ) → n < cfg0.N → St0 F
  | 0, hn => step0 V c ⟨0, hn⟩ junk0
  | n + 1, hn => step0 V c ⟨n + 1, hn⟩ (outsAt0 c n (Nat.lt_of_succ_lt hn))

theorem outsAt0_pos (c : Dev nD) (t : Fin cfg0.N) (ht : t.val ≠ 0) :
    outsAt0 V c t.val t.isLt = step0 V c t (outsAt0 V c (t.val - 1) (Nat.lt_of_le_of_lt (Nat.sub_le _ _) t.isLt)) := by
  obtain ⟨n, hn⟩ := t
  cases n with
  | zero => exact absurd rfl ht
  | succ n => rfl

theorem outsAt0_A (c : Dev nD) (t : Fin cfg0.N) (h0 : t.val % 64 = 0) :
    outsAt0 V c t.val t.isLt = (VO0_2.read (Elt F) (VO0_2.writes (Elt F) VO0_2.junk (runA V c t h0).1), junk0.2.1,
      VS0.read (Elt F) (VS0.writes (Elt F) VS0.junk (runA V c t h0).2.1)) := by
  obtain ⟨n, hn⟩ := t
  cases n with
  | zero => exact step0_A V c _ _ h0
  | succ n => exact step0_A V c _ _ h0

/-! ## The invariant -/

/-- Before position n: at the first point the class's invariant (every scoped buffer at anything); afterwards the
    scratch at what the point before left, the other scoped buffers at anything, the generator register at some state. -/
def PhiS (c : Dev nD) : (n : ℕ) → n ≤ cfg0.N → sProp 𝕄
  | 0, _ => Pipeline.ΦA spec0 c
  | n + 1, hn => iprop(iprop(owns (c : Thread nD τ) scM0 fullShare ((outsAt0 V c n hn).2.2) ∗ others0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0 fullShare ((outsAt0 V c n hn).2.2) ∗ others0 c) ∗ (∃ r, prngReg c r)) := rfl
theorem PhiS_pos (c : Dev nD) (n : ℕ) (h : n ≤ cfg0.N) (hz : n ≠ 0) :
    PhiS V c n h = iprop(iprop(owns (c : Thread nD τ) scM0 fullShare ((outsAt0 V c (n - 1) (by omega)).2.2) ∗ others0 c) ∗ (∃ r, prngReg c r)) := by
  cases n with
  | zero => exact absurd rfl hz
  | succ n => rfl

/-! ## The proof data -/

/-- The proof data of the first pipeline on core c: the arrays as the pallas_call finds them; after the body at point t
    each input's buffer at its block and the outputs' at the recursion's components; the invariant above; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
/-- Away from database tile 0 the first output's buffer holds what the body left at the point before: it was not written
    back between. -/
theorem before0_2_acc (c : Dev nD) (t : Fin cfg0.N) (h1 : ¬t.val % 8 = 0) (d) :
    (dat0 V c).before 2 t d = (outsAt0 V c (t.val - 1) (Nat.lt_of_le_of_lt (Nat.sub_le _ _) t.isLt)).1 := by
  have hN : t.val < 128 := lt_of_lt_of_eq t.isLt (show cfg0.N = 128 from N_0)
  rw [Dat.before_out_kept _ 2 rfl t (by omega) (Bool.eq_false_iff.mpr fun h => by have := (flush0_2 _).mp h; dsimp only at this; omega)
    (fun _ => rfl) (fun _ _ => rfl)]
  dsimp only [dat0]

end Cert.Kernel.Hand

end
-- ==== Proof.Kernel.Region0.Body.lean ====
/-
  The first pallas_call's body obligation: at every point the body, called on the point's staging memrefs and the
  scratch, takes the invariant before the point to the invariant after it and leaves each window's buffer at the proof
  data's contents — by cases on the point's closed forms, each case its run.
-/
import proofs.«115777_j15960098472629_2_alg».proof.Proof.Kernel.Region0.Data

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

/-- The scratch handed to a run at a known previous contents, or at anything at a core half's first point. -/
theorem scratch_in (c : Dev nD) (t : Fin cfg0.N) (hz : t.val ≠ 0) :
    (dat0 V c).Φ t.castSucc = iprop(iprop(owns (c : Thread nD τ) scM0 fullShare ((outsAt0 V c (t.val - 1) (Nat.lt_of_le_of_lt (Nat.sub_le _ _) t.isLt)).2.2) ∗ others0 c) ∗ (∃ r, prngReg c r)) := by
  rw [PhiS_castSucc V c t, PhiS_pos V c _ _ hz]

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 128 := lt_of_lt_of_eq t.isLt (show cfg0.N = 128 from N_0)
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  rw [show (dat0 V c).leavesExact 2 t = owns (c : Thread nD τ) (ms0_2 t) fullShare ((dat0 V c).after 2 t) from by
      unfold Dat.leavesExact; rw [liveAt0_2 t], after0_2]
  by_cases h0 : t.val % 64 = 0
  · -- both resets
    rw [Dat.leavesExact_idle (dat0 V c) 3 t (idleAt0_3 t (fun h => by have := (hcond0_2 t).mp h; omega)) (noFlush0_3 t (fun h => by have := (hcond0_2 t).mp h; omega))]
    rw [outsAt0_A V c t h0]
    (try dsimp only)
    have hΦ : (dat0 V c).Φ t.castSucc ⊢ (iprop(iprop((∃ d, owns (c : Thread nD τ) scM0 fullShare d) ∗ others0 c) ∗ (∃ r, prngReg c r)) : sProp 𝕄) := by
      by_cases hz : t.val = 0
      · rw [PhiS_castSucc V c t, PhiS_zero V c _ _ hz, PhiA0_eq]
      · rw [scratch_in V c t hz]
        iintro ⟨⟨HS, Ho⟩, Hg⟩
        isplitl [HS Ho]
        · isplitl [HS]; · iexists _; iexact HS
          iexact Ho
        iexact Hg
    iintro ⟨HΦ, Ho, ⟨%d0, H0⟩, ⟨%d1, H1⟩, ⟨%d2, H2⟩, ⟨%d3, H3⟩⟩
    ihave HΦ' := hΦ $$ HΦ
    icases HΦ' with ⟨⟨HS, Hoth⟩, Hg⟩
    iapply ((runA V c t h0).2.2 _ Set.univ _)
    isplitl [H0]; · iexact H0
    isplitl [H1]; · iexact H1
    isplitl [H2]; · iexists _; iexact H2
    isplitl [H3]; · iexact H3
    isplitl [HS]; · iexact HS
    iintro ⟨H0, H1, ⟨%e2, H2⟩, H3, ⟨%es, HS⟩⟩
    isplitl [HS Hoth Hg]
    · isplitl [HS Hoth]
      · isplitl [HS]
        · unfold owns; iexists _; isplitr
          swap; · iexact HS
          ipureintro; exact View.read_writes_of_cover _ _ _ _ _ (scover0_A V c t h0)
        iexact Hoth
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 V c t h0)
    iexists _; iexact H3
  · have hz : t.val ≠ 0 := fun h => h0 (by rw [h])
    rw [scratch_in V c t hz, outsAt0_pos V c t hz]
    by_cases h1 : t.val % 8 = 0
    · -- the first output's block reset only
      rw [Dat.leavesExact_idle (dat0 V c) 3 t (idleAt0_3 t (fun h => by have := (hcond0_2 t).mp h; omega)) (noFlush0_3 t (fun h => by have := (hcond0_2 t).mp h; omega))]
      rw [step0_B V c t _ h0 h1]
      (try dsimp only)
      iintro ⟨⟨⟨HS, Hoth⟩, Hg⟩, Ho, ⟨%d0, H0⟩, ⟨%d1, H1⟩, ⟨%d2, H2⟩, ⟨%d3, H3⟩⟩
      iapply ((runB V c t h0 h1 _).2.2 _ Set.univ _)
      isplitl [H0]; · iexact H0
      isplitl [H1]; · iexact H1
      isplitl [H2]; · iexists _; iexact H2
      isplitl [H3]; · iexact H3
      isplitl [HS]; · iexact HS
      iintro ⟨H0, H1, ⟨%e2, H2⟩, H3, HS⟩
      isplitl [HS Hoth Hg]
      · isplitl [HS Hoth]
        · isplitl [HS]
          · unfold owns; iexists _; isplitr
            swap; · iexact HS
            ipureintro; rfl
          iexact Hoth
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_B_2 V c t h0 h1 _)
      iexists _; iexact H3
    · simp only [before0_2_acc V c t h1]
      by_cases h2 : t.val % 64 = 63
      · -- the copy-out
        rw [show (dat0 V c).leavesExact 3 t = owns (c : Thread nD τ) (ms0_3 t) fullShare ((dat0 V c).after 3 t) from by
          unfold Dat.leavesExact; rw [liveAt0_3 t ((hcond0_2 t).mpr h2)], after0_3, outsAt0_pos V c t hz]
        rw [step0_D V c t _ h2]
        (try dsimp only)
        iintro ⟨⟨⟨HS, Hoth⟩, Hg⟩, Ho, ⟨%d0, H0⟩, ⟨%d1, H1⟩, ⟨%d2, H2⟩, ⟨%d3, H3⟩⟩
        iapply ((runD V c t h2 _ _).2.2.2 Set.univ _)
        isplitl [H0]; · iexact H0
        isplitl [H1]; · iexact H1
        isplitl [H2]; · iexact H2
        isplitl [H3]; · iexists _; iexact H3
        isplitl [HS]; · iexact HS
        iintro ⟨H0, H1, ⟨%e2, H2⟩, ⟨%e3, H3⟩, HS⟩
        isplitl [HS Hoth Hg]
        · isplitl [HS Hoth]
          · isplitl [HS]
            · unfold owns; iexists _; isplitr
              swap; · iexact HS
              ipureintro; rfl
            iexact Hoth
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover0_D_2 V c t h2 _ _)
        unfold owns; iexists _; isplitr
        swap; · iexact H3
        ipureintro; exact View.read_writes_of_cover _ _ _ _ _ (cover0_D_3 V c t h2 _ _)
      · -- neither
        rw [Dat.leavesExact_idle (dat0 V c) 3 t (idleAt0_3 t (fun h => h2 ((hcond0_2 t).mp h))) (noFlush0_3 t (fun h => h2 ((hcond0_2 t).mp h)))]
        rw [step0_C V c t _ h1 h2]
        (try dsimp only)
        iintro ⟨⟨⟨HS, Hoth⟩, Hg⟩, Ho, ⟨%d0, H0⟩, ⟨%d1, H1⟩, ⟨%d2, H2⟩, ⟨%d3, H3⟩⟩
        iapply ((runC V c t h1 h2 _ _).2.2 _ Set.univ _)
        isplitl [H0]; · iexact H0
        isplitl [H1]; · iexact H1
        isplitl [H2]; · iexact H2
        isplitl [H3]; · iexact H3
        isplitl [HS]; · iexact HS
        iintro ⟨H0, H1, ⟨%e2, H2⟩, H3, HS⟩
        isplitl [HS Hoth Hg]
        · isplitl [HS Hoth]
          · isplitl [HS]
            · unfold owns; iexists _; isplitr
              swap; · iexact HS
              ipureintro; rfl
            iexact Hoth
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover0_C_2 V c t h1 h2 _ _)
        iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the pallas_call is the invariant before the first point. -/
theorem hin0 (c : Dev nD) : Pipeline.ΦA spec0 c ⊢ (dat0 V c).Φ 0 := by
  have h : (dat0 V c).Φ 0 = PhiS V c (0 : Fin (cfg0.N + 1)).val (Nat.le_of_lt_succ (0 : Fin (cfg0.N + 1)).isLt) := by dsimp only [dat0]
  rw [h, PhiS_zero V c _ _ (by simp)]

/-- After the last point the invariant gives the class's back: the scratch's named contents are forgotten. -/
theorem hout0 (c : Dev nD) : (dat0 V c).Φ (Fin.last cfg0.N) ⊢ Pipeline.ΦA spec0 c := by
  have hN : cfg0.N = 128 := N_0
  have h : (dat0 V c).Φ (Fin.last cfg0.N) = PhiS V c (Fin.last cfg0.N).val (Nat.le_of_lt_succ (Fin.last cfg0.N).isLt) := by dsimp only [dat0]
  rw [h, PhiS_pos V c _ _ (by rw [Fin.val_last]; omega), PhiA0_eq]
  iintro ⟨⟨HS, Ho⟩, Hg⟩
  isplitl [HS Ho]
  · isplitl [HS]; · iexists _; iexact HS
    iexact Ho
  iexact Hg

end Cert.Kernel.Hand

end
-- ==== Proof.Kernel.Region1.lean ====
import proofs.«115777_j15960098472629_2_alg».proof.Proof.Gen.Kernel.Launch
import proofs.«115777_j15960098472629_2_alg».proof.Proof.Gen.Kernel.Skeleton
import proofs.«115777_j15960098472629_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
# The radar-to-gt minimum distance: the second kernel call, at any entry contents

The grid is 2 x 8: the first coordinate picks a tile of 512 query points, the second a tile of 1024 gt
points. At every point the body reads the query tile `q : [4,3,512]` and the gt tile `d : [4,3,1024]`,
forms the squared distances `((qx-dx)^2 + (qy-dy)^2) + (qz-dz)^2` over `[4,512,1024]`, takes the minimum
along the gt axis, and stores `min(out, that row minimum)` back into the output tile `out : [4,512]`.
Where the second coordinate is 0 it first fills the output tile with `+inf`. So the output tile is a
running minimum over the second coordinate: reset at the start of each row of the grid, improved at each
later point, and written back to its array after the last point of the row.

Everything here is stated at a parameter `V`, the contents of the buffers when this kernel call begins,
and for every float instance.
-/

section Regions
variable (V : (c : Dev nD) → (b : Ref sig .tc) → Buf (Elt F) ((c : Thread nD τ).loc b))

/-! ## The reset condition -/

/-- The body's one branch condition, from the grid coordinates: "the gt-tile coordinate is 0". -/
abbrev resetCond1 (i : grid1.Coords) : Prop :=
  (Scalar.cmpi .ne (Scalar.extui (Scalar.cmpi .eq (BitVec.ofNat 32 (i 1).val) 0#32)) 0#32) = 1#1

/-- In the linear order of the 16 points it holds exactly at the points ≡ 0 (mod 8): the first point of each
    row of the grid. -/
theorem resetCond1_iff : ∀ t : Fin cfg1.N, resetCond1 (grid1.coords t) ↔ t.val % 8 = 0 :=
  (by decide +kernel : ∀ t : Fin grid1.N, resetCond1 (grid1.coords t) ↔ t.val % 8 = 0)

theorem hz2 : (![0, 0] : Fin 2 → Nat) = fun _ => 0 := funext fun a => by fin_cases a <;> rfl
theorem hz3 : (![0, 0, 0] : Fin 3 → Nat) = fun _ => 0 := funext fun a => by fin_cases a <;> rfl

/-! ## The windows' blocks -/

/-- Window `w`'s block at point `t`, read off its array as the kernel call finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's staging buffer holds the query tile of the point at every point, fetched there or not
    (where it is not fetched the tile index has not moved), for any proof data over `V` whose body leaves
    the tile in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the gt window. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's triple, case by case, with the output tile's contents explicit -/

set_option maxHeartbeats 1000000 in
/-- AT A RESET POINT. On whole staging buffers, the query tile at `x0`, the gt tile at `x1` and the output tile
    at anything, the body runs to the continuation with the inputs as they were and the output tile at
    `min(+inf, rowmin(sqd(x0, x1)))`: the `+inf` fill covers the tile, the read-back reads the fill, and the last
    store covers the tile again. -/
theorem run1_reset (c : Dev nD) (E : Set ℕ) (i : grid1.Coords)
    (arg2 : Memref sig .tc .vmem S4x3x512 .f32) (harg2 : arg2.IsWhole)
    (arg3 : Memref sig .tc .vmem S4x3x1024 .f32) (harg3 : arg3.IsWhole)
    (arg4 : Memref sig .tc .vmem S4x512 .f32) (harg4 : arg4.IsWhole) (hc0 : resetCond1 i)
    (x0 : Vec F S4x3x512 .f32) (x1 : Vec F S4x3x1024 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (k1_pay2 x0 x1 k1_pay1)) -∗ K ⟨⟩))
      ⊢ wp frame (wpE (defs₀ (F := F)) Variants.none c none) E (cc1__rad_mindist_kernel i arg2 harg2 arg3 harg3 arg4 harg4) K := by
  simp only [cc1__rad_mindist_kernel_eq_skeleton]; unfold cc1__rad_mindist_kernel_skel
  simp only [k1_part1_eq_skeleton]
  unfold owns
  iintro ⟨⟨%f0, %hf0, H0⟩, ⟨%f1, %hf1, H1⟩, ⟨%d2, %f2, -, H2⟩, Hk⟩
  subst hf0; subst hf1
  sl_exec (disch := first | exact hc0)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_cons_self, View.mem_set_unit_zero hz2 inb_S4x512_S4x512_0_0 y⟩),
    View.canon_cons_unit_zero (S := S4x512) hz2]
  sl_unfold_words
  rw [View.readCov_unit_zero (S := S4x512) _ hz2]
  simp only [View.readAt_eq_ld, View.ld_unit_zero (S := S4x3x512) hz3, View.ld_unit_zero (S := S4x3x1024) hz3]

set_option maxHeartbeats 1000000 in
/-- AT A LATER POINT OF A ROW. The same with the output tile at its running contents `xo`: it ends at
    `min(xo, rowmin(sqd(x0, x1)))`. -/
theorem run1_step (c : Dev nD) (E : Set ℕ) (i : grid1.Coords)
    (arg2 : Memref sig .tc .vmem S4x3x512 .f32) (harg2 : arg2.IsWhole)
    (arg3 : Memref sig .tc .vmem S4x3x1024 .f32) (harg3 : arg3.IsWhole)
    (arg4 : Memref sig .tc .vmem S4x512 .f32) (harg4 : arg4.IsWhole) (hc0 : ¬resetCond1 i)
    (x0 : Vec F S4x3x512 .f32) (x1 : Vec F S4x3x1024 .f32) (xo : Vec F S4x512 .f32) (K : PUnit → sProp 𝕄) :
    iprop(owns (c : Thread nD τ) arg2 fullShare x0 ∗ owns (c : Thread nD τ) arg3 fullShare x1
        ∗ owns (c : Thread nD τ) arg4 fullShare xo
        ∗ (iprop(owns (c : Thread nD τ) arg2 fullShare x0 ∗ owns (c : Thread nD τ) arg3 fullShare x1
            ∗ owns (c : Thread nD τ) arg4 fullShare (k1_pay2 x0 x1 xo)) -∗ K ⟨⟩))
      ⊢ wp frame (wpE (defs₀ (F := F)) Variants.none c none) E (cc1__rad_mindist_kernel i arg2 harg2 arg3 harg3 arg4 harg4) K := by
  simp only [cc1__rad_mindist_kernel_eq_skeleton]; unfold cc1__rad_mindist_kernel_skel
  simp only [k1_part1_eq_skeleton]
  unfold owns
  iintro ⟨⟨%f0, %hf0, H0⟩, ⟨%f1, %hf1, H1⟩, ⟨%f2, %hf2, H2⟩, Hk⟩
  subst hf0; subst hf1; subst hf2
  sl_exec (disch := first | exact hc0)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_cons_self, View.mem_set_unit_zero hz2 inb_S4x512_S4x512_0_0 y⟩),
    View.canon_cons_unit_zero (S := S4x512) hz2]
  sl_unfold_words
  simp only [View.readAt_eq_ld, View.ld_unit_zero (S := S4x3x512) hz3, View.ld_unit_zero (S := S4x3x1024) hz3,
    View.ld_unit_zero (S := S4x512) hz2]

/-! ## The running minimum -/

/-- What the output tile's staging buffer holds after the body at position `n` of the 16 points: at the first
    point of a row of the grid, the row minimum of the point's two tiles against `+inf`; at a later point, against
    what the point before left. -/
def acc1 (c : Dev nD) : (n : ℕ) → n < cfg1.N → Vec F S4x512 .f32
  | 0, hn => k1_pay2 (iblk1 V c 0 ⟨0, hn⟩) (iblk1 V c 1 ⟨0, hn⟩) k1_pay1
  | n + 1, hn =>
    if (n + 1) % 8 = 0 then
      k1_pay2 (iblk1 V c 0 ⟨n + 1, hn⟩) (iblk1 V c 1 ⟨n + 1, hn⟩) k1_pay1
    else
      k1_pay2 (iblk1 V c 0 ⟨n + 1, hn⟩) (iblk1 V c 1 ⟨n + 1, hn⟩) (acc1 c n (Nat.lt_of_succ_lt hn))

/-- At the first point of a row: the reset form. -/
theorem acc1_reset (c : Dev nD) (t : Fin cfg1.N) (h : t.val % 8 = 0) :
    acc1 V c t.val t.isLt = k1_pay2 (iblk1 V c 0 t) (iblk1 V c 1 t) k1_pay1 := by
  obtain ⟨n, hn⟩ := t
  cases n with
  | zero => exact rfl
  | succ n => exact (if_pos h).trans rfl

/-- At a later point: the step form, over what the point before left. -/
theorem acc1_step (c : Dev nD) (t : Fin cfg1.N) (h : ¬t.val % 8 = 0) :
    acc1 V c t.val t.isLt
      = k1_pay2 (iblk1 V c 0 t) (iblk1 V c 1 t) (acc1 V c (t.val - 1) (Nat.lt_of_le_of_lt (Nat.sub_le _ _) t.isLt)) := by
  obtain ⟨n, hn⟩ := t
  cases n with
  | zero => exact (by exfalso; (try dsimp only at h); exact absurd (Nat.zero_mod _) h)
  | succ n => exact (if_neg h).trans rfl

/-! ## The proof data -/

/-- The proof data of this kernel call on core `c`: the arrays as it finds them (`V`); after the body at point `t`
    the two input buffers at their tiles and the output buffer at the running minimum; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

/-- Each input's current staging buffer holds its tile at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- At a point that is not the first of its row the output's current staging buffer holds what the body left at the
    point before: the point is not the first of all, and the buffer was not written back in between (a write-back
    happens only after the last point of a row). -/
theorem before1_2_step (c : Dev nD) (t : Fin cfg1.N) (h0 : ¬t.val % 8 = 0) (d) :
    (dat1 V c).before 2 t d = acc1 V c (t.val - 1) (Nat.lt_of_le_of_lt (Nat.sub_le _ _) t.isLt) := by
  have hN : t.val < 16 := lt_of_lt_of_eq t.isLt (show cfg1.N = 16 from N_1)
  rw [Dat.before_out_kept _ 2 rfl t (by omega) (Bool.eq_false_iff.mpr fun h => by have := (flush1_2 _).mp h; dsimp only at this; omega)
    (fun _ => rfl) (fun _ _ => rfl)]
  dsimp only [dat1]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 800000 in
/-- The body at any point: the inputs' buffers hold their tiles; the point is either the first of its row, where the
    reset triple applies whatever the output buffer holds, or a later one, where the output buffer holds what the
    point before left and the step triple applies. The invariant passes through unread; nothing is owed throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  by_cases h0 : t.val % 8 = 0
  · rw [acc1_reset V c t h0]
    iintro ⟨HΦ, Ho, ⟨%d0, H0⟩, ⟨%d1, H1⟩, ⟨%d2, H2⟩⟩
    iapply (run1_reset c Set.univ (grid1.coords t) _ _ _ _ _ _ ((resetCond1_iff t).mpr h0) (iblk1 V c 0 t) (iblk1 V c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [acc1_step V c t h0]
    simp only [before1_2_step V c t h0]
    iintro ⟨HΦ, Ho, ⟨%d0, H0⟩, ⟨%d1, H1⟩, ⟨%d2, H2⟩⟩
    iapply (run1_step c Set.univ (grid1.coords t) _ _ _ _ _ _ (fun h => h0 ((resetCond1_iff t).mp h)) (iblk1 V c 0 t) (iblk1 V c 1 t) _ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The body obligation of this kernel call, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.Kernel.Run.lean ====
/-
  The whole program's run: the TensorCore's buffer contents at every boundary between the program's five stretches
  (host lines, the first pallas_call, host lines, the second pallas_call, host lines) as a fold from the launch
  memory; each pallas_call as a segment entered at the contents before it and left at what its write-backs leave;
  and the launch over the segments. Every weakly fair execution terminates with the result buffer at the fold's last
  contents and every argument as launched.
-/
import proofs.«115777_j15960098472629_2_alg».proof.Proof.Kernel.Region0.Body
import proofs.«115777_j15960098472629_2_alg».proof.Proof.Kernel.Region1
import proofs.«115777_j15960098472629_2_alg».proof.Proof.Gen.Kernel.Regions

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- After the three transposes. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first pallas_call: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the lines that join the two core halves' column minima. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the second pallas_call. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the closing host lines: the contents the program ends with. -/
abbrev W5 : Dev nD → Valuation τ sig (Elt F) := fun c => StableHlo.after hostOps2 (W4 m ρ c)

/-- A buffer no stretch writes and no pallas_call has as an array ends as launched. -/
theorem W5_kept (c : Dev nD) (r : Ref sig .tc) (h0 : r ∉ hostOps0_W) (h1 : r ∉ hostOps1_W) (h2 : r ∉ hostOps2_W)
    (ha0 : ∀ w, Pipeline.arrRef spec0 w ≠ r) (ha1 : ∀ w, Pipeline.arrRef spec1 w ≠ r) :
    W5 m ρ c (Proc.devRef .tc r) = m ((c : Thread nD τ).loc r) :=
  (StableHlo.after_of_writes_sub hostOps2 _ hostOps2_writes h2).trans <|
    (W4_of_ne m ρ c r ha1).trans <| (StableHlo.after_of_writes_sub hostOps1 _ hostOps1_writes h1).trans <|
    (W2_of_ne m ρ c r ha0).trans <| (StableHlo.after_of_writes_sub hostOps0 _ hostOps0_writes h0).trans rfl

/-! ## The proof data family and the thread state -/

/-- Every pipeline's proof data, each at its pallas_call's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-- Before its first point the first pallas_call's invariant is the class's. -/
theorem Phi0_eq (V : (c : Dev nD) → (b : Ref sig .tc) → Buf (Elt F) ((c : Thread nD τ).loc b)) (c : Dev nD) :
    (dat0 V c).Φ 0 = Pipeline.ΦA spec0 c := by
  have h : (dat0 V c).Φ 0 = PhiS V c (0 : Fin (cfg0.N + 1)).val (Nat.le_of_lt_succ (0 : Fin (cfg0.N + 1)).isLt) := by dsimp only [dat0]
  rw [h, PhiS_zero V c _ _ (by simp)]

/-! ## The pallas_calls as segments -/

set_option backward.isDefEq.respectTransparency.types false in
/-- The first pallas_call over the thread state: entered from every unscoped buffer at the contents before it, left
    at the contents after it; its arrays split out of the unscoped buffers and put back at what the pipeline leaves; the
    generator register and the scoped buffers into the invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from Phi0_eq (V1 m ρ) c]; unfold Pipeline.ΦA
    iintro ⟨Hp, -, Hr⟩
    isplitl [Hr]; · iexact Hr
    iexact Hp
  hout c := by
    rw [Pipeline.ownSems0_none]
    have hΦ : (pdats m ρ 0 c).Φ (Fin.last _) ⊢ (iprop(Pipeline.scopedRest spec0 c ∗ ∃ r, prngReg c r) : sProp 𝕄) := hout0 (V1 m ρ) c
    iintro Hq
    ihave Hq' := hΦ $$ Hq
    icases Hq' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call over the thread state: entered from every unscoped buffer at the contents before it, left
    at the contents after it; its arrays split out of the unscoped buffers and put back at what the pipeline leaves; the
    generator register and the scoped buffers into the invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (segs m ρ) := (main_chain c).trans (by chain_rfl)

set_option backward.isDefEq.respectTransparency.types false in
/-- Every weakly fair execution of the program from memory m with zero counters terminates, nothing faulting, with the
    result buffer at the fold's last contents and every argument array as launched. -/
theorem run_all : θ_run defs (onTc (τ := τ) (main (F := F))) ⟨m, fun _ => 0, ρ⟩ (fun r => ∀ c : Dev nD,
      r.2.mem ((c.tc : Thread nD τ).loc main_v31) = W5 m ρ c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show (iprop(StableHlo.held (c : Thread nD τ) (Pipeline.ucRefs τ sig) (W5 m ρ c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v31 (by decide)),
       (h c _ (mem_uc main_arg0 (by decide))).trans (W5_kept m ρ c main_arg0 (by decide) (by decide) (by decide) (by decide) (by decide)),
       (h c _ (mem_uc main_arg1 (by decide))).trans (W5_kept m ρ c main_arg1 (by decide) (by decide) (by decide) (by decide) (by decide)),
       (h c _ (mem_uc main_arg2 (by decide))).trans (W5_kept m ρ c main_arg2 (by decide) (by decide) (by decide) (by decide) (by decide)),
       (h c _ (mem_uc main_arg3 (by decide))).trans (W5_kept m ρ c main_arg3 (by decide) (by decide) (by decide) (by decide) (by decide)),
       (h c _ (mem_uc main_arg4 (by decide))).trans (W5_kept m ρ c main_arg4 (by decide) (by decide) (by decide) (by decide) (by decide))⟩)

end Cert.Kernel.Hand

end
-- ==== Proof.KernelIdeal.Region0.Defs.lean ====
/-
  The first pallas_call (the fused nearest-neighbour kernel) over its grid of 2 x 8 x 8 points (core half c,
  query tile i, database tile j; point t = 64 c + 8 i + j): which of the body's three conditionals hold at a
  point, in closed form, where its second output window is idle, and the memrefs a point's body is called on.
  The body resets its scratch running minimum (over query tiles, per database column) where i = 0 and j = 0,
  resets the first output's running minimum (over database tiles, per query row) where j = 0, and copies the
  scratch to the second output where i = 7 and j = 7.
-/
import proofs.«115777_j15960098472629_2_alg».proof.Proof.Gen.KernelIdeal.Launch
import proofs.«115777_j15960098472629_2_alg».proof.Proof.Gen.KernelIdeal.Skeleton
import proofs.«115777_j15960098472629_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's three conditions -/

/-- The scratch is reset: query tile 0 and database tile 0 of a core half. -/
abbrev cond0_0 (i : grid0.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
theorem hcond0_0 : ∀ t : Fin cfg0.N, cond0_0 (grid0.coords t) ↔ t.val % 64 = 0 :=
  (by decide +kernel : ∀ t : Fin grid0.N, cond0_0 (grid0.coords t) ↔ t.val % 64 = 0)

/-- The first output's block is reset: database tile 0. -/
abbrev cond0_1 (i : grid0.Coords) : Prop := (Scalar.cmpi .ne (Scalar.extui (Scalar.cmpi .eq (BitVec.ofNat 32 (i 2).val) 0#32)) 0#32) = 1#1
theorem hcond0_1 : ∀ t : Fin cfg0.N, cond0_1 (grid0.coords t) ↔ t.val % 8 = 0 :=
  (by decide +kernel : ∀ t : Fin grid0.N, cond0_1 (grid0.coords t) ↔ t.val % 8 = 0)

/-- The scratch is copied out: the last query tile and the last database tile of a core half. -/
abbrev cond0_2 (i : grid0.Coords) : Prop := k0_cond3 i = 1#1
theorem hcond0_2 : ∀ t : Fin cfg0.N, cond0_2 (grid0.coords t) ↔ t.val % 64 = 63 :=
  (by decide +kernel : ∀ t : Fin grid0.N, cond0_2 (grid0.coords t) ↔ t.val % 64 = 63)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the copy-out points the second output is idle and is not written back. -/
theorem idleAt0_3 : ∀ t : Fin cfg0.N, ¬cond0_2 (grid0.coords t) → cfg0.idle 3 (grid0.coords t) = true := by decide +kernel
theorem noFlush0_3 : ∀ t : Fin cfg0.N, ¬cond0_2 (grid0.coords t) → (cfg0.win 3).flush t = false := by decide +kernel
theorem liveAt0_3 : ∀ t : Fin cfg0.N, cond0_2 (grid0.coords t) → cfg0.idle 3 (grid0.coords t) = false := by decide +kernel

/-! ## The memrefs a point's body is called on -/

abbrev ms0_0 (t : Fin cfg0.N) : Memref sig .tc .vmem S4x3x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x3x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x4x8192 .f32 := win0_3.stage (cfg0.slots t 3)
abbrev hs0_3 (t : Fin cfg0.N) : (ms0_3 t).IsWhole := hstage0_3 ((cfg0.slots t 3).cast nbuf0_3)
/-- The scratch: a whole scoped buffer of the kernel's own. -/
abbrev scM0 : Memref sig .tc .vmem S4x8192 .f32 := Memref.whole cc0_scratch0
theorem hscM0 : (scM0 : Memref sig .tc .vmem S4x8192 .f32).IsWhole := Memref.isWhole_whole _

/-- The core's other scoped buffers (the second pallas_call's staging buffers), each whole at some contents: they
    ride through this pallas_call untouched. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The class invariant with the scratch as a memref owned at some contents. -/
theorem PhiA0_eq (c : Dev nD) :
    (Pipeline.ΦA spec0 c : sProp 𝕄)
      = iprop(iprop((∃ d, owns (c : Thread nD τ) scM0 fullShare d) ∗ others0 c) ∗ (∃ r, prngReg c r)) := by
  unfold Pipeline.ΦA others0; rw [scopedRest0_eq]; simp only [scM0, owns_whole]; try rfl

end Cert.KernelIdeal.Hand

end
-- ==== Proof.KernelIdeal.Region0.RunA.lean ====
/-
  The fused nearest-neighbour kernel's body run whole at a point of case A of its conditionals.
-/
import proofs.«115777_j15960098472629_2_alg».proof.Proof.KernelIdeal.Region0.Defs

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple at a point of case A: on whole memrefs, the two input blocks at their contents, the first output's block at anything, the second output's block (idle here) at contents handed back untouched, the scratch at anything, the body runs to the continuation with the
    inputs as they were and each buffer it stores into with its stores written, as pieces, last first: the pieces are the
    witness the run finds. -/
noncomputable def kernelRun0_A (c : Dev nD) (i : grid0.Coords) (arg3 : Memref sig .tc .vmem S4x3x512 .f32) (harg3 : arg3.IsWhole) (arg4 : Memref sig .tc .vmem S4x3x1024 .f32) (harg4 : arg4.IsWhole) (arg5 : Memref sig .tc .vmem S4x512 .f32) (harg5 : arg5.IsWhole) (arg6 : Memref sig .tc .vmem S1x4x8192 .f32) (harg6 : arg6.IsWhole) (arg7 : Memref sig .tc .vmem S4x8192 .f32) (harg7 : arg7.IsWhole) (hc0 : cond0_0 i) (hc1 : cond0_1 i) (hc2 : ¬cond0_2 i)
    (x0 : Vec F S4x3x512 .f32) (x1 : Vec F S4x3x1024 .f32) :
    Σ' (L2 : List (View.Piece (Elt F) S4x512 .f32)), { LS : List (View.Piece (Elt F) S4x8192 .f32) //
      ∀ (xi3 : Vec F S1x4x8192 .f32) (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc0__fused_updist_kernel i arg3 harg3 arg4 harg4 arg5 harg5 arg6 harg6 arg7 harg7) K } := by
  refine ⟨?_, ?_, fun xi3 E K => ?run⟩
  case run =>
    simp only [cc0__fused_updist_kernel_eq_skeleton]; unfold cc0__fused_updist_kernel_skel
    simp only [k0_part1_eq_skeleton]
    unfold owns
    iintro ⟨⟨%f0, %hf0, H0⟩, ⟨%f1, %hf1, H1⟩, ⟨%d2, %f2, -, H2⟩, ⟨%f3, %hf3, H3⟩, ⟨%ds, %fs, -, HS⟩, Hk⟩
    obtain rfl := harg3.eq_unread hf0; obtain rfl := harg4.eq_unread hf1; obtain rfl := harg6.eq_unread hf3
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H3]
    · iexists _; isplitr; · ipureintro; exact harg6.read_unread _
      iexact H3
    iexists _; iexact HS

end Cert.KernelIdeal.Hand

end
-- ==== Proof.KernelIdeal.Region0.RunB.lean ====
/-
  The fused nearest-neighbour kernel's body run whole at a point of case B of its conditionals.
-/
import proofs.«115777_j15960098472629_2_alg».proof.Proof.KernelIdeal.Region0.RunA

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple at a point of case B: on whole memrefs, the two input blocks at their contents, the first output's block at anything, the second output's block (idle here) at contents handed back untouched, the scratch at what the point before left, the body runs to the continuation with the
    inputs as they were and each buffer it stores into with its stores written, as pieces, last first: the pieces are the
    witness the run finds. -/
noncomputable def kernelRun0_B (c : Dev nD) (i : grid0.Coords) (arg3 : Memref sig .tc .vmem S4x3x512 .f32) (harg3 : arg3.IsWhole) (arg4 : Memref sig .tc .vmem S4x3x1024 .f32) (harg4 : arg4.IsWhole) (arg5 : Memref sig .tc .vmem S4x512 .f32) (harg5 : arg5.IsWhole) (arg6 : Memref sig .tc .vmem S1x4x8192 .f32) (harg6 : arg6.IsWhole) (arg7 : Memref sig .tc .vmem S4x8192 .f32) (harg7 : arg7.IsWhole) (hc0 : ¬cond0_0 i) (hc1 : cond0_1 i) (hc2 : ¬cond0_2 i)
    (x0 : Vec F S4x3x512 .f32) (x1 : Vec F S4x3x1024 .f32) (xs : Vec F S4x8192 .f32) :
    Σ' (L2 : List (View.Piece (Elt F) S4x512 .f32)), { LS : List (View.Piece (Elt F) S4x8192 .f32) //
      ∀ (xi3 : Vec F S1x4x8192 .f32) (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xi3 ∗ owns (c : Thread nD τ) arg7 fullShare xs
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ owns (c : Thread nD τ) arg6 fullShare xi3 ∗ (arg7.view.loc (c : Thread nD τ) ↦[arg7.view.set]{fullShare} arg7.view.writes (Elt F) (harg7.unread xs) LS)) -∗ K ⟨⟩))
          ⊢ wp frame (wpE (defs₀ (F := F)) Variants.none c none) E (cc0__fused_updist_kernel i arg3 harg3 arg4 harg4 arg5 harg5 arg6 harg6 arg7 harg7) K } := by
  refine ⟨?_, ?_, fun xi3 E K => ?run⟩
  case run =>
    simp only [cc0__fused_updist_kernel_eq_skeleton]; unfold cc0__fused_updist_kernel_skel
    simp only [k0_part1_eq_skeleton]
    unfold owns
    iintro ⟨⟨%f0, %hf0, H0⟩, ⟨%f1, %hf1, H1⟩, ⟨%d2, %f2, -, H2⟩, ⟨%f3, %hf3, H3⟩, ⟨%fs, %hfs, HS⟩, Hk⟩
    obtain rfl := harg3.eq_unread hf0; obtain rfl := harg4.eq_unread hf1; obtain rfl := harg6.eq_unread hf3; obtain rfl := harg7.eq_unread hfs
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H3]
    · iexists _; isplitr; · ipureintro; exact harg6.read_unread _
      iexact H3
    iexact HS

end Cert.KernelIdeal.Hand

end
-- ==== Proof.KernelIdeal.Region0.RunC.lean ====
/-
  The fused nearest-neighbour kernel's body run whole at a point of case C of its conditionals.
-/
import proofs.«115777_j15960098472629_2_alg».proof.Proof.KernelIdeal.Region0.RunB

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple at a point of case C: on whole memrefs, the two input blocks at their contents, the first output's block at the running minimum the point before left, the second output's block (idle here) at contents handed back untouched, the scratch at what the point before left, the body runs to the continuation with the
    inputs as they were and each buffer it stores into with its stores written, as pieces, last first: the pieces are the
    witness the run finds. -/
noncomputable def kernelRun0_C (c : Dev nD) (i : grid0.Coords) (arg3 : Memref sig .tc .vmem S4x3x512 .f32) (harg3 : arg3.IsWhole) (arg4 : Memref sig .tc .vmem S4x3x1024 .f32) (harg4 : arg4.IsWhole) (arg5 : Memref sig .tc .vmem S4x512 .f32) (harg5 : arg5.IsWhole) (arg6 : Memref sig .tc .vmem S1x4x8192 .f32) (harg6 : arg6.IsWhole) (arg7 : Memref sig .tc .vmem S4x8192 .f32) (harg7 : arg7.IsWhole) (hc0 : ¬cond0_0 i) (hc1 : ¬cond0_1 i) (hc2 : ¬cond0_2 i)
    (x0 : Vec F S4x3x512 .f32) (x1 : Vec F S4x3x1024 .f32) (xo2 : Vec F S4x512 .f32) (xs : Vec F S4x8192 .f32) :
    Σ' (L2 : List (View.Piece (Elt F) S4x512 .f32)), { LS : List (View.Piece (Elt F) S4x8192 .f32) //
      ∀ (xi3 : Vec F S1x4x8192 .f32) (E : Set ℕ) (K : PUnit → sProp 𝕄),
        iprop(owns (c : Thread nD τ) arg3 fullShare x0 ∗ owns (c : Thread nD τ) arg4 fullShare x1 ∗ owns (c : Thread nD τ) arg5 fullShare xo2 ∗ owns (c : Thread nD τ) arg6 fullShare xi3 ∗ owns (c : Thread nD τ) arg7 fullShare xs
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ owns (c : Thread nD τ) arg6 fullShare xi3 ∗ (arg7.view.loc (c : Thread nD τ) ↦[arg7.view.set]{fullShare} arg7.view.writes (Elt F) (harg7.unread xs) LS)) -∗ K ⟨⟩))
          ⊢ wp frame (wpE (defs₀ (F := F)) Variants.none c none) E (cc0__fused_updist_kernel i arg3 harg3 arg4 harg4 arg5 harg5 arg6 harg6 arg7 harg7) K } := by
  refine ⟨?_, ?_, fun xi3 E K => ?run⟩
  case run =>
    simp only [cc0__fused_updist_kernel_eq_skeleton]; unfold cc0__fused_updist_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H3]
    · iexists _; isplitr; · ipureintro; exact harg6.read_unread _
      iexact H3
    iexact HS

end Cert.KernelIdeal.Hand

end
-- ==== Proof.KernelIdeal.Region0.RunD.lean ====
/-
  The fused nearest-neighbour kernel's body run whole at a point of case D of its conditionals.
-/
import proofs.«115777_j15960098472629_2_alg».proof.Proof.KernelIdeal.Region0.RunC

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple at a point of case D: on whole memrefs, the two input blocks at their contents, the first output's block at the running minimum the point before left, the second output's block at anything, the scratch at what the point before left, the body runs to the continuation with the
    inputs as they were and each buffer it stores into with its stores written, as pieces, last first: the pieces are the
    witness the run finds. -/
noncomputable def kernelRun0_D (c : Dev nD) (i : grid0.Coords) (arg3 : Memref sig .tc .vmem S4x3x512 .f32) (harg3 : arg3.IsWhole) (arg4 : Memref sig .tc .vmem S4x3x1024 .f32) (harg4 : arg4.IsWhole) (arg5 : Memref sig .tc .vmem S4x512 .f32) (harg5 : arg5.IsWhole) (arg6 : Memref sig .tc .vmem S1x4x8192 .f32) (harg6 : arg6.IsWhole) (arg7 : Memref sig .tc .vmem S4x8192 .f32) (harg7 : arg7.IsWhole) (hc0 : ¬cond0_0 i) (hc1 : ¬cond0_1 i) (hc2 : cond0_2 i)
    (x0 : Vec F S4x3x512 .f32) (x1 : Vec F S4x3x1024 .f32) (xo2 : Vec F S4x512 .f32) (xs : Vec F S4x8192 .f32) :
    Σ' (L2 : List (View.Piece (Elt F) S4x512 .f32)), Σ' (L3 : List (View.Piece (Elt F) S1x4x8192 .f32)), { LS : List (View.Piece (Elt F) S4x8192 .f32) //
      ∀ (E : Set ℕ) (K : PUnit → sProp 𝕄),
        iprop(owns (c : Thread nD τ) arg3 fullShare x0 ∗ owns (c : Thread nD τ) arg4 fullShare x1 ∗ owns (c : Thread nD τ) arg5 fullShare xo2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f L3) ∗ (arg7.view.loc (c : Thread nD τ) ↦[arg7.view.set]{fullShare} arg7.view.writes (Elt F) (harg7.unread xs) LS)) -∗ K ⟨⟩))
          ⊢ wp frame (wpE (defs₀ (F := F)) Variants.none c none) E (cc0__fused_updist_kernel i arg3 harg3 arg4 harg4 arg5 harg5 arg6 harg6 arg7 harg7) K } := by
  refine ⟨?_, ?_, ?_, fun E K => ?run⟩
  case run =>
    simp only [cc0__fused_updist_kernel_eq_skeleton]; unfold cc0__fused_updist_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H3]; · iexists _; iexact H3
    iexact HS

end Cert.KernelIdeal.Hand

end
-- ==== Proof.KernelIdeal.Region0.Step.lean ====
/-
  The first pallas_call, point by point: what its first output's block (the running minimum over database tiles of a
  query tile's rows), its second output's block (the copy-out of the scratch) and its scratch (the running minimum
  over a core half's query tiles, per database column) hold after each point, by recursion on the point; the
  pipeline's proof data over these; and the body obligation. Stated at a parameter V: the buffer contents when the
  pallas_call is entered.
-/
import proofs.«115777_j15960098472629_2_alg».proof.Proof.KernelIdeal.Region0.RunD

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the pallas_call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## One point's step -/

/-- The views through which the buffers' contents are stated. -/
abbrev VO0_2 : View sig .tc .vmem S4x512 .f32 := (Memref.whole cc0_stg2_0 : Memref sig .tc .vmem S4x512 .f32).view
abbrev VO0_3 : View sig .tc .vmem S1x4x8192 .f32 := (Memref.whole cc0_stg3_0 : Memref sig .tc .vmem S1x4x8192 .f32).view
abbrev VS0 : View sig .tc .vmem S4x8192 .f32 := (scM0 : Memref sig .tc .vmem S4x8192 .f32).view

/-- After a point: the first output's block, the second output's block, the scratch. -/
abbrev St0 (F : FTy → Type) [FloatOps F] : Type := Vec F S4x512 .f32 × Vec F S1x4x8192 .f32 × Vec F S4x8192 .f32

/-- Contents nothing consults (an idle window's block; the state before the first point). -/
def junk0 : St0 F := (VO0_2.read (Elt F) VO0_2.junk, VO0_3.read (Elt F) VO0_3.junk, VS0.read (Elt F) VS0.junk)

section Point
variable (c : Dev nD) (t : Fin cfg0.N)

/-- Case A: both resets, no copy-out. -/
def runA (h0 : t.val % 64 = 0) :=
  kernelRun0_A (F := F) c (grid0.coords t) (ms0_0 t) (hs0_0 t) (ms0_1 t) (hs0_1 t) (ms0_2 t) (hs0_2 t) (ms0_3 t) (hs0_3 t) scM0 hscM0 ((hcond0_0 t).mpr h0) ((hcond0_1 t).mpr (by omega)) (fun h => by have := (hcond0_2 t).mp h; omega) (iblk0 V c 0 t) (iblk0 V c 1 t)
/-- Case B: the first output's block reset only. -/
def runB (h0 : ¬t.val % 64 = 0) (h1 : t.val % 8 = 0) (xs : Vec F S4x8192 .f32) :=
  kernelRun0_B (F := F) c (grid0.coords t) (ms0_0 t) (hs0_0 t) (ms0_1 t) (hs0_1 t) (ms0_2 t) (hs0_2 t) (ms0_3 t) (hs0_3 t) scM0 hscM0 (fun h => h0 ((hcond0_0 t).mp h)) ((hcond0_1 t).mpr h1) (fun h => by have := (hcond0_2 t).mp h; omega) (iblk0 V c 0 t) (iblk0 V c 1 t) xs
/-- Case C: no reset, no copy-out. -/
def runC (h1 : ¬t.val % 8 = 0) (h2 : ¬t.val % 64 = 63) (xo2 : Vec F S4x512 .f32) (xs : Vec F S4x8192 .f32) :=
  kernelRun0_C (F := F) c (grid0.coords t) (ms0_0 t) (hs0_0 t) (ms0_1 t) (hs0_1 t) (ms0_2 t) (hs0_2 t) (ms0_3 t) (hs0_3 t) scM0 hscM0 (fun h => by have := (hcond0_0 t).mp h; omega) (fun h => h1 ((hcond0_1 t).mp h)) (fun h => h2 ((hcond0_2 t).mp h)) (iblk0 V c 0 t) (iblk0 V c 1 t) xo2 xs
/-- Case D: no reset, the copy-out. -/
def runD (h2 : t.val % 64 = 63) (xo2 : Vec F S4x512 .f32) (xs : Vec F S4x8192 .f32) :=
  kernelRun0_D (F := F) c (grid0.coords t) (ms0_0 t) (hs0_0 t) (ms0_1 t) (hs0_1 t) (ms0_2 t) (hs0_2 t) (ms0_3 t) (hs0_3 t) scM0 hscM0 (fun h => by have := (hcond0_0 t).mp h; omega) (fun h => by have := (hcond0_1 t).mp h; omega) ((hcond0_2 t).mpr h2) (iblk0 V c 0 t) (iblk0 V c 1 t) xo2 xs

/-- What the buffers hold after point t's body, from what they held after the point before. -/
def step0 (prev : St0 F) : St0 F :=
  if h0 : t.val % 64 = 0 then
    (VO0_2.read (Elt F) (VO0_2.writes (Elt F) VO0_2.junk (runA V c t h0).1), junk0.2.1,
      VS0.read (Elt F) (VS0.writes (Elt F) VS0.junk (runA V c t h0).2.1))
  else if h1 : t.val % 8 = 0 then
    (VO0_2.read (Elt F) (VO0_2.writes (Elt F) VO0_2.junk (runB V c t h0 h1 prev.2.2).1), junk0.2.1,
      VS0.read (Elt F) (VS0.writes (Elt F) (hscM0.unread prev.2.2) (runB V c t h0 h1 prev.2.2).2.1))
  else if h2 : t.val % 64 = 63 then
    (VO0_2.read (Elt F) (VO0_2.writes (Elt F) VO0_2.junk (runD V c t h2 prev.1 prev.2.2).1),
      VO0_3.read (Elt F) (VO0_3.writes (Elt F) VO0_3.junk (runD V c t h2 prev.1 prev.2.2).2.1),
      VS0.read (Elt F) (VS0.writes (Elt F) (hscM0.unread prev.2.2) (runD V c t h2 prev.1 prev.2.2).2.2.1))
  else
    (VO0_2.read (Elt F) (VO0_2.writes (Elt F) VO0_2.junk (runC V c t h1 h2 prev.1 prev.2.2).1), junk0.2.1,
      VS0.read (Elt F) (VS0.writes (Elt F) (hscM0.unread prev.2.2) (runC V c t h1 h2 prev.1 prev.2.2).2.1))

theorem step0_A (prev : St0 F) (h0 : t.val % 64 = 0) : step0 V c t prev =
    (VO0_2.read (Elt F) (VO0_2.writes (Elt F) VO0_2.junk (runA V c t h0).1), junk0.2.1,
      VS0.read (Elt F) (VS0.writes (Elt F) VS0.junk (runA V c t h0).2.1)) := dif_pos h0
theorem step0_B (prev : St0 F) (h0 : ¬t.val % 64 = 0) (h1 : t.val % 8 = 0) : step0 V c t prev =
    (VO0_2.read (Elt F) (VO0_2.writes (Elt F) VO0_2.junk (runB V c t h0 h1 prev.2.2).1), junk0.2.1,
      VS0.read (Elt F) (VS0.writes (Elt F) (hscM0.unread prev.2.2) (runB V c t h0 h1 prev.2.2).2.1)) :=
  (dif_neg h0).trans (dif_pos h1)
theorem step0_D (prev : St0 F) (h2 : t.val % 64 = 63) : step0 V c t prev =
    (VO0_2.read (Elt F) (VO0_2.writes (Elt F) VO0_2.junk (runD V c t h2 prev.1 prev.2.2).1),
      VO0_3.read (Elt F) (VO0_3.writes (Elt F) VO0_3.junk (runD V c t h2 prev.1 prev.2.2).2.1),
      VS0.read (Elt F) (VS0.writes (Elt F) (hscM0.unread prev.2.2) (runD V c t h2 prev.1 prev.2.2).2.2.1)) :=
  (dif_neg (by omega)).trans ((dif_neg (by omega)).trans (dif_pos h2))
theorem step0_C (prev : St0 F) (h1 : ¬t.val % 8 = 0) (h2 : ¬t.val % 64 = 63) : step0 V c t prev =
    (VO0_2.read (Elt F) (VO0_2.writes (Elt F) VO0_2.junk (runC V c t h1 h2 prev.1 prev.2.2).1), junk0.2.1,
      VS0.read (Elt F) (VS0.writes (Elt F) (hscM0.unread prev.2.2) (runC V c t h1 h2 prev.1 prev.2.2).2.1)) :=
  (dif_neg (by omega)).trans ((dif_neg h1).trans (dif_neg h2))

end Point

/-! ## The covers: a whole-block store is among each covered buffer's pieces -/

section Covers
variable (c : Dev nD) (t : Fin cfg0.N)

theorem cover0_A_2 (h0 : t.val % 64 = 0) (y : S4x512.Idx) : ∃ pc ∈ (runA V c t h0).1, y ∈ pc.1.set :=
  View.cover_of_tiledL (runA V c t h0).1 S4x512.size (by sl_kernel_rfl) y
theorem scover0_A (h0 : t.val % 64 = 0) (y : S4x8192.Idx) : ∃ pc ∈ (runA V c t h0).2.1, y ∈ pc.1.set :=
  View.cover_of_tiledL (runA V c t h0).2.1 S4x8192.size (by sl_kernel_rfl) y
theorem cover0_B_2 (h0 : ¬t.val % 64 = 0) (h1 : t.val % 8 = 0) (xs) (y : S4x512.Idx) : ∃ pc ∈ (runB V c t h0 h1 xs).1, y ∈ pc.1.set :=
  View.cover_of_tiledL (runB V c t h0 h1 xs).1 S4x512.size (by sl_kernel_rfl) y
theorem cover0_C_2 (h1 : ¬t.val % 8 = 0) (h2 : ¬t.val % 64 = 63) (xo2 xs) (y : S4x512.Idx) : ∃ pc ∈ (runC V c t h1 h2 xo2 xs).1, y ∈ pc.1.set :=
  View.cover_of_tiledL (runC V c t h1 h2 xo2 xs).1 S4x512.size (by sl_kernel_rfl) y
theorem cover0_D_2 (h2 : t.val % 64 = 63) (xo2 xs) (y : S4x512.Idx) : ∃ pc ∈ (runD V c t h2 xo2 xs).1, y ∈ pc.1.set :=
  View.cover_of_tiledL (runD V c t h2 xo2 xs).1 S4x512.size (by sl_kernel_rfl) y
theorem cover0_D_3 (h2 : t.val % 64 = 63) (xo2 xs) (y : S1x4x8192.Idx) : ∃ pc ∈ (runD V c t h2 xo2 xs).2.1, y ∈ pc.1.set :=
  View.cover_of_tiledL (runD V c t h2 xo2 xs).2.1 S1x4x8192.size (by sl_kernel_rfl) y

end Covers

end Cert.KernelIdeal.Hand

end
-- ==== Proof.KernelIdeal.Region0.Data.lean ====
/-
  The first pallas_call's proof data and body obligation: the buffers' contents after each point by recursion on the
  point (the step of the point's case over what the point before left), the invariant that carries the scratch at
  those contents from point to point, and the body's triple at every point from the four cases' runs.
-/
import proofs.«115777_j15960098472629_2_alg».proof.Proof.KernelIdeal.Region0.Step

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The buffers after each point -/

/-- After position n: the step at n over what position n - 1 left (before the first point: contents nothing consults,
    the first point resets everything it reads). -/
def outsAt0 (c : Dev nD) : (n : ℕ) → n < cfg0.N → St0 F
  | 0, hn => step0 V c ⟨0, hn⟩ junk0
  | n + 1, hn => step0 V c ⟨n + 1, hn⟩ (outsAt0 c n (Nat.lt_of_succ_lt hn))

theorem outsAt0_pos (c : Dev nD) (t : Fin cfg0.N) (ht : t.val ≠ 0) :
    outsAt0 V c t.val t.isLt = step0 V c t (outsAt0 V c (t.val - 1) (Nat.lt_of_le_of_lt (Nat.sub_le _ _) t.isLt)) := by
  obtain ⟨n, hn⟩ := t
  cases n with
  | zero => exact absurd rfl ht
  | succ n => rfl

theorem outsAt0_A (c : Dev nD) (t : Fin cfg0.N) (h0 : t.val % 64 = 0) :
    outsAt0 V c t.val t.isLt = (VO0_2.read (Elt F) (VO0_2.writes (Elt F) VO0_2.junk (runA V c t h0).1), junk0.2.1,
      VS0.read (Elt F) (VS0.writes (Elt F) VS0.junk (runA V c t h0).2.1)) := by
  obtain ⟨n, hn⟩ := t
  cases n with
  | zero => exact step0_A V c _ _ h0
  | succ n => exact step0_A V c _ _ h0

/-! ## The invariant -/

/-- Before position n: at the first point the class's invariant (every scoped buffer at anything); afterwards the
    scratch at what the point before left, the other scoped buffers at anything, the generator register at some state. -/
def PhiS (c : Dev nD) : (n : ℕ) → n ≤ cfg0.N → sProp 𝕄
  | 0, _ => Pipeline.ΦA spec0 c
  | n + 1, hn => iprop(iprop(owns (c : Thread nD τ) scM0 fullShare ((outsAt0 V c n hn).2.2) ∗ others0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0 fullShare ((outsAt0 V c n hn).2.2) ∗ others0 c) ∗ (∃ r, prngReg c r)) := rfl
theorem PhiS_pos (c : Dev nD) (n : ℕ) (h : n ≤ cfg0.N) (hz : n ≠ 0) :
    PhiS V c n h = iprop(iprop(owns (c : Thread nD τ) scM0 fullShare ((outsAt0 V c (n - 1) (by omega)).2.2) ∗ others0 c) ∗ (∃ r, prngReg c r)) := by
  cases n with
  | zero => exact absurd rfl hz
  | succ n => rfl

/-! ## The proof data -/

/-- The proof data of the first pipeline on core c: the arrays as the pallas_call finds them; after the body at point t
    each input's buffer at its block and the outputs' at the recursion's components; the invariant above; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
/-- Away from database tile 0 the first output's buffer holds what the body left at the point before: it was not written
    back between. -/
theorem before0_2_acc (c : Dev nD) (t : Fin cfg0.N) (h1 : ¬t.val % 8 = 0) (d) :
    (dat0 V c).before 2 t d = (outsAt0 V c (t.val - 1) (Nat.lt_of_le_of_lt (Nat.sub_le _ _) t.isLt)).1 := by
  have hN : t.val < 128 := lt_of_lt_of_eq t.isLt (show cfg0.N = 128 from N_0)
  rw [Dat.before_out_kept _ 2 rfl t (by omega) (Bool.eq_false_iff.mpr fun h => by have := (flush0_2 _).mp h; dsimp only at this; omega)
    (fun _ => rfl) (fun _ _ => rfl)]
  dsimp only [dat0]

end Cert.KernelIdeal.Hand

end
-- ==== Proof.KernelIdeal.Region0.Body.lean ====
/-
  The first pallas_call's body obligation: at every point the body, called on the point's staging memrefs and the
  scratch, takes the invariant before the point to the invariant after it and leaves each window's buffer at the proof
  data's contents — by cases on the point's closed forms, each case its run.
-/
import proofs.«115777_j15960098472629_2_alg».proof.Proof.KernelIdeal.Region0.Data

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

/-- The scratch handed to a run at a known previous contents, or at anything at a core half's first point. -/
theorem scratch_in (c : Dev nD) (t : Fin cfg0.N) (hz : t.val ≠ 0) :
    (dat0 V c).Φ t.castSucc = iprop(iprop(owns (c : Thread nD τ) scM0 fullShare ((outsAt0 V c (t.val - 1) (Nat.lt_of_le_of_lt (Nat.sub_le _ _) t.isLt)).2.2) ∗ others0 c) ∗ (∃ r, prngReg c r)) := by
  rw [PhiS_castSucc V c t, PhiS_pos V c _ _ hz]

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 128 := lt_of_lt_of_eq t.isLt (show cfg0.N = 128 from N_0)
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  rw [show (dat0 V c).leavesExact 2 t = owns (c : Thread nD τ) (ms0_2 t) fullShare ((dat0 V c).after 2 t) from by
      unfold Dat.leavesExact; rw [liveAt0_2 t], after0_2]
  by_cases h0 : t.val % 64 = 0
  · -- both resets
    rw [Dat.leavesExact_idle (dat0 V c) 3 t (idleAt0_3 t (fun h => by have := (hcond0_2 t).mp h; omega)) (noFlush0_3 t (fun h => by have := (hcond0_2 t).mp h; omega))]
    rw [outsAt0_A V c t h0]
    (try dsimp only)
    have hΦ : (dat0 V c).Φ t.castSucc ⊢ (iprop(iprop((∃ d, owns (c : Thread nD τ) scM0 fullShare d) ∗ others0 c) ∗ (∃ r, prngReg c r)) : sProp 𝕄) := by
      by_cases hz : t.val = 0
      · rw [PhiS_castSucc V c t, PhiS_zero V c _ _ hz, PhiA0_eq]
      · rw [scratch_in V c t hz]
        iintro ⟨⟨HS, Ho⟩, Hg⟩
        isplitl [HS Ho]
        · isplitl [HS]; · iexists _; iexact HS
          iexact Ho
        iexact Hg
    iintro ⟨HΦ, Ho, ⟨%d0, H0⟩, ⟨%d1, H1⟩, ⟨%d2, H2⟩, ⟨%d3, H3⟩⟩
    ihave HΦ' := hΦ $$ HΦ
    icases HΦ' with ⟨⟨HS, Hoth⟩, Hg⟩
    iapply ((runA V c t h0).2.2 _ Set.univ _)
    isplitl [H0]; · iexact H0
    isplitl [H1]; · iexact H1
    isplitl [H2]; · iexists _; iexact H2
    isplitl [H3]; · iexact H3
    isplitl [HS]; · iexact HS
    iintro ⟨H0, H1, ⟨%e2, H2⟩, H3, ⟨%es, HS⟩⟩
    isplitl [HS Hoth Hg]
    · isplitl [HS Hoth]
      · isplitl [HS]
        · unfold owns; iexists _; isplitr
          swap; · iexact HS
          ipureintro; exact View.read_writes_of_cover _ _ _ _ _ (scover0_A V c t h0)
        iexact Hoth
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 V c t h0)
    iexists _; iexact H3
  · have hz : t.val ≠ 0 := fun h => h0 (by rw [h])
    rw [scratch_in V c t hz, outsAt0_pos V c t hz]
    by_cases h1 : t.val % 8 = 0
    · -- the first output's block reset only
      rw [Dat.leavesExact_idle (dat0 V c) 3 t (idleAt0_3 t (fun h => by have := (hcond0_2 t).mp h; omega)) (noFlush0_3 t (fun h => by have := (hcond0_2 t).mp h; omega))]
      rw [step0_B V c t _ h0 h1]
      (try dsimp only)
      iintro ⟨⟨⟨HS, Hoth⟩, Hg⟩, Ho, ⟨%d0, H0⟩, ⟨%d1, H1⟩, ⟨%d2, H2⟩, ⟨%d3, H3⟩⟩
      iapply ((runB V c t h0 h1 _).2.2 _ Set.univ _)
      isplitl [H0]; · iexact H0
      isplitl [H1]; · iexact H1
      isplitl [H2]; · iexists _; iexact H2
      isplitl [H3]; · iexact H3
      isplitl [HS]; · iexact HS
      iintro ⟨H0, H1, ⟨%e2, H2⟩, H3, HS⟩
      isplitl [HS Hoth Hg]
      · isplitl [HS Hoth]
        · isplitl [HS]
          · unfold owns; iexists _; isplitr
            swap; · iexact HS
            ipureintro; rfl
          iexact Hoth
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_B_2 V c t h0 h1 _)
      iexists _; iexact H3
    · simp only [before0_2_acc V c t h1]
      by_cases h2 : t.val % 64 = 63
      · -- the copy-out
        rw [show (dat0 V c).leavesExact 3 t = owns (c : Thread nD τ) (ms0_3 t) fullShare ((dat0 V c).after 3 t) from by
          unfold Dat.leavesExact; rw [liveAt0_3 t ((hcond0_2 t).mpr h2)], after0_3, outsAt0_pos V c t hz]
        rw [step0_D V c t _ h2]
        (try dsimp only)
        iintro ⟨⟨⟨HS, Hoth⟩, Hg⟩, Ho, ⟨%d0, H0⟩, ⟨%d1, H1⟩, ⟨%d2, H2⟩, ⟨%d3, H3⟩⟩
        iapply ((runD V c t h2 _ _).2.2.2 Set.univ _)
        isplitl [H0]; · iexact H0
        isplitl [H1]; · iexact H1
        isplitl [H2]; · iexact H2
        isplitl [H3]; · iexists _; iexact H3
        isplitl [HS]; · iexact HS
        iintro ⟨H0, H1, ⟨%e2, H2⟩, ⟨%e3, H3⟩, HS⟩
        isplitl [HS Hoth Hg]
        · isplitl [HS Hoth]
          · isplitl [HS]
            · unfold owns; iexists _; isplitr
              swap; · iexact HS
              ipureintro; rfl
            iexact Hoth
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover0_D_2 V c t h2 _ _)
        unfold owns; iexists _; isplitr
        swap; · iexact H3
        ipureintro; exact View.read_writes_of_cover _ _ _ _ _ (cover0_D_3 V c t h2 _ _)
      · -- neither
        rw [Dat.leavesExact_idle (dat0 V c) 3 t (idleAt0_3 t (fun h => h2 ((hcond0_2 t).mp h))) (noFlush0_3 t (fun h => h2 ((hcond0_2 t).mp h)))]
        rw [step0_C V c t _ h1 h2]
        (try dsimp only)
        iintro ⟨⟨⟨HS, Hoth⟩, Hg⟩, Ho, ⟨%d0, H0⟩, ⟨%d1, H1⟩, ⟨%d2, H2⟩, ⟨%d3, H3⟩⟩
        iapply ((runC V c t h1 h2 _ _).2.2 _ Set.univ _)
        isplitl [H0]; · iexact H0
        isplitl [H1]; · iexact H1
        isplitl [H2]; · iexact H2
        isplitl [H3]; · iexact H3
        isplitl [HS]; · iexact HS
        iintro ⟨H0, H1, ⟨%e2, H2⟩, H3, HS⟩
        isplitl [HS Hoth Hg]
        · isplitl [HS Hoth]
          · isplitl [HS]
            · unfold owns; iexists _; isplitr
              swap; · iexact HS
              ipureintro; rfl
            iexact Hoth
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover0_C_2 V c t h1 h2 _ _)
        iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the pallas_call is the invariant before the first point. -/
theorem hin0 (c : Dev nD) : Pipeline.ΦA spec0 c ⊢ (dat0 V c).Φ 0 := by
  have h : (dat0 V c).Φ 0 = PhiS V c (0 : Fin (cfg0.N + 1)).val (Nat.le_of_lt_succ (0 : Fin (cfg0.N + 1)).isLt) := by dsimp only [dat0]
  rw [h, PhiS_zero V c _ _ (by simp)]

/-- After the last point the invariant gives the class's back: the scratch's named contents are forgotten. -/
theorem hout0 (c : Dev nD) : (dat0 V c).Φ (Fin.last cfg0.N) ⊢ Pipeline.ΦA spec0 c := by
  have hN : cfg0.N = 128 := N_0
  have h : (dat0 V c).Φ (Fin.last cfg0.N) = PhiS V c (Fin.last cfg0.N).val (Nat.le_of_lt_succ (Fin.last cfg0.N).isLt) := by dsimp only [dat0]
  rw [h, PhiS_pos V c _ _ (by rw [Fin.val_last]; omega), PhiA0_eq]
  iintro ⟨⟨HS, Ho⟩, Hg⟩
  isplitl [HS Ho]
  · isplitl [HS]; · iexists _; iexact HS
    iexact Ho
  iexact Hg

end Cert.KernelIdeal.Hand

end
-- ==== Proof.KernelIdeal.Region1.lean ====
import proofs.«115777_j15960098472629_2_alg».proof.Proof.Gen.KernelIdeal.Launch
import proofs.«115777_j15960098472629_2_alg».proof.Proof.Gen.KernelIdeal.Skeleton
import proofs.«115777_j15960098472629_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
# The radar-to-gt minimum distance: the second kernel call, at any entry contents

The grid is 2 x 8: the first coordinate picks a tile of 512 query points, the second a tile of 1024 gt
points. At every point the body reads the query tile `q : [4,3,512]` and the gt tile `d : [4,3,1024]`,
forms the squared distances `((qx-dx)^2 + (qy-dy)^2) + (qz-dz)^2` over `[4,512,1024]`, takes the minimum
along the gt axis, and stores `min(out, that row minimum)` back into the output tile `out : [4,512]`.
Where the second coordinate is 0 it first fills the output tile with `+inf`. So the output tile is a
running minimum over the second coordinate: reset at the start of each row of the grid, improved at each
later point, and written back to its array after the last point of the row.

Everything here is stated at a parameter `V`, the contents of the buffers when this kernel call begins,
and for every float instance.
-/

section Regions
variable (V : (c : Dev nD) → (b : Ref sig .tc) → Buf (Elt F) ((c : Thread nD τ).loc b))

/-! ## The reset condition -/

/-- The body's one branch condition, from the grid coordinates: "the gt-tile coordinate is 0". -/
abbrev resetCond1 (i : grid1.Coords) : Prop :=
  (Scalar.cmpi .ne (Scalar.extui (Scalar.cmpi .eq (BitVec.ofNat 32 (i 1).val) 0#32)) 0#32) = 1#1

/-- In the linear order of the 16 points it holds exactly at the points ≡ 0 (mod 8): the first point of each
    row of the grid. -/
theorem resetCond1_iff : ∀ t : Fin cfg1.N, resetCond1 (grid1.coords t) ↔ t.val % 8 = 0 :=
  (by decide +kernel : ∀ t : Fin grid1.N, resetCond1 (grid1.coords t) ↔ t.val % 8 = 0)

theorem hz2 : (![0, 0] : Fin 2 → Nat) = fun _ => 0 := funext fun a => by fin_cases a <;> rfl
theorem hz3 : (![0, 0, 0] : Fin 3 → Nat) = fun _ => 0 := funext fun a => by fin_cases a <;> rfl

/-! ## The windows' blocks -/

/-- Window `w`'s block at point `t`, read off its array as the kernel call finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's staging buffer holds the query tile of the point at every point, fetched there or not
    (where it is not fetched the tile index has not moved), for any proof data over `V` whose body leaves
    the tile in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the gt window. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's triple, case by case, with the output tile's contents explicit -/

set_option maxHeartbeats 1000000 in
/-- AT A RESET POINT. On whole staging buffers, the query tile at `x0`, the gt tile at `x1` and the output tile
    at anything, the body runs to the continuation with the inputs as they were and the output tile at
    `min(+inf, rowmin(sqd(x0, x1)))`: the `+inf` fill covers the tile, the read-back reads the fill, and the last
    store covers the tile again. -/
theorem run1_reset (c : Dev nD) (E : Set ℕ) (i : grid1.Coords)
    (arg2 : Memref sig .tc .vmem S4x3x512 .f32) (harg2 : arg2.IsWhole)
    (arg3 : Memref sig .tc .vmem S4x3x1024 .f32) (harg3 : arg3.IsWhole)
    (arg4 : Memref sig .tc .vmem S4x512 .f32) (harg4 : arg4.IsWhole) (hc0 : resetCond1 i)
    (x0 : Vec F S4x3x512 .f32) (x1 : Vec F S4x3x1024 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (k1_pay2 x0 x1 k1_pay1)) -∗ K ⟨⟩))
      ⊢ wp frame (wpE (defs₀ (F := F)) Variants.none c none) E (cc1__rad_mindist_kernel i arg2 harg2 arg3 harg3 arg4 harg4) K := by
  simp only [cc1__rad_mindist_kernel_eq_skeleton]; unfold cc1__rad_mindist_kernel_skel
  simp only [k1_part1_eq_skeleton]
  unfold owns
  iintro ⟨⟨%f0, %hf0, H0⟩, ⟨%f1, %hf1, H1⟩, ⟨%d2, %f2, -, H2⟩, Hk⟩
  subst hf0; subst hf1
  sl_exec (disch := first | exact hc0)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_cons_self, View.mem_set_unit_zero hz2 inb_S4x512_S4x512_0_0 y⟩),
    View.canon_cons_unit_zero (S := S4x512) hz2]
  sl_unfold_words
  rw [View.readCov_unit_zero (S := S4x512) _ hz2]
  simp only [View.readAt_eq_ld, View.ld_unit_zero (S := S4x3x512) hz3, View.ld_unit_zero (S := S4x3x1024) hz3]

set_option maxHeartbeats 1000000 in
/-- AT A LATER POINT OF A ROW. The same with the output tile at its running contents `xo`: it ends at
    `min(xo, rowmin(sqd(x0, x1)))`. -/
theorem run1_step (c : Dev nD) (E : Set ℕ) (i : grid1.Coords)
    (arg2 : Memref sig .tc .vmem S4x3x512 .f32) (harg2 : arg2.IsWhole)
    (arg3 : Memref sig .tc .vmem S4x3x1024 .f32) (harg3 : arg3.IsWhole)
    (arg4 : Memref sig .tc .vmem S4x512 .f32) (harg4 : arg4.IsWhole) (hc0 : ¬resetCond1 i)
    (x0 : Vec F S4x3x512 .f32) (x1 : Vec F S4x3x1024 .f32) (xo : Vec F S4x512 .f32) (K : PUnit → sProp 𝕄) :
    iprop(owns (c : Thread nD τ) arg2 fullShare x0 ∗ owns (c : Thread nD τ) arg3 fullShare x1
        ∗ owns (c : Thread nD τ) arg4 fullShare xo
        ∗ (iprop(owns (c : Thread nD τ) arg2 fullShare x0 ∗ owns (c : Thread nD τ) arg3 fullShare x1
            ∗ owns (c : Thread nD τ) arg4 fullShare (k1_pay2 x0 x1 xo)) -∗ K ⟨⟩))
      ⊢ wp frame (wpE (defs₀ (F := F)) Variants.none c none) E (cc1__rad_mindist_kernel i arg2 harg2 arg3 harg3 arg4 harg4) K := by
  simp only [cc1__rad_mindist_kernel_eq_skeleton]; unfold cc1__rad_mindist_kernel_skel
  simp only [k1_part1_eq_skeleton]
  unfold owns
  iintro ⟨⟨%f0, %hf0, H0⟩, ⟨%f1, %hf1, H1⟩, ⟨%f2, %hf2, H2⟩, Hk⟩
  subst hf0; subst hf1; subst hf2
  sl_exec (disch := first | exact hc0)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_cons_self, View.mem_set_unit_zero hz2 inb_S4x512_S4x512_0_0 y⟩),
    View.canon_cons_unit_zero (S := S4x512) hz2]
  sl_unfold_words
  simp only [View.readAt_eq_ld, View.ld_unit_zero (S := S4x3x512) hz3, View.ld_unit_zero (S := S4x3x1024) hz3,
    View.ld_unit_zero (S := S4x512) hz2]

/-! ## The running minimum -/

/-- What the output tile's staging buffer holds after the body at position `n` of the 16 points: at the first
    point of a row of the grid, the row minimum of the point's two tiles against `+inf`; at a later point, against
    what the point before left. -/
def acc1 (c : Dev nD) : (n : ℕ) → n < cfg1.N → Vec F S4x512 .f32
  | 0, hn => k1_pay2 (iblk1 V c 0 ⟨0, hn⟩) (iblk1 V c 1 ⟨0, hn⟩) k1_pay1
  | n + 1, hn =>
    if (n + 1) % 8 = 0 then
      k1_pay2 (iblk1 V c 0 ⟨n + 1, hn⟩) (iblk1 V c 1 ⟨n + 1, hn⟩) k1_pay1
    else
      k1_pay2 (iblk1 V c 0 ⟨n + 1, hn⟩) (iblk1 V c 1 ⟨n + 1, hn⟩) (acc1 c n (Nat.lt_of_succ_lt hn))

/-- At the first point of a row: the reset form. -/
theorem acc1_reset (c : Dev nD) (t : Fin cfg1.N) (h : t.val % 8 = 0) :
    acc1 V c t.val t.isLt = k1_pay2 (iblk1 V c 0 t) (iblk1 V c 1 t) k1_pay1 := by
  obtain ⟨n, hn⟩ := t
  cases n with
  | zero => exact rfl
  | succ n => exact (if_pos h).trans rfl

/-- At a later point: the step form, over what the point before left. -/
theorem acc1_step (c : Dev nD) (t : Fin cfg1.N) (h : ¬t.val % 8 = 0) :
    acc1 V c t.val t.isLt
      = k1_pay2 (iblk1 V c 0 t) (iblk1 V c 1 t) (acc1 V c (t.val - 1) (Nat.lt_of_le_of_lt (Nat.sub_le _ _) t.isLt)) := by
  obtain ⟨n, hn⟩ := t
  cases n with
  | zero => exact (by exfalso; (try dsimp only at h); exact absurd (Nat.zero_mod _) h)
  | succ n => exact (if_neg h).trans rfl

/-! ## The proof data -/

/-- The proof data of this kernel call on core `c`: the arrays as it finds them (`V`); after the body at point `t`
    the two input buffers at their tiles and the output buffer at the running minimum; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

/-- Each input's current staging buffer holds its tile at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- At a point that is not the first of its row the output's current staging buffer holds what the body left at the
    point before: the point is not the first of all, and the buffer was not written back in between (a write-back
    happens only after the last point of a row). -/
theorem before1_2_step (c : Dev nD) (t : Fin cfg1.N) (h0 : ¬t.val % 8 = 0) (d) :
    (dat1 V c).before 2 t d = acc1 V c (t.val - 1) (Nat.lt_of_le_of_lt (Nat.sub_le _ _) t.isLt) := by
  have hN : t.val < 16 := lt_of_lt_of_eq t.isLt (show cfg1.N = 16 from N_1)
  rw [Dat.before_out_kept _ 2 rfl t (by omega) (Bool.eq_false_iff.mpr fun h => by have := (flush1_2 _).mp h; dsimp only at this; omega)
    (fun _ => rfl) (fun _ _ => rfl)]
  dsimp only [dat1]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 800000 in
/-- The body at any point: the inputs' buffers hold their tiles; the point is either the first of its row, where the
    reset triple applies whatever the output buffer holds, or a later one, where the output buffer holds what the
    point before left and the step triple applies. The invariant passes through unread; nothing is owed throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  by_cases h0 : t.val % 8 = 0
  · rw [acc1_reset V c t h0]
    iintro ⟨HΦ, Ho, ⟨%d0, H0⟩, ⟨%d1, H1⟩, ⟨%d2, H2⟩⟩
    iapply (run1_reset c Set.univ (grid1.coords t) _ _ _ _ _ _ ((resetCond1_iff t).mpr h0) (iblk1 V c 0 t) (iblk1 V c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [acc1_step V c t h0]
    simp only [before1_2_step V c t h0]
    iintro ⟨HΦ, Ho, ⟨%d0, H0⟩, ⟨%d1, H1⟩, ⟨%d2, H2⟩⟩
    iapply (run1_step c Set.univ (grid1.coords t) _ _ _ _ _ _ (fun h => h0 ((resetCond1_iff t).mp h)) (iblk1 V c 0 t) (iblk1 V c 1 t) _ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The body obligation of this kernel call, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.KernelIdeal.Run.lean ====
/-
  The whole program's run: the TensorCore's buffer contents at every boundary between the program's five stretches
  (host lines, the first pallas_call, host lines, the second pallas_call, host lines) as a fold from the launch
  memory; each pallas_call as a segment entered at the contents before it and left at what its write-backs leave;
  and the launch over the segments. Every weakly fair execution terminates with the result buffer at the fold's last
  contents and every argument as launched.
-/
import proofs.«115777_j15960098472629_2_alg».proof.Proof.KernelIdeal.Region0.Body
import proofs.«115777_j15960098472629_2_alg».proof.Proof.KernelIdeal.Region1
import proofs.«115777_j15960098472629_2_alg».proof.Proof.Gen.KernelIdeal.Regions

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- After the three transposes. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first pallas_call: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the lines that join the two core halves' column minima. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the second pallas_call. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the closing host lines: the contents the program ends with. -/
abbrev W5 : Dev nD → Valuation τ sig (Elt F) := fun c => StableHlo.after hostOps2 (W4 m ρ c)

/-- A buffer no stretch writes and no pallas_call has as an array ends as launched. -/
theorem W5_kept (c : Dev nD) (r : Ref sig .tc) (h0 : r ∉ hostOps0_W) (h1 : r ∉ hostOps1_W) (h2 : r ∉ hostOps2_W)
    (ha0 : ∀ w, Pipeline.arrRef spec0 w ≠ r) (ha1 : ∀ w, Pipeline.arrRef spec1 w ≠ r) :
    W5 m ρ c (Proc.devRef .tc r) = m ((c : Thread nD τ).loc r) :=
  (StableHlo.after_of_writes_sub hostOps2 _ hostOps2_writes h2).trans <|
    (W4_of_ne m ρ c r ha1).trans <| (StableHlo.after_of_writes_sub hostOps1 _ hostOps1_writes h1).trans <|
    (W2_of_ne m ρ c r ha0).trans <| (StableHlo.after_of_writes_sub hostOps0 _ hostOps0_writes h0).trans rfl

/-! ## The proof data family and the thread state -/

/-- Every pipeline's proof data, each at its pallas_call's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-- Before its first point the first pallas_call's invariant is the class's. -/
theorem Phi0_eq (V : (c : Dev nD) → (b : Ref sig .tc) → Buf (Elt F) ((c : Thread nD τ).loc b)) (c : Dev nD) :
    (dat0 V c).Φ 0 = Pipeline.ΦA spec0 c := by
  have h : (dat0 V c).Φ 0 = PhiS V c (0 : Fin (cfg0.N + 1)).val (Nat.le_of_lt_succ (0 : Fin (cfg0.N + 1)).isLt) := by dsimp only [dat0]
  rw [h, PhiS_zero V c _ _ (by simp)]

/-! ## The pallas_calls as segments -/

set_option backward.isDefEq.respectTransparency.types false in
/-- The first pallas_call over the thread state: entered from every unscoped buffer at the contents before it, left
    at the contents after it; its arrays split out of the unscoped buffers and put back at what the pipeline leaves; the
    generator register and the scoped buffers into the invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from Phi0_eq (V1 m ρ) c]; unfold Pipeline.ΦA
    iintro ⟨Hp, -, Hr⟩
    isplitl [Hr]; · iexact Hr
    iexact Hp
  hout c := by
    rw [Pipeline.ownSems0_none]
    have hΦ : (pdats m ρ 0 c).Φ (Fin.last _) ⊢ (iprop(Pipeline.scopedRest spec0 c ∗ ∃ r, prngReg c r) : sProp 𝕄) := hout0 (V1 m ρ) c
    iintro Hq
    ihave Hq' := hΦ $$ Hq
    icases Hq' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call over the thread state: entered from every unscoped buffer at the contents before it, left
    at the contents after it; its arrays split out of the unscoped buffers and put back at what the pipeline leaves; the
    generator register and the scoped buffers into the invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (segs m ρ) := (main_chain c).trans (by chain_rfl)

set_option backward.isDefEq.respectTransparency.types false in
/-- Every weakly fair execution of the program from memory m with zero counters terminates, nothing faulting, with the
    result buffer at the fold's last contents and every argument array as launched. -/
theorem run_all : θ_run defs (onTc (τ := τ) (main (F := F))) ⟨m, fun _ => 0, ρ⟩ (fun r => ∀ c : Dev nD,
      r.2.mem ((c.tc : Thread nD τ).loc main_v31) = W5 m ρ c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show (iprop(StableHlo.held (c : Thread nD τ) (Pipeline.ucRefs τ sig) (W5 m ρ c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v31 (by decide)),
       (h c _ (mem_uc main_arg0 (by decide))).trans (W5_kept m ρ c main_arg0 (by decide) (by decide) (by decide) (by decide) (by decide)),
       (h c _ (mem_uc main_arg1 (by decide))).trans (W5_kept m ρ c main_arg1 (by decide) (by decide) (by decide) (by decide) (by decide)),
       (h c _ (mem_uc main_arg2 (by decide))).trans (W5_kept m ρ c main_arg2 (by decide) (by decide) (by decide) (by decide) (by decide)),
       (h c _ (mem_uc main_arg3 (by decide))).trans (W5_kept m ρ c main_arg3 (by decide) (by decide) (by decide) (by decide) (by decide)),
       (h c _ (mem_uc main_arg4 (by decide))).trans (W5_kept m ρ c main_arg4 (by decide) (by decide) (by decide) (by decide) (by decide))⟩)

end Cert.KernelIdeal.Hand

end
-- ==== Proof.KernelIdeal.Region0.Pieces.lean ====
/-
  The first pallas_call's body, case by case, as values: what each point's run leaves in the first output's block, in
  the scratch and (at the copy-out) in the second output's block, as functions of the two input blocks it read and of
  what the buffers held before. The first output's block becomes the row minima of the point's table of squared
  distances against +∞ (where the point resets it) or against its old contents; one slice of 1024 columns of the
  scratch, at 1024 times the database tile's number, becomes the column minima of the table against the slice's old
  contents, the other columns are kept; the copy-out stores the new scratch, reshaped. Also the windows' index maps in
  closed form and the two input blocks read off their arrays.
-/
import proofs.«115777_j15960098472629_2_alg».proof.Proof.KernelIdeal.Region0.Data
import Idealize.ShloMosaic.Lib.Pipeline.Value
import Idealize.ShloMosaic.Lib.Writes
import Idealize.ShloMosaic.Lib.WritesUnit
import Idealize.ShloMosaic.Lib.ValueIdx

set_option maxRecDepth 16384

noncomputable section

namespace Cert.KernelIdeal.Value0

open Cert.KernelIdeal Cert.KernelIdeal.Gen Cert.KernelIdeal.Hand
open Idealize.ShloMosaic Idealize.ShloMosaic.TcCoe Idealize.ShloMosaic.Tactic Idealize.ShloMosaic.ValueIdx
open Idealize.SL.Sem
open Idealize.ShloMosaic.Pipeline (Dat Cfg Window)

variable {F : FTy → Type} [FloatOps F]
variable (V : (c : Dev nD) → (b : Ref sig .tc) → Buf (Elt F) ((c : Thread nD τ).loc b))

/-- Query point n' of core half h: the halves are the first and the last 4096 of the 8192 query points. -/
def halfIdx (h : Fin 2) (n' : Fin 4096) : Fin 8192 := ⟨h.val * 4096 + n'.val, by have := h.isLt; have := n'.isLt; omega⟩

/-! ## What the body leaves in its buffers, as values of the blocks it read -/

theorem hz2 : (![0, 0] : Fin 2 → Nat) = fun _ => 0 := funext fun a => by fin_cases a <;> rfl
theorem hz3 : (![0, 0, 0] : Fin 3 → Nat) = fun _ => 0 := funext fun a => by fin_cases a <;> rfl

/-- The table of squared distances of the point's two input blocks. -/
abbrev tab (c : Dev nD) (t : Fin cfg0.N) : FVec F S4x512x1024 .f32 := k0_pay6 (iblk0 V c 0 t) (iblk0 V c 1 t)

/-- After a point that resets the first output's block (cases A and B): the row minima of the table against +∞. -/
theorem o2_A (c : Dev nD) (t : Fin cfg0.N) (h0 : t.val % 64 = 0) :
    VO0_2.read (Elt F) (VO0_2.writes (Elt F) VO0_2.junk (runA V c t h0).1) = k0_pay1 (tab V c t) (k0_pay5 (F := F)) := by
  rw [View.read_writes_eq_canon _ _ _ (cover0_A_2 V c t h0)]
  unfold runA kernelRun0_A
  dsimp only
  sl_unfold_words
  rw [View.canon_cons_unit_zero (S := S4x512) hz2, View.readCov_unit_zero (S := S4x512) _ hz2]
  simp only [View.readAt_eq_ld, (hs0_0 t).read_unread, (hs0_1 t).read_unread, View.ld_unit_zero (S := S4x3x512) hz3,
    View.ld_unit_zero (S := S4x3x1024) hz3]

theorem o2_B (c : Dev nD) (t : Fin cfg0.N) (h0 : ¬t.val % 64 = 0) (h1 : t.val % 8 = 0) (xs : Vec F S4x8192 .f32) :
    VO0_2.read (Elt F) (VO0_2.writes (Elt F) VO0_2.junk (runB V c t h0 h1 xs).1) = k0_pay1 (tab V c t) (k0_pay5 (F := F)) := by
  rw [View.read_writes_eq_canon _ _ _ (cover0_B_2 V c t h0 h1 xs)]
  unfold runB kernelRun0_B
  dsimp only
  sl_unfold_words
  rw [View.canon_cons_unit_zero (S := S4x512) hz2, View.readCov_unit_zero (S := S4x512) _ hz2]
  simp only [View.readAt_eq_ld, (hs0_0 t).read_unread, (hs0_1 t).read_unread, View.ld_unit_zero (S := S4x3x512) hz3,
    View.ld_unit_zero (S := S4x3x1024) hz3]

/-- After a point that keeps the first output's block (cases C and D): the row minima against the block's old contents. -/
theorem o2_C (c : Dev nD) (t : Fin cfg0.N) (h1 : ¬t.val % 8 = 0) (h2 : ¬t.val % 64 = 63) (xo2 : Vec F S4x512 .f32) (xs : Vec F S4x8192 .f32) :
    VO0_2.read (Elt F) (VO0_2.writes (Elt F) VO0_2.junk (runC V c t h1 h2 xo2 xs).1) = k0_pay1 (tab V c t) xo2 := by
  rw [View.read_writes_eq_canon _ _ _ (cover0_C_2 V c t h1 h2 xo2 xs)]
  unfold runC kernelRun0_C
  dsimp only
  sl_unfold_words
  rw [View.canon_unit_zero (S := S4x512) hz2]
  simp only [View.readAt_eq_ld, (hs0_0 t).read_unread, (hs0_1 t).read_unread, (hs0_2 t).read_unread, View.ld_unit_zero (S := S4x3x512) hz3,
    View.ld_unit_zero (S := S4x3x1024) hz3, View.ld_unit_zero (S := S4x512) hz2]

theorem o2_D (c : Dev nD) (t : Fin cfg0.N) (h2 : t.val % 64 = 63) (xo2 : Vec F S4x512 .f32) (xs : Vec F S4x8192 .f32) :
    VO0_2.read (Elt F) (VO0_2.writes (Elt F) VO0_2.junk (runD V c t h2 xo2 xs).1) = k0_pay1 (tab V c t) xo2 := by
  rw [View.read_writes_eq_canon _ _ _ (cover0_D_2 V c t h2 xo2 xs)]
  unfold runD kernelRun0_D
  dsimp only
  sl_unfold_words
  rw [View.canon_unit_zero (S := S4x512) hz2]
  simp only [View.readAt_eq_ld, (hs0_0 t).read_unread, (hs0_1 t).read_unread, (hs0_2 t).read_unread, View.ld_unit_zero (S := S4x3x512) hz3,
    View.ld_unit_zero (S := S4x3x1024) hz3, View.ld_unit_zero (S := S4x512) hz2]

/-! ## The scratch: one column slice of 1024 is replaced, the rest kept -/

/-- The column offset of the slice: 1024 times the database tile's number. -/
theorem off1_eq : ∀ t : Fin cfg0.N, k0_off1 (grid0.coords t) = ![0, 1024 * (t.val % 8)] :=
  (by decide +kernel : ∀ t : Fin grid0.N, k0_off1 (grid0.coords t) = ![0, 1024 * (t.val % 8)])

/-- The scratch after the point's one store into it, over contents xs: the slice of columns at the point's offset
    replaced by the column minima of the table against the slice's old contents. -/
def scAfter (c : Dev nD) (t : Fin cfg0.N) (xs : Vec F S4x8192 .f32) : Vec F S4x8192 .f32 :=
  VS0.read (Elt F) (VS0.writes (Elt F) (hscM0.unread xs)
    [⟨Rect.unit (s := S4x8192) (k0_off1 (grid0.coords t)) S4x1024.size (k0_off1_inb (grid0.coords t)),
      k0_pay2 (tab V c t) (View.readAt (Elt F) VS0
        (Rect.unit (s := S4x8192) (k0_off1 (grid0.coords t)) S4x1024.size (k0_off1_inb (grid0.coords t))).toLoadRect (hscM0.unread xs))⟩])

theorem sc_B (c : Dev nD) (t : Fin cfg0.N) (h0 : ¬t.val % 64 = 0) (h1 : t.val % 8 = 0) (xs : Vec F S4x8192 .f32) :
    VS0.read (Elt F) (VS0.writes (Elt F) (hscM0.unread xs) (runB V c t h0 h1 xs).2.1) = scAfter V c t xs := by
  unfold runB kernelRun0_B scAfter
  dsimp only
  sl_unfold_words
  simp only [View.readAt_eq_ld, (hs0_0 t).read_unread, (hs0_1 t).read_unread, View.ld_unit_zero (S := S4x3x512) hz3,
    View.ld_unit_zero (S := S4x3x1024) hz3]

theorem sc_C (c : Dev nD) (t : Fin cfg0.N) (h1 : ¬t.val % 8 = 0) (h2 : ¬t.val % 64 = 63) (xo2 : Vec F S4x512 .f32) (xs : Vec F S4x8192 .f32) :
    VS0.read (Elt F) (VS0.writes (Elt F) (hscM0.unread xs) (runC V c t h1 h2 xo2 xs).2.1) = scAfter V c t xs := by
  unfold runC kernelRun0_C scAfter
  dsimp only
  sl_unfold_words
  simp only [View.readAt_eq_ld, (hs0_0 t).read_unread, (hs0_1 t).read_unread, View.ld_unit_zero (S := S4x3x512) hz3,
    View.ld_unit_zero (S := S4x3x1024) hz3]

theorem sc_D (c : Dev nD) (t : Fin cfg0.N) (h2 : t.val % 64 = 63) (xo2 : Vec F S4x512 .f32) (xs : Vec F S4x8192 .f32) :
    VS0.read (Elt F) (VS0.writes (Elt F) (hscM0.unread xs) (runD V c t h2 xo2 xs).2.2.1) = scAfter V c t xs := by
  unfold runD kernelRun0_D scAfter
  dsimp only
  sl_unfold_words
  simp only [View.readAt_eq_ld, (hs0_0 t).read_unread, (hs0_1 t).read_unread, View.ld_unit_zero (S := S4x3x512) hz3,
    View.ld_unit_zero (S := S4x3x1024) hz3]

/-- The copy-out: the second output's block is the new scratch, reshaped. -/
theorem o3_D (c : Dev nD) (t : Fin cfg0.N) (h2 : t.val % 64 = 63) (xo2 : Vec F S4x512 .f32) (xs : Vec F S4x8192 .f32) :
    VO0_3.read (Elt F) (VO0_3.writes (Elt F) VO0_3.junk (runD V c t h2 xo2 xs).2.1) = k0_pay3 (scAfter V c t xs) := by
  rw [View.read_writes_eq_canon _ _ _ (cover0_D_3 V c t h2 xo2 xs)]
  unfold runD kernelRun0_D scAfter
  dsimp only
  sl_unfold_words
  rw [View.canon_unit_zero (S := S1x4x8192) hz3]
  simp only [View.readAt_eq_ld, (hs0_0 t).read_unread, (hs0_1 t).read_unread, View.ld_unit_zero (S := S4x3x512) hz3,
    View.ld_unit_zero (S := S4x3x1024) hz3, View.ld_unit_zero (S := S4x8192) hz2]

/-! ## The windows' index maps, and the input blocks read off the arrays -/

theorem idx0_0 : ∀ t : Fin cfg0.N, win0_0.index t (0 : Fin 3) = 0 ∧ win0_0.index t (1 : Fin 3) = 0 ∧ win0_0.index t (2 : Fin 3) = t.val / 8 :=
  (by decide +kernel : ∀ t : Fin grid0.N, win0_0.index t (0 : Fin 3) = 0 ∧ win0_0.index t (1 : Fin 3) = 0 ∧ win0_0.index t (2 : Fin 3) = t.val / 8)
theorem idx0_1 : ∀ t : Fin cfg0.N, win0_1.index t (0 : Fin 3) = 0 ∧ win0_1.index t (1 : Fin 3) = 0 ∧ win0_1.index t (2 : Fin 3) = t.val % 8 :=
  (by decide +kernel : ∀ t : Fin grid0.N, win0_1.index t (0 : Fin 3) = 0 ∧ win0_1.index t (1 : Fin 3) = 0 ∧ win0_1.index t (2 : Fin 3) = t.val % 8)
theorem idx0_2 : ∀ t : Fin cfg0.N, win0_2.index t (0 : Fin 2) = 0 ∧ win0_2.index t (1 : Fin 2) = t.val / 8 :=
  (by decide +kernel : ∀ t : Fin grid0.N, win0_2.index t (0 : Fin 2) = 0 ∧ win0_2.index t (1 : Fin 2) = t.val / 8)
theorem idx0_3 : ∀ t : Fin cfg0.N, win0_3.index t (0 : Fin 3) = t.val / 64 ∧ win0_3.index t (1 : Fin 3) = 0 ∧ win0_3.index t (2 : Fin 3) = 0 :=
  (by decide +kernel : ∀ t : Fin grid0.N, win0_3.index t (0 : Fin 3) = t.val / 64 ∧ win0_3.index t (1 : Fin 3) = 0 ∧ win0_3.index t (2 : Fin 3) = 0)

/-- The query block at point t is the 512 points from (t / 8) · 512 on. -/
theorem iblk0_0_apply (c : Dev nD) (t : Fin cfg0.N) (b : Fin 4) (k : Fin 3) (p : Fin 512) (hn : t.val / 8 * 512 + p.val < 8192) :
    (iblk0 V c 0 t : Vec F S4x3x512 .f32) (ix3 b k p) = V c main_v0 (ix3 b k ⟨t.val / 8 * 512 + p.val, hn⟩) := by
  unfold iblk0
  rw [View.read_apply]
  show V c main_v0 _ = V c main_v0 _
  congr 1
  funext a
  apply Fin.ext
  match a with
  | ⟨0, _⟩ => show win0_0.index t (0 : Fin 3) * 4 + 1 * b.val = b.val; rw [(idx0_0 t).1]; omega
  | ⟨1, _⟩ => show win0_0.index t (1 : Fin 3) * 3 + 1 * k.val = k.val; rw [(idx0_0 t).2.1]; omega
  | ⟨2, _⟩ => show win0_0.index t (2 : Fin 3) * 512 + 1 * p.val = t.val / 8 * 512 + p.val; rw [(idx0_0 t).2.2]; omega

/-- The database block at point t is the 1024 points from (t % 8) · 1024 on. -/
theorem iblk0_1_apply (c : Dev nD) (t : Fin cfg0.N) (b : Fin 4) (k : Fin 3) (q : Fin 1024) (hm : t.val % 8 * 1024 + q.val < 8192) :
    (iblk0 V c 1 t : Vec F S4x3x1024 .f32) (ix3 b k q) = V c main_v1 (ix3 b k ⟨t.val % 8 * 1024 + q.val, hm⟩) := by
  unfold iblk0
  rw [View.read_apply]
  show V c main_v1 _ = V c main_v1 _
  congr 1
  funext a
  apply Fin.ext
  match a with
  | ⟨0, _⟩ => show win0_1.index t (0 : Fin 3) * 4 + 1 * b.val = b.val; rw [(idx0_1 t).1]; omega
  | ⟨1, _⟩ => show win0_1.index t (1 : Fin 3) * 3 + 1 * k.val = k.val; rw [(idx0_1 t).2.1]; omega
  | ⟨2, _⟩ => show win0_1.index t (2 : Fin 3) * 1024 + 1 * q.val = t.val % 8 * 1024 + q.val; rw [(idx0_1 t).2.2]; omega

end Cert.KernelIdeal.Value0

end
-- ==== Proof.Spec.lean ====
/-
  The specification of the loss, program-free.

  For point clouds up, gt : [4, 8192, 3] and rad : [4, 1024, 3] and a confidence array conf : [4, 1024, 1]
  over the extended reals, the squared distance of two points is the sum of the three squared coordinate
  differences, associated ((dx² + dy²) + dz²); rowMin88 is, for each point of the first cloud, the infimum of the
  squared distances to all points of the second; colMin88 is, for each point of the second cloud, the infimum over
  the first; rowMin18 is rowMin88 for a cloud of 1024 points against one of 8192. The loss is
    (½ · (½ · mean rowMin + 2 · mean colMin) + ½ · mean ((conf − exp (−√rowMin18))²)) + mean (√rowMin),
  every mean a sum from zero divided by the number of entries (32768, 4096), written with the host's
  operations so that both programs' closing arithmetic is literally this term (tail).
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-! ## Shapes -/

abbrev SP8 : Shape := ⟨3, ![4, 8192, 3]⟩
abbrev SP1 : Shape := ⟨3, ![4, 1024, 3]⟩
abbrev SC : Shape := ⟨3, ![4, 1024, 1]⟩
abbrev SD8 : Shape := ⟨2, ![4, 8192]⟩
abbrev SD1 : Shape := ⟨2, ![4, 1024]⟩
abbrev S0 : Shape := ⟨0, ![]⟩
abbrev ST8 : Shape := ⟨3, ![4, 3, 8192]⟩
abbrev ST1 : Shape := ⟨3, ![4, 3, 1024]⟩
abbrev SD2 : Shape := ⟨3, ![2, 4, 8192]⟩

/-! ## Squared distances and their infima -/

/-- The squared distance of the points (ax, ay, az) and (bx, by, bz), associated ((dx² + dy²) + dz²). -/
def sqd (ax ay az bx by' bz : EReal) : EReal :=
  ((ax - bx) * (ax - bx) + (ay - by') * (ay - by')) + (az - bz) * (az - bz)

/-- Squared distance of point n of a and point m of b in batch bb, both clouds of 8192 points. -/
def sqd88 (a b : SP8.Idx → EReal) (bb : Fin 4) (n m : Fin 8192) : EReal :=
  sqd (a (ix3 bb n (0 : Fin 3))) (a (ix3 bb n (1 : Fin 3))) (a (ix3 bb n (2 : Fin 3)))
      (b (ix3 bb m (0 : Fin 3))) (b (ix3 bb m (1 : Fin 3))) (b (ix3 bb m (2 : Fin 3)))

/-- Squared distance of point n of a (1024 points) and point m of b (8192 points) in batch bb. -/
def sqd18 (a : SP1.Idx → EReal) (b : SP8.Idx → EReal) (bb : Fin 4) (n : Fin 1024) (m : Fin 8192) : EReal :=
  sqd (a (ix3 bb n (0 : Fin 3))) (a (ix3 bb n (1 : Fin 3))) (a (ix3 bb n (2 : Fin 3)))
      (b (ix3 bb m (0 : Fin 3))) (b (ix3 bb m (1 : Fin 3))) (b (ix3 bb m (2 : Fin 3)))

/-- The same squared distance read off coordinate-major arrays (batch, coordinate, point), both of 8192 points. -/
def sqdT88 (q d : ST8.Idx → EReal) (bb : Fin 4) (n m : Fin 8192) : EReal :=
  sqd (q (ix3 bb (0 : Fin 3) n)) (q (ix3 bb (1 : Fin 3) n)) (q (ix3 bb (2 : Fin 3) n))
      (d (ix3 bb (0 : Fin 3) m)) (d (ix3 bb (1 : Fin 3) m)) (d (ix3 bb (2 : Fin 3) m))

/-- The same for a coordinate-major array of 1024 points against one of 8192. -/
def sqdT18 (q : ST1.Idx → EReal) (d : ST8.Idx → EReal) (bb : Fin 4) (n : Fin 1024) (m : Fin 8192) : EReal :=
  sqd (q (ix3 bb (0 : Fin 3) n)) (q (ix3 bb (1 : Fin 3) n)) (q (ix3 bb (2 : Fin 3) n))
      (d (ix3 bb (0 : Fin 3) m)) (d (ix3 bb (1 : Fin 3) m)) (d (ix3 bb (2 : Fin 3) m))

/-- For each point of a, the least squared distance to a point of b. -/
def rowMin88 (a b : SP8.Idx → EReal) : SD8.Idx → EReal :=
  fun i => Finset.univ.inf fun m : Fin 8192 => sqd88 a b (i 0) (i 1) m

/-- For each point of b, the least squared distance to a point of a. -/
def colMin88 (a b : SP8.Idx → EReal) : SD8.Idx → EReal :=
  fun i => Finset.univ.inf fun n : Fin 8192 => sqd88 a b (i 0) n (i 1)

/-- For each of the 1024 points of a, the least squared distance to a point of b. -/
def rowMin18 (a : SP1.Idx → EReal) (b : SP8.Idx → EReal) : SD1.Idx → EReal :=
  fun i => Finset.univ.inf fun m : Fin 8192 => sqd18 a b (i 0) (i 1) m

/-! ## The closing arithmetic -/

theorem red_SC_S0 : SC.ReducesTo [0, 1, 2] S0 := by decide
theorem red_SD8_S0 : SD8.ReducesTo [0, 1] S0 := by decide
theorem bc_SD1_SC : SD1.BroadcastsInDim SC (![0, 1] : Fin 2 → Fin SC.rank) := by decide
theorem pos_S0 : 0 < S0.numel := by decide

/-- The loss from the three arrays of least squared distances and the confidences:
    (½ · (½ · (Σ d1 / 32768) + 2 · (Σ d2 / 32768)) + ½ · (Σ (conf − exp (−√r))² / 4096)) + Σ √d1 / 32768,
    each Σ the host's sum from zero. -/
def tail (d1 d2 : FVec Ideal SD8 .f32) (r : FVec Ideal SD1 .f32) (conf : FVec Ideal SC .f32) : FVec Ideal S0 .f32 :=
  addf (F := Ideal)
    (addf (F := Ideal)
      (mulf (F := Ideal) (constant (F := Ideal) S0 .f32 0x3F000000#32)
        (addf (F := Ideal)
          (mulf (F := Ideal) (constant (F := Ideal) S0 .f32 0x3F000000#32)
            (Host.divf (F := Ideal) (Host.reduceAdd (F := Ideal) d1 (constant (F := Ideal) S0 .f32 0x00000000#32) red_SD8_S0 pos_S0)
              (constant (F := Ideal) S0 .f32 0x47000000#32)))
          (mulf (F := Ideal) (constant (F := Ideal) S0 .f32 0x40000000#32)
            (Host.divf (F := Ideal) (Host.reduceAdd (F := Ideal) d2 (constant (F := Ideal) S0 .f32 0x00000000#32) red_SD8_S0 pos_S0)
              (constant (F := Ideal) S0 .f32 0x47000000#32)))))
      (mulf (F := Ideal) (constant (F := Ideal) S0 .f32 0x3F000000#32)
        (Host.divf (F := Ideal)
          (Host.reduceAdd (F := Ideal)
            (mulf (F := Ideal)
              (subf (F := Ideal) conf (broadcastInDim SC ![0, 1] bc_SD1_SC (Host.exp (F := Ideal) (Host.negf (F := Ideal) (Host.sqrt (F := Ideal) r)))))
              (subf (F := Ideal) conf (broadcastInDim SC ![0, 1] bc_SD1_SC (Host.exp (F := Ideal) (Host.negf (F := Ideal) (Host.sqrt (F := Ideal) r))))))
            (constant (F := Ideal) S0 .f32 0x00000000#32) red_SC_S0 pos_S0)
          (constant (F := Ideal) S0 .f32 0x45800000#32))))
    (Host.divf (F := Ideal)
      (Host.reduceAdd (F := Ideal) (Host.sqrt (F := Ideal) d1) (constant (F := Ideal) S0 .f32 0x00000000#32) red_SD8_S0 pos_S0)
      (constant (F := Ideal) S0 .f32 0x47000000#32))

/-- The loss as one function of the four argument arrays. -/
def loss (up : SP8.Idx → EReal) (conf : SC.Idx → EReal) (gt : SP8.Idx → EReal) (rad : SP1.Idx → EReal) : FVec Ideal S0 .f32 :=
  tail (rowMin88 up gt) (colMin88 up gt) (rowMin18 rad gt) conf

end Cert.Spec

end
-- ==== Proof.LibMinBlocks.lean ====
/-
  Infima over finite index sets, cut into blocks.

  An infimum over a finite set indexed through a surjection (block, offset) ↦ index is the infimum over the blocks of
  the infimum inside each block; at the sizes met here, 8192 = 8 · 1024 = 16 · 512 = 2 · 4096 with the index
  block · size + offset. A left fold of the binary minimum along a list is the minimum of its starting value and the
  infimum over the list's elements; over all of Fin n, from the top element, it is the infimum over Fin n. The
  infimum over Fin (n + 1) is the minimum of the infimum over the first n and the last value.
-/
import Idealize.ShloMosaic.PureOps.Ideal

namespace Cert.LibMinBlocks

/-- The infimum over ι is the infimum over α of the infima over β, when every index is g a b for some a, b. -/
theorem inf_univ_eq_inf_inf {ι α β : Type*} [Fintype ι] [Fintype α] [Fintype β] (f : ι → EReal) (g : α → β → ι)
    (hg : ∀ i, ∃ a b, g a b = i) :
    (Finset.univ.inf f : EReal) = Finset.univ.inf fun a : α => Finset.univ.inf fun b : β => f (g a b) := by
  refine le_antisymm ?_ ?_
  · exact Finset.le_inf fun a _ => Finset.le_inf fun b _ => Finset.inf_le (Finset.mem_univ _)
  · refine Finset.le_inf fun i _ => ?_
    obtain ⟨a, b, rfl⟩ := hg i
    exact (Finset.inf_le (Finset.mem_univ a)).trans (Finset.inf_le (Finset.mem_univ b))

/-- 8192 = 8 · 1024: index = block · 1024 + offset. -/
theorem inf_8192_blocks_1024 (f : Fin 8192 → EReal) :
    (Finset.univ.inf f : EReal)
      = Finset.univ.inf fun j : Fin 8 => Finset.univ.inf fun r : Fin 1024 => f ⟨j.val * 1024 + r.val, by omega⟩ :=
  inf_univ_eq_inf_inf f (fun (j : Fin 8) (r : Fin 1024) => (⟨j.val * 1024 + r.val, by omega⟩ : Fin 8192))
    (fun i => ⟨⟨i.val / 1024, by omega⟩, ⟨i.val % 1024, by omega⟩, Fin.ext (by simp only; omega)⟩)

/-- 8192 = 16 · 512: index = block · 512 + offset. -/
theorem inf_8192_blocks_512 (f : Fin 8192 → EReal) :
    (Finset.univ.inf f : EReal)
      = Finset.univ.inf fun j : Fin 16 => Finset.univ.inf fun r : Fin 512 => f ⟨j.val * 512 + r.val, by omega⟩ :=
  inf_univ_eq_inf_inf f (fun (j : Fin 16) (r : Fin 512) => (⟨j.val * 512 + r.val, by omega⟩ : Fin 8192))
    (fun i => ⟨⟨i.val / 512, by omega⟩, ⟨i.val % 512, by omega⟩, Fin.ext (by simp only; omega)⟩)

/-- 1024 = 2 · 512: index = block · 512 + offset. -/
theorem inf_1024_blocks_512 (f : Fin 1024 → EReal) :
    (Finset.univ.inf f : EReal)
      = Finset.univ.inf fun j : Fin 2 => Finset.univ.inf fun r : Fin 512 => f ⟨j.val * 512 + r.val, by omega⟩ :=
  inf_univ_eq_inf_inf f (fun (j : Fin 2) (r : Fin 512) => (⟨j.val * 512 + r.val, by omega⟩ : Fin 1024))
    (fun i => ⟨⟨i.val / 512, by omega⟩, ⟨i.val % 512, by omega⟩, Fin.ext (by simp only; omega)⟩)

/-- 16 = 2 · 8: index = half · 8 + offset. -/
theorem inf_16_blocks_8 (f : Fin 16 → EReal) :
    (Finset.univ.inf f : EReal)
      = Finset.univ.inf fun c : Fin 2 => Finset.univ.inf fun r : Fin 8 => f ⟨c.val * 8 + r.val, by omega⟩ :=
  inf_univ_eq_inf_inf f (fun (c : Fin 2) (r : Fin 8) => (⟨c.val * 8 + r.val, by omega⟩ : Fin 16))
    (fun i => ⟨⟨i.val / 8, by omega⟩, ⟨i.val % 8, by omega⟩, Fin.ext (by simp only; omega)⟩)

/-- The infimum over two indices is the minimum of the two values. -/
theorem inf_fin_two (f : Fin 2 → EReal) : (Finset.univ.inf f : EReal) = min (f 0) (f 1) := by
  refine le_antisymm (le_min (Finset.inf_le (Finset.mem_univ _)) (Finset.inf_le (Finset.mem_univ _))) ?_
  refine Finset.le_inf fun i _ => ?_
  fin_cases i
  · exact min_le_left _ _
  · exact min_le_right _ _

/-- The infimum over Fin (n + 1) is the minimum of the infimum over the first n indices and the last value. -/
theorem inf_fin_succ_last (n : ℕ) (f : Fin (n + 1) → EReal) :
    (Finset.univ.inf f : EReal) = min (Finset.univ.inf fun k : Fin n => f k.castSucc) (f (Fin.last n)) := by
  refine le_antisymm (le_min (Finset.le_inf fun k _ => Finset.inf_le (Finset.mem_univ _))
    (Finset.inf_le (Finset.mem_univ _))) ?_
  refine Finset.le_inf fun i _ => ?_
  induction i using Fin.lastCases with
  | last => exact min_le_right _ _
  | cast k => exact (min_le_left _ _).trans (Finset.inf_le (Finset.mem_univ k))

/-- A left fold of the binary minimum along a list is the minimum of the start and the infimum over the list's
    elements. -/
theorem foldl_min_eq {ι : Type*} [DecidableEq ι] (f : ι → EReal) (l : List ι) (init : EReal) :
    l.foldl (fun r n => min r (f n)) init = min init (l.toFinset.inf f) := by
  induction l generalizing init with
  | nil => simp
  | cons a l ih => rw [List.foldl_cons, ih, List.toFinset_cons, Finset.inf_insert, min_assoc]

/-- The commutative fold of the binary minimum from the top element over all of a finite type is the infimum. -/
theorem fold_min_top_eq_inf {ι : Type*} [Fintype ι] (f : ι → EReal) :
    (Finset.univ : Finset ι).fold min (⊤ : EReal) f = Finset.univ.inf f := rfl

end Cert.LibMinBlocks
-- ==== Proof.KernelValue.lean ====
/-
  The kernel program's result at the ideal instance: the buffer contents the run ends with, read back through the
  program's five stretches. The three transposes make the coordinate-major arrays; the first pallas_call leaves the row
  minima and, per core half, the column minima over that half's query points; the host lines take the minimum of the two
  halves, which is the column minimum over all query points; the second pallas_call leaves the radar points' row
  minima; and the closing host lines are the loss's tail. No law of arithmetic is needed on this side: the kernel's
  squared distance is the specification's own term.
-/
import proofs.«115777_j15960098472629_2_alg».proof.Proof.KernelIdeal.Run
import proofs.«115777_j15960098472629_2_alg».proof.Proof.KernelIdeal.Region0.Pieces
import proofs.«115777_j15960098472629_2_alg».proof.Proof.Spec
import proofs.«115777_j15960098472629_2_alg».proof.Proof.LibMinBlocks
import Idealize.ShloMosaic.Lib.StableHlo.Run
import Idealize.ShloMosaic.Lib.ValueLayout
import Idealize.ShloMosaic.Lib.ValueIdx
import Idealize.ShloMosaic.Lib.Pipeline.Value

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg) (c : Dev nD)

/-! ## The coordinate-major arrays -/

theorem W1_v0 : W1 m ρ c (Proc.devRef .tc main_v0)
    = transpose S4x3x8192 [0, 2, 1] (m ((c.tc : Thread nD τ).loc main_arg0)) transposes_S4x8192x3_S4x3x8192_0_2_1 := by
  show StableHlo.after hostOps0 (W0 m ρ c) (Proc.devRef .tc main_v0) = _
  after_results
theorem W1_v1 : W1 m ρ c (Proc.devRef .tc main_v1)
    = transpose S4x3x8192 [0, 2, 1] (m ((c.tc : Thread nD τ).loc main_arg3)) transposes_S4x8192x3_S4x3x8192_0_2_1 := by
  show StableHlo.after hostOps0 (W0 m ρ c) (Proc.devRef .tc main_v1) = _
  after_results
theorem W1_v2 : W1 m ρ c (Proc.devRef .tc main_v2)
    = transpose S4x3x1024 [0, 2, 1] (m ((c.tc : Thread nD τ).loc main_arg4)) transposes_S4x1024x3_S4x3x1024_0_2_1 := by
  show StableHlo.after hostOps0 (W0 m ρ c) (Proc.devRef .tc main_v2) = _
  after_results

/-- An input array of the first pallas_call leaves it as it entered. -/
theorem W2_v1 : W2 m ρ c (Proc.devRef .tc main_v1) = W1 m ρ c (Proc.devRef .tc main_v1) :=
  (W2_arr m ρ c 1).trans (((dat0 (V1 m ρ) c).arrAt_in 1 rfl _).trans (A_eq0 (V1 m ρ) c 1))
theorem W3_v1 : W3 m ρ c (Proc.devRef .tc main_v1) = W1 m ρ c (Proc.devRef .tc main_v1) :=
  (StableHlo.after_of_writes_sub hostOps1 _ hostOps1_writes (by decide)).trans (W2_v1 m ρ c)
theorem W3_v2 : W3 m ρ c (Proc.devRef .tc main_v2) = W1 m ρ c (Proc.devRef .tc main_v2) :=
  (StableHlo.after_of_writes_sub hostOps1 _ hostOps1_writes (by decide)).trans (W2_of_ne m ρ c main_v2 (by decide))

/-! ## What the closing lines read -/

theorem W4_v3_0 : W4 m ρ c (Proc.devRef .tc main_v3_0) = (dat0 (V1 m ρ) c).arrAt 2 cfg0.N :=
  (W4_of_ne m ρ c main_v3_0 (by decide)).trans <|
    (StableHlo.after_of_writes_sub hostOps1 _ hostOps1_writes (by decide)).trans (W2_arr m ρ c 2)
theorem W4_v9 : W4 m ρ c (Proc.devRef .tc main_v9) = (dat1 (V3 m ρ) c).arrAt 2 cfg1.N := W4_arr m ρ c 2
theorem W4_arg2 : W4 m ρ c (Proc.devRef .tc main_arg2) = m ((c.tc : Thread nD τ).loc main_arg2) :=
  (W4_of_ne m ρ c main_arg2 (by decide)).trans <|
    (StableHlo.after_of_writes_sub hostOps1 _ hostOps1_writes (by decide)).trans <|
    (W2_of_ne m ρ c main_arg2 (by decide)).trans <|
    (StableHlo.after_of_writes_sub hostOps0 _ hostOps0_writes (by decide)).trans rfl
/-! ## Typed readers -/

/-- The first pallas_call's output arrays and the second's, as arrays of extended reals. -/
def rows0 (V : (c : Dev nD) → (b : Ref sig .tc) → Buf (Elt Ideal) ((c : Thread nD τ).loc b)) (c : Dev nD) : S4x8192.Idx → EReal := (dat0 (F := Ideal) V c).arrAt 2 cfg0.N
def cols0 (V : (c : Dev nD) → (b : Ref sig .tc) → Buf (Elt Ideal) ((c : Thread nD τ).loc b)) (c : Dev nD) : S2x4x8192.Idx → EReal := (dat0 (F := Ideal) V c).arrAt 3 cfg0.N
def rows1 (V : (c : Dev nD) → (b : Ref sig .tc) → Buf (Elt Ideal) ((c : Thread nD τ).loc b)) (c : Dev nD) : S4x1024.Idx → EReal := (dat1 (F := Ideal) V c).arrAt 2 cfg1.N
/-- The coordinate-major arrays the pallas_calls stage. -/
def upT (V : (c : Dev nD) → (b : Ref sig .tc) → Buf (Elt Ideal) ((c : Thread nD τ).loc b)) (c : Dev nD) : S4x3x8192.Idx → EReal := V c main_v0
def gtT (V : (c : Dev nD) → (b : Ref sig .tc) → Buf (Elt Ideal) ((c : Thread nD τ).loc b)) (c : Dev nD) : S4x3x8192.Idx → EReal := V c main_v1
def radT (V : (c : Dev nD) → (b : Ref sig .tc) → Buf (Elt Ideal) ((c : Thread nD τ).loc b)) (c : Dev nD) : S4x3x1024.Idx → EReal := V c main_v2
/-- The argument arrays. -/
def up : S4x8192x3.Idx → EReal := m ((c.tc : Thread nD τ).loc main_arg0)
def conf : S4x1024x1.Idx → EReal := m ((c.tc : Thread nD τ).loc main_arg2)
def gt : S4x8192x3.Idx → EReal := m ((c.tc : Thread nD τ).loc main_arg3)
def rad : S4x1024x3.Idx → EReal := m ((c.tc : Thread nD τ).loc main_arg4)
/-- What the closing lines read. -/
def rdRows : S4x8192.Idx → EReal := W4 m ρ c (Proc.devRef .tc main_v3_0)
def rdCols : S4x8192.Idx → EReal := W4 m ρ c (Proc.devRef .tc main_v8)
def rdRad : S4x1024.Idx → EReal := W4 m ρ c (Proc.devRef .tc main_v9)
def rdConf : S4x1024x1.Idx → EReal := W4 m ρ c (Proc.devRef .tc main_arg2)
def rdOut : S_.Idx → EReal := W5 m ρ c (Proc.devRef .tc main_v31)

theorem upT_V1 : upT (V1 m ρ) c = transpose S4x3x8192 [0, 2, 1] (up m c) transposes_S4x8192x3_S4x3x8192_0_2_1 := W1_v0 m ρ c
theorem gtT_V1 : gtT (V1 m ρ) c = transpose S4x3x8192 [0, 2, 1] (gt m c) transposes_S4x8192x3_S4x3x8192_0_2_1 := W1_v1 m ρ c
theorem gtT_V3 : gtT (V3 m ρ) c = transpose S4x3x8192 [0, 2, 1] (gt m c) transposes_S4x8192x3_S4x3x8192_0_2_1 := (W3_v1 m ρ c).trans (W1_v1 m ρ c)
theorem radT_V3 : radT (V3 m ρ) c = transpose S4x3x1024 [0, 2, 1] (rad m c) transposes_S4x1024x3_S4x3x1024_0_2_1 := (W3_v2 m ρ c).trans (W1_v2 m ρ c)
theorem rdRows_eq : rdRows m ρ c = rows0 (V1 m ρ) c := W4_v3_0 m ρ c
theorem rdRad_eq : rdRad m ρ c = rows1 (V3 m ρ) c := W4_v9 m ρ c
theorem rdConf_eq : rdConf m ρ c = conf m c := W4_arg2 m ρ c

/-- The two core halves' column minima joined: entry (b, q) is the smaller of the halves' entries. -/
theorem rdCols_apply (b : Fin 4) (q : Fin 8192) : rdCols m ρ c (ix2 b q)
    = min (cols0 (V1 m ρ) c (ix3 (0 : Fin 2) b q)) (cols0 (V1 m ρ) c (ix3 (1 : Fin 2) b q)) := by
  have e : rdCols m ρ c
      = minimumf (F := Ideal) (φ := .f32) (shapeCast S4x8192 (extractStridedSlice S1x4x8192 ![0, 0, 0] (cols0 (V1 m ρ) c) slices_S2x4x8192_S1x4x8192_0_0_0) shapeCasts_S1x4x8192_S4x8192)
          (shapeCast S4x8192 (extractStridedSlice S1x4x8192 ![1, 0, 0] (cols0 (V1 m ρ) c) slices_S2x4x8192_S1x4x8192_1_0_0) shapeCasts_S1x4x8192_S4x8192) := by
    unfold rdCols cols0
    rw [show W4 m ρ c (Proc.devRef .tc main_v8) = W3 m ρ c (Proc.devRef .tc main_v8) from W4_of_ne m ρ c main_v8 (by decide),
      ← W2_arr m ρ c 3]
    show StableHlo.after hostOps1 (W2 m ρ c) (Proc.devRef .tc main_v8) = _
    after_results
    rfl
  rw [e, minimumf_apply,
    shapeCast_1ab_ab_apply (a := 4) (b := 8192) _ shapeCasts_S1x4x8192_S4x8192 b q,
    shapeCast_1ab_ab_apply (a := 4) (b := 8192) _ shapeCasts_S1x4x8192_S4x8192 b q,
    extractStridedSlice_apply ![0, 0, 0] (cols0 (V1 m ρ) c) slices_S2x4x8192_S1x4x8192_0_0_0 (ix3 (0 : Fin 1) b q) (ix3 (0 : Fin 2) b q)
      (fun a => by match a with | ⟨0, _⟩ => rfl | ⟨1, _⟩ => exact (Nat.zero_add _).symm | ⟨2, _⟩ => exact (Nat.zero_add _).symm),
    extractStridedSlice_apply ![1, 0, 0] (cols0 (V1 m ρ) c) slices_S2x4x8192_S1x4x8192_1_0_0 (ix3 (0 : Fin 1) b q) (ix3 (1 : Fin 2) b q)
      (fun a => by match a with | ⟨0, _⟩ => rfl | ⟨1, _⟩ => exact (Nat.zero_add _).symm | ⟨2, _⟩ => exact (Nat.zero_add _).symm)]

/-! ## The squared distance read off the transposed arrays is the specification's -/

theorem tr8 (x : S4x8192x3.Idx → EReal) (bb : Fin 4) (k : Fin 3) (n : Fin 8192) :
    transpose S4x3x8192 [0, 2, 1] x transposes_S4x8192x3_S4x3x8192_0_2_1 (ix3 bb k n) = x (ix3 bb n k) :=
  transpose_ix3_021_apply (m := 4) (a := 8192) (b := 3) x transposes_S4x8192x3_S4x3x8192_0_2_1 bb k n
theorem tr1 (x : S4x1024x3.Idx → EReal) (bb : Fin 4) (k : Fin 3) (n : Fin 1024) :
    transpose S4x3x1024 [0, 2, 1] x transposes_S4x1024x3_S4x3x1024_0_2_1 (ix3 bb k n) = x (ix3 bb n k) :=
  transpose_ix3_021_apply (m := 4) (a := 1024) (b := 3) x transposes_S4x1024x3_S4x3x1024_0_2_1 bb k n

theorem sqdT88_transposes (x y : S4x8192x3.Idx → EReal) (bb : Fin 4) (n mm : Fin 8192) :
    Cert.Spec.sqdT88 (transpose S4x3x8192 [0, 2, 1] x transposes_S4x8192x3_S4x3x8192_0_2_1) (transpose S4x3x8192 [0, 2, 1] y transposes_S4x8192x3_S4x3x8192_0_2_1) bb n mm
      = Cert.Spec.sqd88 x y bb n mm := by
  unfold Cert.Spec.sqdT88 Cert.Spec.sqd88
  rw [tr8, tr8, tr8, tr8, tr8, tr8]

theorem sqdT18_transposes (x : S4x1024x3.Idx → EReal) (y : S4x8192x3.Idx → EReal) (bb : Fin 4) (n : Fin 1024) (mm : Fin 8192) :
    Cert.Spec.sqdT18 (transpose S4x3x1024 [0, 2, 1] x transposes_S4x1024x3_S4x3x1024_0_2_1) (transpose S4x3x8192 [0, 2, 1] y transposes_S4x8192x3_S4x3x8192_0_2_1) bb n mm
      = Cert.Spec.sqd18 x y bb n mm := by
  unfold Cert.Spec.sqdT18 Cert.Spec.sqd18
  rw [tr1, tr1, tr1, tr8, tr8, tr8]

open Cert.KernelIdeal.Value0 (halfIdx)

/-- Every query point lies in one of the two core halves. -/
theorem halfIdx_onto (n : Fin 8192) : ∃ h n', halfIdx h n' = n :=
  ⟨⟨n.val / 4096, by have := n.isLt; omega⟩, ⟨n.val % 4096, Nat.mod_lt _ (by decide)⟩, Fin.ext (by simp only [halfIdx]; omega)⟩

/-! ## The result -/

section Result

-- what the two pallas_calls leave, as the per-pallas_call value theorems state it
variable
  (h02 : ∀ (V : (c : Dev nD) → (b : Ref sig .tc) → Buf (Elt Ideal) ((c : Thread nD τ).loc b)) (c : Dev nD), rows0 V c
      = fun i => Finset.univ.inf fun mm : Fin 8192 => Cert.Spec.sqdT88 (upT V c) (gtT V c) (i 0) (i 1) mm)
  (h03 : ∀ (V : (c : Dev nD) → (b : Ref sig .tc) → Buf (Elt Ideal) ((c : Thread nD τ).loc b)) (c : Dev nD), cols0 V c
      = fun i => Finset.univ.inf fun n' : Fin 4096 => Cert.Spec.sqdT88 (upT V c) (gtT V c) (i 1) (halfIdx (i 0) n') (i 2))
  (h1 : ∀ (V : (c : Dev nD) → (b : Ref sig .tc) → Buf (Elt Ideal) ((c : Thread nD τ).loc b)) (c : Dev nD), rows1 V c
      = fun i => Finset.univ.inf fun mm : Fin 8192 => Cert.Spec.sqdT18 (radT V c) (gtT V c) (i 0) (i 1) mm)

include h02 in
/-- The row minima. -/
theorem rows_eq : rdRows m ρ c = Cert.Spec.rowMin88 (up m c) (gt m c) := by
  rw [rdRows_eq, h02, upT_V1, gtT_V1]
  funext i
  exact congrArg Finset.univ.inf (funext fun mm => sqdT88_transposes (up m c) (gt m c) (i 0) (i 1) mm)

include h03 in
/-- The column minima: the smaller of the two core halves' is the minimum over all query points. -/
theorem cols_eq : rdCols m ρ c = Cert.Spec.colMin88 (up m c) (gt m c) := by
  funext i
  obtain ⟨b, q, rfl⟩ : ∃ (b : Fin 4) (q : Fin 8192), i = ix2 b q := ⟨i 0, i 1, eq_ix2 i⟩
  rw [rdCols_apply, h03, upT_V1, gtT_V1]
  show min (Finset.univ.inf fun n' : Fin 4096 => Cert.Spec.sqdT88 (transpose S4x3x8192 [0, 2, 1] (up m c) transposes_S4x8192x3_S4x3x8192_0_2_1) (transpose S4x3x8192 [0, 2, 1] (gt m c) transposes_S4x8192x3_S4x3x8192_0_2_1) b (halfIdx 0 n') q)
      (Finset.univ.inf fun n' : Fin 4096 => Cert.Spec.sqdT88 (transpose S4x3x8192 [0, 2, 1] (up m c) transposes_S4x8192x3_S4x3x8192_0_2_1) (transpose S4x3x8192 [0, 2, 1] (gt m c) transposes_S4x8192x3_S4x3x8192_0_2_1) b (halfIdx 1 n') q)
    = Finset.univ.inf fun n : Fin 8192 => Cert.Spec.sqd88 (up m c) (gt m c) b n q
  rw [Cert.LibMinBlocks.inf_univ_eq_inf_inf (fun n : Fin 8192 => Cert.Spec.sqd88 (up m c) (gt m c) b n q) halfIdx halfIdx_onto,
    Cert.LibMinBlocks.inf_fin_two]
  exact congrArg₂ min
    (congrArg Finset.univ.inf (funext fun n' => sqdT88_transposes (up m c) (gt m c) b (halfIdx 0 n') q))
    (congrArg Finset.univ.inf (funext fun n' => sqdT88_transposes (up m c) (gt m c) b (halfIdx 1 n') q))

include h1 in
/-- The radar points' row minima. -/
theorem rad_eq : rdRad m ρ c = Cert.Spec.rowMin18 (rad m c) (gt m c) := by
  rw [rdRad_eq, h1, radT_V3, gtT_V3]
  funext i
  exact congrArg Finset.univ.inf (funext fun mm => sqdT18_transposes (rad m c) (gt m c) (i 0) (i 1) mm)

include h02 h03 h1 in
/-- The program's result is the specification's loss of its arguments. -/
theorem result_eq : rdOut m ρ c = Cert.Spec.loss (up m c) (conf m c) (gt m c) (rad m c) := by
  have etail : rdOut m ρ c = Cert.Spec.tail (rdRows m ρ c) (rdCols m ρ c) (rdRad m ρ c) (rdConf m ρ c) := by
    unfold rdOut rdRows rdCols rdRad rdConf
    show StableHlo.after hostOps2 (W4 m ρ c) (Proc.devRef .tc main_v31) = _
    after_results_simp
    rfl
  rw [etail, rows_eq m ρ c h02, cols_eq m ρ c h03, rad_eq m ρ c h1, rdConf_eq]
  rfl

end Result

end Cert.KernelIdeal.HandValue

end
-- ==== Proof.KernelIdeal.Pay1Value.lean ====
import proofs.«115777_j15960098472629_2_alg».proof.Proof.Gen.KernelIdeal.Skeleton
import proofs.«115777_j15960098472629_2_alg».proof.Proof.Spec
import Idealize.ShloMosaic.PureOps.Ideal.Laws
import Idealize.ShloMosaic.Lib.ValueLayout

/-!
# The radar-to-gt kernel's two stored values, read at an index over the extended reals

The reset value is `+inf` everywhere. The value the body stores at entry (b, p) of the output tile is the
minimum of what the tile held there and the least, over the 1024 gt points q of the gt tile, of the squared
distance `((qx-dx)^2 + (qy-dy)^2) + (qz-dz)^2` between query point p and gt point q of batch b, the three
coordinates of a point lying along the middle axis of its tile.
-/

noncomputable section

namespace Cert.KernelIdeal.Value1

open Idealize.ShloMosaic Idealize.ShloMosaic.ValueIdx
open Cert.KernelIdeal Cert.KernelIdeal.Gen

variable {α : Type}

/-! ## Layout operations with a unit axis in the middle or at the end, read at coordinates -/

/-- An `[a, 1, n]` array cast to `[a, n]` reads, at `(i, j)`, the operand at `(i, 0, j)`. -/
theorem shapeCast_a1n_an_apply {a n : ℕ} (x : (⟨3, ![a, 1, n]⟩ : Shape).Idx → α)
    (h : (⟨3, ![a, 1, n]⟩ : Shape).ShapeCasts ⟨2, ![a, n]⟩) (i : Fin a) (j : Fin n) :
    shapeCast ⟨2, ![a, n]⟩ x h (ix2 i j) = x (ix3 i (0 : Fin 1) j) :=
  shapeCast_apply x h _ _ (by
    rw [Shape.rowMajor_val_three, Shape.rowMajor_val_two]
    show (i.val * 1 + 0) * n + j.val = i.val * n + j.val
    rw [Nat.mul_one, Nat.add_zero])

/-- An `[a, n]` array cast to `[a, n, 1]` reads, at `(i, j, u)`, the operand at `(i, j)`. -/
theorem shapeCast_an_an1_apply {a n : ℕ} (x : (⟨2, ![a, n]⟩ : Shape).Idx → α)
    (h : (⟨2, ![a, n]⟩ : Shape).ShapeCasts ⟨3, ![a, n, 1]⟩) (i : Fin a) (j : Fin n) (u : Fin 1) :
    shapeCast ⟨3, ![a, n, 1]⟩ x h (ix3 i j u) = x (ix2 i j) :=
  shapeCast_apply x h _ _ (by
    have hu : u.val = 0 := by omega
    rw [Shape.rowMajor_val_three, Shape.rowMajor_val_two]
    show i.val * n + j.val = (i.val * n + j.val) * 1 + u.val
    rw [hu, Nat.mul_one, Nat.add_zero])

/-- An `[a, n]` array cast to `[a, 1, n]` reads, at `(i, u, j)`, the operand at `(i, j)`. -/
theorem shapeCast_an_a1n_apply {a n : ℕ} (x : (⟨2, ![a, n]⟩ : Shape).Idx → α)
    (h : (⟨2, ![a, n]⟩ : Shape).ShapeCasts ⟨3, ![a, 1, n]⟩) (i : Fin a) (u : Fin 1) (j : Fin n) :
    shapeCast ⟨3, ![a, 1, n]⟩ x h (ix3 i u j) = x (ix2 i j) :=
  shapeCast_apply x h _ _ (by
    have hu : u.val = 0 := by omega
    rw [Shape.rowMajor_val_three, Shape.rowMajor_val_two]
    show i.val * n + j.val = (i.val * 1 + u.val) * n + j.val
    rw [hu, Nat.mul_one, Nat.add_zero])

/-- An `[a, n, 1]` array spread along a new last extent `m` reads, at `(i, j, k)`, the operand at `(i, j, 0)`. -/
theorem broadcastTo_an1_anm_apply {a n m : ℕ} (v : (⟨3, ![a, n, 1]⟩ : Shape).Idx → α)
    (h : (⟨3, ![a, n, 1]⟩ : Shape).Broadcasts ⟨3, ![a, n, m]⟩) (i : Fin a) (j : Fin n) (k : Fin m) :
    broadcastTo ⟨3, ![a, n, m]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if n = 1 then 0 else j.val
    split
    · have := j.isLt; omega
    · rfl
  | ⟨2, _⟩ => rfl

/-- An `[a, 1, m]` array spread along a new middle extent `n` reads, at `(i, j, k)`, the operand at `(i, 0, k)`. -/
theorem broadcastTo_a1m_anm_apply {a n m : ℕ} (v : (⟨3, ![a, 1, m]⟩ : Shape).Idx → α)
    (h : (⟨3, ![a, 1, m]⟩ : Shape).Broadcasts ⟨3, ![a, n, m]⟩) (i : Fin a) (j : Fin n) (k : Fin m) :
    broadcastTo ⟨3, ![a, n, m]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if m = 1 then 0 else k.val
    split
    · have := k.isLt; omega
    · rfl

/-! ## One coordinate of every query point, and of every gt point, spread over the [4, 512, 1024] pairs -/

/-- Coordinate `o` of the query tile, cut out, squeezed, given a trailing unit axis and spread along the gt axis,
    reads at (b, p, q) coordinate `o` of query point p of batch b. -/
theorem queryCoord_apply (o : Nat) (ko : Fin 3) (hko : ko.val = o) (x : S4x3x512.Idx → α)
    (h1 : S4x3x512.Slices ![0, o, 0] S4x1x512) (h2 : S4x1x512.ShapeCasts S4x512) (h3 : S4x512.ShapeCasts S4x512x1)
    (h4 : S4x512x1.Broadcasts S4x512x1024) (b : Fin 4) (p : Fin 512) (q : Fin 1024) :
    broadcastTo S4x512x1024 (shapeCast S4x512x1 (shapeCast S4x512 (extractStridedSlice S4x1x512 ![0, o, 0] x h1) h2) h3) h4
        (ix3 b p q) = x (ix3 b ko p) :=
  (broadcastTo_an1_anm_apply _ h4 b p q).trans <|
    (shapeCast_an_an1_apply _ h3 b p (0 : Fin 1)).trans <|
      (shapeCast_a1n_an_apply _ h2 b p).trans <|
        slice3_axis1_apply o x h1 b (0 : Fin 1) p ko (by rw [hko]; rfl)

/-- Coordinate `o` of the gt tile, cut out, squeezed, given a middle unit axis and spread along the query axis,
    reads at (b, p, q) coordinate `o` of gt point q of batch b. -/
theorem gtCoord_apply (o : Nat) (ko : Fin 3) (hko : ko.val = o) (y : S4x3x1024.Idx → α)
    (h1 : S4x3x1024.Slices ![0, o, 0] S4x1x1024) (h2 : S4x1x1024.ShapeCasts S4x1024) (h3 : S4x1024.ShapeCasts S4x1x1024)
    (h4 : S4x1x1024.Broadcasts S4x512x1024) (b : Fin 4) (p : Fin 512) (q : Fin 1024) :
    broadcastTo S4x512x1024 (shapeCast S4x1x1024 (shapeCast S4x1024 (extractStridedSlice S4x1x1024 ![0, o, 0] y h1) h2) h3) h4
        (ix3 b p q) = y (ix3 b ko q) :=
  (broadcastTo_a1m_anm_apply _ h4 b p q).trans <|
    (shapeCast_an_a1n_apply _ h3 b (0 : Fin 1) q).trans <|
      (shapeCast_a1n_an_apply _ h2 b q).trans <|
        slice3_axis1_apply o y h1 b (0 : Fin 1) q ko (by rw [hko]; rfl)

/-! ## The minimum along the gt axis -/

/-- The pattern 0x7F800000 denotes `+inf`, the top of the extended reals. -/
theorem inf_bits : Ideal.ofBits .f32 0x7F800000#32 = (⊤ : EReal) := by simp [Ideal.ofBits, Ideal.ieee]

/-- Over the extended reals the minimum reduction along the last axis of a [4, 512, 1024] array, started from `+inf`,
    is at (b, p) the infimum over the 1024 entries (b, p, ·). -/
theorem laneMin_apply (src : FVec Ideal S4x512x1024 .f32) (h : S4x512x1024.Reduces [2] S4x512)
    (hφ : FKind.Formats .f32) (hacc : (0x7F800000#32 : BitVec 32) = FKind.minimumf.neutral .f32 hφ) (b : Fin 4) (p : Fin 512) :
    multiReduction (F := Ideal) .minimumf [2] S4x512 src 0x7F800000#32 h hφ hacc (ix2 b p)
      = Finset.univ.inf fun q : Fin 1024 => src (ix3 b p q) := by
  refine (multiReduction_minimumf_eq_fold src _ h hφ hacc (ix2 b p)).trans ?_
  refine (h.fold_filter_drop_single _ _ src (ix2 b p)).trans ?_
  have hl : (src ∘ h.lift (ix2 b p)) = fun q : Fin 1024 => src (ix3 b p q) :=
    funext fun q => congrArg src (funext fun ax => Fin.ext (by
      match ax with
      | ⟨0, _⟩ => rfl
      | ⟨1, _⟩ => rfl
      | ⟨2, _⟩ => rfl))
  show (Finset.univ : Finset (Fin 1024)).fold min (Ideal.ofBits .f32 0x7F800000#32) (src ∘ h.lift (ix2 b p)) = _
  rw [hl, inf_bits]
  rfl

/-! ## The two stored values -/

/-- The reset value is `+inf` at every entry. -/
theorem reset_apply (i : S4x512.Idx) : (k1_pay1 (F := Ideal)) i = (⊤ : EReal) := by
  unfold k1_pay1
  exact inf_bits

/-- The squared distance of query point p and gt point q of batch b, coordinates along the middle axis. -/
abbrev sqdAt (x0 : S4x3x512.Idx → EReal) (x1 : S4x3x1024.Idx → EReal) (b : Fin 4) (p : Fin 512) (q : Fin 1024) : EReal :=
  Cert.Spec.sqd (x0 (ix3 b (0 : Fin 3) p)) (x0 (ix3 b (1 : Fin 3) p)) (x0 (ix3 b (2 : Fin 3) p))
    (x1 (ix3 b (0 : Fin 3) q)) (x1 (ix3 b (1 : Fin 3) q)) (x1 (ix3 b (2 : Fin 3) q))

/-- The stored value at (b, p): the minimum of the old entry and the least squared distance to the tile's gt points. -/
theorem step_apply (x0 : Vec Ideal S4x3x512 .f32) (x1 : Vec Ideal S4x3x1024 .f32) (xo : Vec Ideal S4x512 .f32)
    (b : Fin 4) (p : Fin 512) :
    k1_pay2 (F := Ideal) x0 x1 xo (ix2 b p) = min (xo (ix2 b p)) (Finset.univ.inf fun q : Fin 1024 => sqdAt x0 x1 b p q) := by
  unfold k1_pay2
  dsimp only
  simp only [shapeCast_self]
  rw [minimumf_apply]
  refine congrArg (min _) ((laneMin_apply _ _ _ _ b p).trans ?_)
  refine congrArg (Finset.inf Finset.univ) (funext fun q => ?_)
  rw [addf_apply, addf_apply, mulf_apply, mulf_apply, mulf_apply, subf_apply, subf_apply, subf_apply]
  rw [queryCoord_apply 0 0 rfl, queryCoord_apply 1 1 rfl, queryCoord_apply 2 2 rfl,
    gtCoord_apply 0 0 rfl, gtCoord_apply 1 1 rfl, gtCoord_apply 2 2 rfl]
  rfl

end Cert.KernelIdeal.Value1

end
-- ==== Proof.KernelValue1.lean ====
import proofs.«115777_j15960098472629_2_alg».proof.Proof.KernelIdeal.Region1
import proofs.«115777_j15960098472629_2_alg».proof.Proof.KernelIdeal.Pay1Value
import proofs.«115777_j15960098472629_2_alg».proof.Proof.LibMinBlocks

/-!
# What the second kernel call leaves in its output array, over the extended reals

The call reads the radar cloud `rad : [4, 3, 1024]` and the gt cloud `gt : [4, 3, 8192]` (coordinates along the
middle axis) as it finds them and ends with entry (b, n) of its output array `[4, 1024]` at the least, over all
8192 gt points m of batch b, of the squared distance `((x-x')^2 + (y-y')^2) + (z-z')^2` of radar point n and gt
point m.

The 16 grid points run row by row: point t has query tile t / 8 (512 radar points) and gt tile t % 8 (1024 gt
points). After point t the output tile holds, at (b, p), the least squared distance of radar point
(t / 8) * 512 + p to the gt points of tiles 0 … t % 8: at the first point of a row the tile is reset to `+inf`
first, later points improve what the point before left. The tile is written back after the last point of a row,
when all 8 gt tiles, that is all 8192 gt points, are in; the two rows' write-backs cover the array.
-/

set_option maxRecDepth 16384

noncomputable section

namespace Cert.KernelIdeal.Value1

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

/-! ## The two clouds and the result -/

/-- The radar cloud as the call finds it: `[4, 3, 1024]`. -/
abbrev rad (c : Dev nD) : S4x3x1024.Idx → EReal := V c main_v2
/-- The gt cloud as the call finds it: `[4, 3, 8192]`. -/
abbrev gt (c : Dev nD) : S4x3x8192.Idx → EReal := V c main_v1

/-- The squared distance of radar point n and gt point m of batch b. -/
def dist2 (c : Dev nD) (b : Fin 4) (n : Fin 1024) (m : Fin 8192) : EReal :=
  Cert.Spec.sqdT18 (rad V c) (gt V c) b n m

/-- THE RESULT: for each radar point, the least squared distance to a gt point of its batch. -/
def radMin (c : Dev nD) : S4x1024.Idx → EReal :=
  fun i => Finset.univ.inf fun m : Fin 8192 => dist2 V c (i 0) (i 1) m

/-- Gt point r of gt tile j. -/
def gtPt (j : Fin 8) (r : Fin 1024) : Fin 8192 := ⟨j.val * 1024 + r.val, by omega⟩

/-- The least squared distance of radar point n to the 1024 gt points of tile j. -/
def tileMin (c : Dev nD) (b : Fin 4) (n : Fin 1024) (j : Fin 8) : EReal :=
  Finset.univ.inf fun r : Fin 1024 => dist2 V c b n (gtPt j r)

theorem lt16 {n : ℕ} (hn : n < cfg1.N) : n < 16 := lt_of_lt_of_eq hn (show cfg1.N = 16 from N_1)

/-- Radar point p of the query tile of grid position n. -/
def radPt (n : ℕ) (hn : n < cfg1.N) (p : Fin 512) : Fin 1024 := ⟨n / 8 * 512 + p.val, by have := lt16 hn; omega⟩

/-- The gt tile of grid position n. -/
def gtTile (n : ℕ) : Fin 8 := ⟨n % 8, Nat.mod_lt _ (by decide)⟩

/-! ## Where the windows' blocks lie -/

/-- The printed index maps, decided over the grid: the query window and the output window follow the row of the
    point, the gt window its column. -/
theorem idx_facts : ∀ t : Fin cfg1.N, win1_0.index t (0 : Fin 3) = 0 ∧ win1_0.index t (1 : Fin 3) = 0
    ∧ win1_0.index t (2 : Fin 3) = t.val / 8
    ∧ win1_1.index t (0 : Fin 3) = 0 ∧ win1_1.index t (1 : Fin 3) = 0 ∧ win1_1.index t (2 : Fin 3) = t.val % 8
    ∧ win1_2.index t (0 : Fin 2) = 0 ∧ win1_2.index t (1 : Fin 2) = t.val / 8 :=
  (by decide +kernel : ∀ t : Fin grid1.N, _)

/-- The query tile of point t reads the radar cloud at the tile's points. -/
theorem query_read (c : Dev nD) (t : Fin cfg1.N) (b : Fin 4) (k : Fin 3) (p : Fin 512) :
    iblk1 V c 0 t (ix3 b k p) = rad V c (ix3 b k (radPt t.val t.isLt p)) := by
  obtain ⟨e0, e1, e2, -, -, -, -, -⟩ := idx_facts t
  unfold iblk1
  rw [View.read_apply]
  show V c main_v2 (((cfg1.win 0).blk t).view.emb (ix3 b k p)) = V c main_v2 (ix3 b k (radPt t.val t.isLt p))
  refine congrArg _ (funext fun a => Fin.ext ?_)
  match a with
  | ⟨0, _⟩ => show win1_0.index t (0 : Fin 3) * 4 + 1 * b.val = b.val; rw [e0]; omega
  | ⟨1, _⟩ => show win1_0.index t (1 : Fin 3) * 3 + 1 * k.val = k.val; rw [e1]; omega
  | ⟨2, _⟩ => show win1_0.index t (2 : Fin 3) * 512 + 1 * p.val = t.val / 8 * 512 + p.val; rw [e2]; omega

/-- The gt tile of point t reads the gt cloud at the tile's points. -/
theorem gt_read (c : Dev nD) (t : Fin cfg1.N) (b : Fin 4) (k : Fin 3) (q : Fin 1024) :
    iblk1 V c 1 t (ix3 b k q) = gt V c (ix3 b k (gtPt (gtTile t.val) q)) := by
  obtain ⟨-, -, -, e0, e1, e2, -, -⟩ := idx_facts t
  unfold iblk1
  rw [View.read_apply]
  show V c main_v1 (((cfg1.win 1).blk t).view.emb (ix3 b k q)) = V c main_v1 (ix3 b k (gtPt (gtTile t.val) q))
  refine congrArg _ (funext fun a => Fin.ext ?_)
  match a with
  | ⟨0, _⟩ => show win1_1.index t (0 : Fin 3) * 4 + 1 * b.val = b.val; rw [e0]; omega
  | ⟨1, _⟩ => show win1_1.index t (1 : Fin 3) * 3 + 1 * k.val = k.val; rw [e1]; omega
  | ⟨2, _⟩ => show win1_1.index t (2 : Fin 3) * 1024 + 1 * q.val = t.val % 8 * 1024 + q.val; rw [e2]; omega

/-- So the least squared distance the body forms at point t from its two tiles is the tile minimum. -/
theorem tile_eq (c : Dev nD) (t : Fin cfg1.N) (b : Fin 4) (p : Fin 512) :
    (Finset.univ.inf fun q : Fin 1024 => sqdAt (iblk1 V c 0 t) (iblk1 V c 1 t) b p q)
      = tileMin V c b (radPt t.val t.isLt p) (gtTile t.val) := by
  refine congrArg (Finset.inf Finset.univ) (funext fun q => ?_)
  show Cert.Spec.sqd (iblk1 V c 0 t (ix3 b (0 : Fin 3) p)) (iblk1 V c 0 t (ix3 b (1 : Fin 3) p)) (iblk1 V c 0 t (ix3 b (2 : Fin 3) p))
      (iblk1 V c 1 t (ix3 b (0 : Fin 3) q)) (iblk1 V c 1 t (ix3 b (1 : Fin 3) q)) (iblk1 V c 1 t (ix3 b (2 : Fin 3) q)) = _
  rw [query_read, query_read, query_read, gt_read, gt_read, gt_read]
  rfl

/-! ## The running minimum, point by point -/

/-- Gt tiles 0 … k. -/
def tilesUpTo (k : ℕ) : Finset (Fin 8) := Finset.univ.filter fun j => j.val ≤ k

theorem tilesUpTo_zero : tilesUpTo 0 = {(0 : Fin 8)} := by decide

theorem tilesUpTo_succ (k : ℕ) (hk : k + 1 < 8) : tilesUpTo (k + 1) = insert (⟨k + 1, hk⟩ : Fin 8) (tilesUpTo k) := by
  ext j
  simp only [tilesUpTo, Finset.mem_filter, Finset.mem_univ, true_and, Finset.mem_insert, Fin.ext_iff]
  omega

theorem tilesUpTo_seven : tilesUpTo 7 = Finset.univ := by decide

/-- At the first point of a row the tile is reset and holds the minimum over gt tile 0 alone. -/
theorem running_min_reset (c : Dev nD) (n : ℕ) (hn : n < cfg1.N) (h0 : n % 8 = 0) (b : Fin 4) (p : Fin 512) :
    acc1 V c n hn (ix2 b p) = (tilesUpTo (n % 8)).inf (tileMin V c b (radPt n hn p)) := by
  rw [acc1_reset V c ⟨n, hn⟩ h0]
  refine (step_apply _ _ _ b p).trans ?_
  rw [reset_apply, tile_eq V c ⟨n, hn⟩ b p, min_eq_right le_top, h0, tilesUpTo_zero, Finset.inf_singleton]
  exact congrArg _ (Fin.ext h0)

/-- AFTER POINT n the output tile holds, at (b, p), the least squared distance of the tile's radar point p to
    the gt points of tiles 0 … n % 8 — by induction on the point. -/
theorem running_min (c : Dev nD) : ∀ (n : ℕ) (hn : n < cfg1.N) (b : Fin 4) (p : Fin 512),
    acc1 V c n hn (ix2 b p) = (tilesUpTo (n % 8)).inf (tileMin V c b (radPt n hn p))
  | 0, hn, b, p => running_min_reset V c 0 hn rfl b p
  | n + 1, hn, b, p => by
    by_cases h0 : (n + 1) % 8 = 0
    · exact running_min_reset V c (n + 1) hn h0 b p
    · have hn' : n < cfg1.N := Nat.lt_of_succ_lt hn
      have h16 := lt16 hn
      rw [acc1_step V c ⟨n + 1, hn⟩ h0]
      refine (step_apply _ _ _ b p).trans ?_
      rw [tile_eq V c ⟨n + 1, hn⟩ b p]
      show min (acc1 V c n hn' (ix2 b p)) (tileMin V c b (radPt (n + 1) hn p) (gtTile (n + 1))) = _
      rw [running_min c n hn' b p]
      have e8 : (n + 1) % 8 = n % 8 + 1 := by omega
      have hk : n % 8 + 1 < 8 := by omega
      have erow : radPt (n + 1) hn p = radPt n hn' p := Fin.ext (by show (n + 1) / 8 * 512 + p.val = n / 8 * 512 + p.val; omega)
      have ecol : gtTile (n + 1) = (⟨n % 8 + 1, hk⟩ : Fin 8) := Fin.ext e8
      rw [erow, ecol, e8, tilesUpTo_succ _ hk, Finset.inf_insert, inf_comm]

/-! ## What is written back, and the array -/

/-- After the last point of a row all eight gt tiles are in: the tile holds the least squared distance to all
    8192 gt points. -/
theorem row_done (c : Dev nD) (t : Fin cfg1.N) (h7 : t.val % 8 = 7) (b : Fin 4) (p : Fin 512) :
    acc1 V c t.val t.isLt (ix2 b p) = radMin V c (ix2 b (radPt t.val t.isLt p)) := by
  rw [running_min V c t.val t.isLt b p, h7, tilesUpTo_seven]
  show _ = Finset.univ.inf fun m : Fin 8192 => dist2 V c b (radPt t.val t.isLt p) m
  rw [Cert.LibMinBlocks.inf_8192_blocks_1024]
  rfl

/-- WHAT A WRITE-BACK WRITES is the block of the result its point's row names. -/
theorem flushed_eq (c : Dev nD) (t : Fin cfg1.N) (hf : (cfg1.win 2).flush t = true) :
    (dat1 (F := Ideal) V c).flushed 2 t = ((cfg1.win 2).blk t).view.read (Elt Ideal) (radMin V c) := by
  have h7 : t.val % 8 = 7 := (flush1_2 t).mp hf
  obtain ⟨-, -, -, -, -, -, e0, e1⟩ := idx_facts t
  show (cfg1.win 2).cut (grid1.coords t) ((dat1 (F := Ideal) V c).after 2 t) = _
  rw [after1_2]
  refine funext fun (j : S4x512.Idx) => ?_
  obtain ⟨b, p, rfl⟩ : ∃ (b : Fin 4) (p : Fin 512), j = ix2 b p := ⟨j 0, j 1, eq_ix2 j⟩
  show acc1 V c t.val t.isLt (ix2 b p) = radMin V c (((cfg1.win 2).blk t).view.emb (ix2 b p))
  rw [row_done V c t h7 b p]
  refine congrArg _ (funext fun a => Fin.ext ?_)
  match a with
  | ⟨0, _⟩ => show b.val = win1_2.index t (0 : Fin 2) * 4 + 1 * b.val; rw [e0]; omega
  | ⟨1, _⟩ => show t.val / 8 * 512 + p.val = win1_2.index t (1 : Fin 2) * 512 + 1 * p.val; rw [e1]; omega

/-- An index of the array is in point t's block iff each coordinate is in the block's range on its axis. -/
theorem mem_blk (t : Fin cfg1.N) (i : S4x1024.Idx) :
    i ∈ ((cfg1.win 2).blk t).view.set ↔ ∀ a : Fin 2, win1_2.index t a * S4x512.size a ≤ (i a).val ∧ (i a).val < win1_2.index t a * S4x512.size a + S4x512.size a := by
  show i ∈ ((View.whole main_v9).slice (win1_2.rect t)).set ↔ _
  rw [View.set_slice_whole, Rect.mem_set_unit]
  exact Iff.rfl

/-- THE ARRAY after the call: every entry is in the block written back after the last point of its row, so the
    array ends at the result. -/
theorem final1 (c : Dev nD) : (dat1 (F := Ideal) V c).arrAt 2 cfg1.N
    = fun i : S4x1024.Idx => Finset.univ.inf fun mm : Fin 8192 => Cert.Spec.sqdT18 (V c main_v2) (V c main_v1) (i 0) (i 1) mm :=
  (dat1 (F := Ideal) V c).arrAt_eq_of_cover 2 (radMin V c) (flushed_eq V c) fun i => by
    have hi0 : (i 0).val < 4 := (i 0).isLt
    have hi1 : (i 1).val < 1024 := (i 1).isLt
    have hN : cfg1.N = 16 := N_1
    let t : Fin cfg1.N := ⟨(i 1).val / 512 * 8 + 7, by rw [hN]; omega⟩
    have ht : t.val = (i 1).val / 512 * 8 + 7 := rfl
    obtain ⟨-, -, -, -, -, -, e0, e1⟩ := idx_facts t
    refine ⟨t, (flush1_2 t).mpr (by rw [ht]; omega), ?_⟩
    rw [mem_blk]
    intro a
    match a with
    | ⟨0, _⟩ => show win1_2.index t (0 : Fin 2) * 4 ≤ (i 0).val ∧ (i 0).val < win1_2.index t (0 : Fin 2) * 4 + 4; rw [e0]; omega
    | ⟨1, _⟩ => show win1_2.index t (1 : Fin 2) * 512 ≤ (i 1).val ∧ (i 1).val < win1_2.index t (1 : Fin 2) * 512 + 512; rw [e1, ht]; omega

end Cert.KernelIdeal.Value1

end
-- ==== Proof.KernelIdeal.Pay0Value.lean ====
/-
  The fused nearest-neighbour kernel's stored values, read at an index over the extended reals.

  Entry (b, p, q) of the table is the squared distance ((dx² + dy²) + dz²) between query point p and database point q of
  batch b, the three coordinates of a point lying along the middle axis of its tile. The value stored at (b, p) of the
  first output's tile is the minimum of its old entry and the least entry of the table's row (b, p, ·); the value stored
  at (b, q) of the scratch's column slice is the minimum of its old entry and the least entry of the table's column
  (b, ·, q); the copy-out reads entry (b, m) of the scratch at (0, b, m); the two reset values are +∞ everywhere.
-/
import proofs.«115777_j15960098472629_2_alg».proof.Proof.KernelIdeal.Pay1Value

noncomputable section

namespace Cert.KernelIdeal.Value0

open Idealize.ShloMosaic Idealize.ShloMosaic.ValueIdx
open Cert.KernelIdeal Cert.KernelIdeal.Gen Cert.KernelIdeal.Value1

/-- Entry (b, p, q) of the table is the squared distance of query point p and database point q of batch b. -/
theorem tab_apply (x0 : Vec Ideal S4x3x512 .f32) (x1 : Vec Ideal S4x3x1024 .f32) (b : Fin 4) (p : Fin 512) (q : Fin 1024) :
    k0_pay6 (F := Ideal) x0 x1 (ix3 b p q) = sqdAt x0 x1 b p q := by
  unfold k0_pay6
  (try dsimp only)
  simp only [shapeCast_self]
  rw [addf_apply, addf_apply, mulf_apply, mulf_apply, mulf_apply, subf_apply, subf_apply, subf_apply]
  rw [queryCoord_apply 0 0 rfl, queryCoord_apply 1 1 rfl, queryCoord_apply 2 2 rfl,
    gtCoord_apply 0 0 rfl, gtCoord_apply 1 1 rfl, gtCoord_apply 2 2 rfl]
  rfl

/-- The minimum reduction along the middle axis of a [4, 512, 1024] array, started from +∞, is at (b, q) the infimum
    over the 512 entries (b, ·, q). -/
theorem colMin_apply (src : FVec Ideal S4x512x1024 .f32) (h : S4x512x1024.Reduces [1] S4x1024)
    (hφ : FKind.Formats .f32) (hacc : (0x7F800000#32 : BitVec 32) = FKind.minimumf.neutral .f32 hφ) (b : Fin 4) (q : Fin 1024) :
    multiReduction (F := Ideal) .minimumf [1] S4x1024 src 0x7F800000#32 h hφ hacc (ix2 b q)
      = Finset.univ.inf fun p : Fin 512 => src (ix3 b p q) := by
  refine (multiReduction_minimumf_eq_fold src _ h hφ hacc (ix2 b q)).trans ?_
  refine (h.fold_filter_drop_single _ _ src (ix2 b q)).trans ?_
  have hl : (src ∘ h.lift (ix2 b q)) = fun p : Fin 512 => src (ix3 b p q) :=
    funext fun p => congrArg src (funext fun ax => Fin.ext (by
      match ax with
      | ⟨0, _⟩ => rfl
      | ⟨1, _⟩ => rfl
      | ⟨2, _⟩ => rfl))
  show (Finset.univ : Finset (Fin 512)).fold min (Ideal.ofBits .f32 0x7F800000#32) (src ∘ h.lift (ix2 b q)) = _
  rw [hl, inf_bits]
  rfl

/-- The first output's stored value at (b, p): the old entry against the least of the table's row. -/
theorem pay1_apply (T : FVec Ideal S4x512x1024 .f32) (xo : Vec Ideal S4x512 .f32) (b : Fin 4) (p : Fin 512) :
    k0_pay1 (F := Ideal) T xo (ix2 b p) = min (xo (ix2 b p)) (Finset.univ.inf fun q : Fin 1024 => T (ix3 b p q)) := by
  unfold k0_pay1
  (try dsimp only)
  simp only [shapeCast_self]
  rw [minimumf_apply]
  exact congrArg (min _) (laneMin_apply _ _ _ _ b p)

/-- The scratch slice's stored value at (b, q): the old entry against the least of the table's column. -/
theorem pay2_apply (T : FVec Ideal S4x512x1024 .f32) (xs : Vec Ideal S4x1024 .f32) (b : Fin 4) (q : Fin 1024) :
    k0_pay2 (F := Ideal) T xs (ix2 b q) = min (xs (ix2 b q)) (Finset.univ.inf fun p : Fin 512 => T (ix3 b p q)) := by
  unfold k0_pay2
  (try dsimp only)
  simp only [shapeCast_self]
  rw [minimumf_apply]
  exact congrArg (min _) (colMin_apply _ _ _ _ b q)

/-- The copy-out reads the scratch's entry (b, m) at (0, b, m). -/
theorem pay3_apply (xs : Vec Ideal S4x8192 .f32) (u : Fin 1) (b : Fin 4) (m : Fin 8192) :
    k0_pay3 (F := Ideal) xs (ix3 u b m) = xs (ix2 b m) := by
  unfold k0_pay3
  exact shapeCast_ab_1ab_apply _ _ u b m

/-- The scratch's reset value is +∞ at every entry. -/
theorem pay4_apply (i : S4x8192.Idx) : (k0_pay4 (F := Ideal)) i = (⊤ : EReal) := by
  unfold k0_pay4
  (try dsimp only)
  simp only [shapeCast_self]
  exact inf_bits

/-- The first output's reset value is +∞ at every entry. -/
theorem pay5_apply (i : S4x512.Idx) : (k0_pay5 (F := Ideal)) i = (⊤ : EReal) := by
  unfold k0_pay5
  exact inf_bits

end Cert.KernelIdeal.Value0

end
-- ==== Proof.KernelValue0Rows.lean ====
import proofs.«115777_j15960098472629_2_alg».proof.Proof.KernelIdeal.Region0.Pieces
import proofs.«115777_j15960098472629_2_alg».proof.Proof.KernelIdeal.Pay0Value
import proofs.«115777_j15960098472629_2_alg».proof.Proof.LibMinBlocks

/-!
# What the first kernel call leaves in its first output array, over the extended reals

The call reads two clouds `q, d : [4, 3, 8192]` (coordinates along the middle axis) as it finds them and ends
with entry (b, n) of its first output array `[4, 8192]` at the least, over all 8192 points m of d in batch b, of
the squared distance `((x-x')^2 + (y-y')^2) + (z-z')^2` of point n of q and point m of d.

The 128 grid points run with the d tile fastest: point t has query tile t / 8 (512 points of q, 16 tiles) and
d tile t % 8 (1024 points of d). After point t the first output's tile holds, at (b, p), the least squared distance
of query point (t / 8) * 512 + p to the d points of tiles 0 … t % 8: where t % 8 = 0 the tile is reset to `+inf`
first, later points improve what the point before left. The tile is written back where t % 8 = 7, when all 8 d
tiles are in; the 16 write-backs cover the array.
-/

set_option maxRecDepth 16384

noncomputable section

namespace Cert.KernelIdeal.Value0Rows

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand
open Cert.KernelIdeal.Value1 (sqdAt)
open Cert.KernelIdeal.Value0 (tab o2_A o2_B o2_C o2_D idx0_2 iblk0_0_apply iblk0_1_apply tab_apply pay1_apply pay5_apply)

variable (V : (c : Dev nD) → (b : Ref sig .tc) → Buf (Elt Ideal) ((c : Thread nD τ).loc b))

/-! ## The two clouds and the result -/

/-- The query cloud as the call finds it. -/
abbrev qry (c : Dev nD) : S4x3x8192.Idx → EReal := V c main_v0
/-- The d cloud as the call finds it. -/
abbrev dbs (c : Dev nD) : S4x3x8192.Idx → EReal := V c main_v1

/-- The squared distance of query point n and d point m of batch b. -/
def dist2 (c : Dev nD) (b : Fin 4) (n m : Fin 8192) : EReal := Cert.Spec.sqdT88 (qry V c) (dbs V c) b n m

/-- THE RESULT: for each query point, the least squared distance to a d point of its batch. -/
def rowMin (c : Dev nD) : S4x8192.Idx → EReal :=
  fun i => Finset.univ.inf fun m : Fin 8192 => dist2 V c (i 0) (i 1) m

/-- Point r of d tile j. -/
def dPt (j : Fin 8) (r : Fin 1024) : Fin 8192 := ⟨j.val * 1024 + r.val, by omega⟩

/-- The least squared distance of query point n to the 1024 d points of tile j. -/
def tileMin (c : Dev nD) (b : Fin 4) (n : Fin 8192) (j : Fin 8) : EReal :=
  Finset.univ.inf fun r : Fin 1024 => dist2 V c b n (dPt j r)

theorem lt128 {n : ℕ} (hn : n < cfg0.N) : n < 128 := lt_of_lt_of_eq hn (show cfg0.N = 128 from N_0)

/-- Query point p of the query tile of grid position n. -/
def qPt (n : ℕ) (hn : n < cfg0.N) (p : Fin 512) : Fin 8192 := ⟨n / 8 * 512 + p.val, by have := lt128 hn; omega⟩

/-- The d tile of grid position n. -/
def dTile (n : ℕ) : Fin 8 := ⟨n % 8, Nat.mod_lt _ (by decide)⟩

/-! ## The tiles a point reads -/

/-- The query tile of point t reads the query cloud at the tile's points. -/
theorem query_read (c : Dev nD) (t : Fin cfg0.N) (b : Fin 4) (k : Fin 3) (p : Fin 512) :
    (iblk0 V c 0 t : Vec Ideal S4x3x512 .f32) (ix3 b k p) = qry V c (ix3 b k (qPt t.val t.isLt p)) :=
  iblk0_0_apply V c t b k p (qPt t.val t.isLt p).isLt

/-- The d tile of point t reads the d cloud at the tile's points. -/
theorem d_read (c : Dev nD) (t : Fin cfg0.N) (b : Fin 4) (k : Fin 3) (q : Fin 1024) :
    (iblk0 V c 1 t : Vec Ideal S4x3x1024 .f32) (ix3 b k q) = dbs V c (ix3 b k (dPt (dTile t.val) q)) :=
  iblk0_1_apply V c t b k q (dPt (dTile t.val) q).isLt

/-- So the least the body forms at point t from its table's row (b, p, ·) is the tile minimum. -/
theorem tile_eq (c : Dev nD) (t : Fin cfg0.N) (b : Fin 4) (p : Fin 512) :
    (Finset.univ.inf fun q : Fin 1024 => tab (F := Ideal) V c t (ix3 b p q))
      = tileMin V c b (qPt t.val t.isLt p) (dTile t.val) := by
  refine congrArg (Finset.inf Finset.univ) (funext fun q => ?_)
  refine (tab_apply _ _ b p q).trans ?_
  show Cert.Spec.sqd (iblk0 V c 0 t (ix3 b (0 : Fin 3) p)) (iblk0 V c 0 t (ix3 b (1 : Fin 3) p)) (iblk0 V c 0 t (ix3 b (2 : Fin 3) p))
      (iblk0 V c 1 t (ix3 b (0 : Fin 3) q)) (iblk0 V c 1 t (ix3 b (1 : Fin 3) q)) (iblk0 V c 1 t (ix3 b (2 : Fin 3) q)) = _
  rw [query_read, query_read, query_read, d_read, d_read, d_read]
  rfl

/-! ## The running minimum, point by point -/

/-- d tiles 0 … k. -/
def tilesUpTo (k : ℕ) : Finset (Fin 8) := Finset.univ.filter fun j => j.val ≤ k

theorem tilesUpTo_zero : tilesUpTo 0 = {(0 : Fin 8)} := by decide

theorem tilesUpTo_succ (k : ℕ) (hk : k + 1 < 8) : tilesUpTo (k + 1) = insert (⟨k + 1, hk⟩ : Fin 8) (tilesUpTo k) := by
  ext j
  simp only [tilesUpTo, Finset.mem_filter, Finset.mem_univ, true_and, Finset.mem_insert, Fin.ext_iff]
  omega

theorem tilesUpTo_seven : tilesUpTo 7 = Finset.univ := by decide

/-- What one point leaves at (b, p) where the tile is reset: the minimum over the point's d tile alone. -/
theorem reset_value (c : Dev nD) (t : Fin cfg0.N) (b : Fin 4) (p : Fin 512) :
    k0_pay1 (F := Ideal) (tab V c t) (k0_pay5 (F := Ideal)) (ix2 b p)
      = tileMin V c b (qPt t.val t.isLt p) (dTile t.val) := by
  refine (pay1_apply _ _ b p).trans ?_
  rw [pay5_apply, tile_eq V c t b p, min_eq_right le_top]

/-- What one point leaves at (b, p) elsewhere: the minimum of what it found and the minimum over its d tile. -/
theorem step_value (c : Dev nD) (t : Fin cfg0.N) (xo : Vec Ideal S4x512 .f32) (b : Fin 4) (p : Fin 512) :
    k0_pay1 (F := Ideal) (tab V c t) xo (ix2 b p)
      = min (xo (ix2 b p)) (tileMin V c b (qPt t.val t.isLt p) (dTile t.val)) := by
  refine (pay1_apply _ _ b p).trans ?_
  rw [tile_eq V c t b p]

/-- The first output's tile after point t, from what the point before left, at a reset point; -/
theorem tile_reset (c : Dev nD) (t : Fin cfg0.N) (prev : St0 Ideal) (h1 : t.val % 8 = 0) :
    (step0 V c t prev).1 = k0_pay1 (tab V c t) (k0_pay5 (F := Ideal)) := by
  by_cases h0 : t.val % 64 = 0
  · rw [step0_A V c t prev h0]; dsimp only; exact o2_A (F := Ideal) V c t h0
  · rw [step0_B V c t prev h0 h1]; dsimp only; exact o2_B (F := Ideal) V c t h0 h1 prev.2.2

/-- and elsewhere. -/
theorem tile_step (c : Dev nD) (t : Fin cfg0.N) (prev : St0 Ideal) (h1 : ¬t.val % 8 = 0) :
    (step0 V c t prev).1 = k0_pay1 (tab V c t) prev.1 := by
  by_cases h2 : t.val % 64 = 63
  · rw [step0_D V c t prev h2]; dsimp only; exact o2_D (F := Ideal) V c t h2 prev.1 prev.2.2
  · rw [step0_C V c t prev h1 h2]; dsimp only; exact o2_C (F := Ideal) V c t h1 h2 prev.1 prev.2.2

/-- AFTER POINT n the first output's tile holds, at (b, p), the least squared distance of the tile's query point p
    to the d points of tiles 0 … n % 8 — by induction on the point. -/
theorem running_min (c : Dev nD) : ∀ (n : ℕ) (hn : n < cfg0.N) (b : Fin 4) (p : Fin 512),
    (outsAt0 V c n hn).1 (ix2 b p) = (tilesUpTo (n % 8)).inf (tileMin V c b (qPt n hn p))
  | 0, hn, b, p => by
    show (step0 V c ⟨0, hn⟩ junk0).1 (ix2 b p) = _
    rw [tile_reset V c ⟨0, hn⟩ junk0 rfl, reset_value V c ⟨0, hn⟩ b p]
    show _ = (tilesUpTo 0).inf _
    rw [tilesUpTo_zero, Finset.inf_singleton]
    rfl
  | n + 1, hn, b, p => by
    have hn' : n < cfg0.N := Nat.lt_of_succ_lt hn
    have h128 := lt128 hn
    show (step0 V c ⟨n + 1, hn⟩ (outsAt0 V c n hn')).1 (ix2 b p) = _
    by_cases h0 : (n + 1) % 8 = 0
    · rw [tile_reset V c ⟨n + 1, hn⟩ _ h0, reset_value V c ⟨n + 1, hn⟩ b p, h0, tilesUpTo_zero, Finset.inf_singleton]
      exact congrArg _ (Fin.ext h0)
    · rw [tile_step V c ⟨n + 1, hn⟩ _ h0, step_value V c ⟨n + 1, hn⟩ _ b p, running_min c n hn' b p]
      have e8 : (n + 1) % 8 = n % 8 + 1 := by omega
      have hk : n % 8 + 1 < 8 := by omega
      have erow : qPt (n + 1) hn p = qPt n hn' p := Fin.ext (by show (n + 1) / 8 * 512 + p.val = n / 8 * 512 + p.val; omega)
      have ecol : dTile (n + 1) = (⟨n % 8 + 1, hk⟩ : Fin 8) := Fin.ext e8
      show min ((tilesUpTo (n % 8)).inf (tileMin V c b (qPt n hn' p))) (tileMin V c b (qPt (n + 1) hn p) (dTile (n + 1))) = _
      rw [erow, ecol, e8, tilesUpTo_succ _ hk, Finset.inf_insert, inf_comm]

/-! ## What is written back, and the array -/

/-- Where t % 8 = 7 all eight d tiles are in: the tile holds the least squared distance to all 8192 d points. -/
theorem row_done (c : Dev nD) (t : Fin cfg0.N) (h7 : t.val % 8 = 7) (b : Fin 4) (p : Fin 512) :
    (outsAt0 V c t.val t.isLt).1 (ix2 b p) = rowMin V c (ix2 b (qPt t.val t.isLt p)) := by
  rw [running_min V c t.val t.isLt b p, h7, tilesUpTo_seven]
  show _ = Finset.univ.inf fun m : Fin 8192 => dist2 V c b (qPt t.val t.isLt p) m
  rw [Cert.LibMinBlocks.inf_8192_blocks_1024]
  rfl

/-- WHAT A WRITE-BACK WRITES is the block of the result that t / 8 names. -/
theorem flushed_eq (c : Dev nD) (t : Fin cfg0.N) (hf : (cfg0.win 2).flush t = true) :
    (dat0 (F := Ideal) V c).flushed 2 t = ((cfg0.win 2).blk t).view.read (Elt Ideal) (rowMin V c) := by
  have h7 : t.val % 8 = 7 := (flush0_2 t).mp hf
  obtain ⟨e0, e1⟩ := idx0_2 t
  show (cfg0.win 2).cut (grid0.coords t) ((dat0 (F := Ideal) V c).after 2 t) = _
  rw [after0_2]
  refine funext fun (j : S4x512.Idx) => ?_
  obtain ⟨b, p, rfl⟩ : ∃ (b : Fin 4) (p : Fin 512), j = ix2 b p := ⟨j 0, j 1, eq_ix2 j⟩
  show (outsAt0 V c t.val t.isLt).1 (ix2 b p) = rowMin V c (((cfg0.win 2).blk t).view.emb (ix2 b p))
  rw [row_done V c t h7 b p]
  refine congrArg _ (funext fun a => Fin.ext ?_)
  match a with
  | ⟨0, _⟩ => show b.val = win0_2.index t (0 : Fin 2) * 4 + 1 * b.val; rw [e0]; omega
  | ⟨1, _⟩ => show t.val / 8 * 512 + p.val = win0_2.index t (1 : Fin 2) * 512 + 1 * p.val; rw [e1]; omega

/-- An index of the array is in point t's block iff each coordinate is in the block's range on its axis. -/
theorem mem_blk (t : Fin cfg0.N) (i : S4x8192.Idx) :
    i ∈ ((cfg0.win 2).blk t).view.set ↔ ∀ a : Fin 2, win0_2.index t a * S4x512.size a ≤ (i a).val ∧ (i a).val < win0_2.index t a * S4x512.size a + S4x512.size a := by
  show i ∈ ((View.whole main_v3_0).slice (win0_2.rect t)).set ↔ _
  rw [View.set_slice_whole, Rect.mem_set_unit]
  exact Iff.rfl

/-- THE ARRAY after the call: every entry is in the block written back at the last d tile of its query tile, so the
    array ends at the result. -/
theorem final0_2 (c : Dev nD) : ((dat0 (F := Ideal) V c).arrAt 2 cfg0.N : S4x8192.Idx → EReal)
    = fun i => Finset.univ.inf fun mm : Fin 8192 => Cert.Spec.sqdT88 (V c main_v0) (V c main_v1) (i 0) (i 1) mm :=
  (dat0 (F := Ideal) V c).arrAt_eq_of_cover 2 (rowMin V c) (flushed_eq V c) fun i => by
    have hi0 : (i 0).val < 4 := (i 0).isLt
    have hi1 : (i 1).val < 8192 := (i 1).isLt
    have hN : cfg0.N = 128 := N_0
    let t : Fin cfg0.N := ⟨(i 1).val / 512 * 8 + 7, by rw [hN]; omega⟩
    have ht : t.val = (i 1).val / 512 * 8 + 7 := rfl
    obtain ⟨e0, e1⟩ := idx0_2 t
    refine ⟨t, (flush0_2 t).mpr (by rw [ht]; omega), ?_⟩
    rw [mem_blk]
    intro a
    match a with
    | ⟨0, _⟩ => show win0_2.index t (0 : Fin 2) * 4 ≤ (i 0).val ∧ (i 0).val < win0_2.index t (0 : Fin 2) * 4 + 4; rw [e0]; omega
    | ⟨1, _⟩ => show win0_2.index t (1 : Fin 2) * 512 ≤ (i 1).val ∧ (i 1).val < win0_2.index t (1 : Fin 2) * 512 + 512; rw [e1, ht]; omega

end Cert.KernelIdeal.Value0Rows

end
-- ==== Proof.KernelValue0.lean ====
/-
  The fused nearest-neighbour kernel's scratch and copy-out, over the extended reals.

  The grid is (core half h, query tile i of 512 points, database tile j of 1024 points), point t = 64 h + 8 i + j. The
  scratch holds, per batch b and database point m, a running minimum over query points. At each point the body replaces
  the 1024 columns of database tile j by the minimum of their old entries and the least squared distance to the point's
  512 query points, and keeps the other columns; at a core half's first point the old entries are +∞. Hence, by
  induction on the point, after point t entry (b, m) is the least squared distance from database point m to the core
  half's query points numbered from 4096 h up to the end of query tile i if column m's tile is at most j, and up to the
  end of tile i − 1 otherwise. At the half's last point (i = j = 7) that range is the half's 4096 points, and the body
  copies the scratch out, reshaped, into the second output's block.
-/
import proofs.«115777_j15960098472629_2_alg».proof.Proof.KernelIdeal.Region0.Pieces
import proofs.«115777_j15960098472629_2_alg».proof.Proof.KernelIdeal.Pay0Value
import proofs.«115777_j15960098472629_2_alg».proof.Proof.Spec
import proofs.«115777_j15960098472629_2_alg».proof.Proof.LibMinBlocks

set_option maxRecDepth 16384

noncomputable section

namespace Cert.KernelIdeal.Value0

open Cert.KernelIdeal Cert.KernelIdeal.Gen Cert.KernelIdeal.Hand Cert.KernelIdeal.Value1
open Idealize.ShloMosaic Idealize.ShloMosaic.TcCoe Idealize.ShloMosaic.Tactic Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The squared distance of query point n and database point m of batch b, read off the two coordinate-major arrays. -/
abbrev G (c : Dev nD) (b : Fin 4) (n m : Fin 8192) : EReal := Cert.Spec.sqdT88 (V c main_v0) (V c main_v1) b n m

/-- The least squared distance from database point m to the query points numbered lo ≤ n < hi. -/
def colPart (c : Dev nD) (b : Fin 4) (m : Fin 8192) (lo hi : ℕ) : EReal :=
  (Finset.univ.filter fun n : Fin 8192 => lo ≤ n.val ∧ n.val < hi).inf fun n => G V c b n m

/-! ## The point's table, by the points' global numbers -/

/-- Entry (b, p, q) of the table at point t: query point (t / 8) · 512 + p against database point (t % 8) · 1024 + q. -/
theorem tab_G (c : Dev nD) (t : Fin cfg0.N) (b : Fin 4) (p : Fin 512) (q : Fin 1024)
    (hn : t.val / 8 * 512 + p.val < 8192) (hm : t.val % 8 * 1024 + q.val < 8192) :
    tab V c t (ix3 b p q) = G V c b ⟨t.val / 8 * 512 + p.val, hn⟩ ⟨t.val % 8 * 1024 + q.val, hm⟩ := by
  refine (tab_apply _ _ b p q).trans ?_
  unfold sqdAt
  rw [iblk0_0_apply V c t b 0 p hn, iblk0_0_apply V c t b 1 p hn, iblk0_0_apply V c t b 2 p hn,
    iblk0_1_apply V c t b 0 q hm, iblk0_1_apply V c t b 1 q hm, iblk0_1_apply V c t b 2 q hm]
  rfl

/-! ## One slice of columns stored over the scratch, entry by entry -/

/-- Inside the slice of 1024 columns at column offset o: the old entry against the least of the table's column. -/
theorem slice_in (off : Fin 2 → ℕ) (inb : ∀ a, off a + S4x1024.size a ≤ S4x8192.size a) (o : ℕ) (hoff : off = ![0, o])
    (T : FVec Ideal S4x512x1024 .f32) (xs : Vec Ideal S4x8192 .f32) (b : Fin 4) (m : Fin 8192) (q : Fin 1024)
    (hq : m.val = o + q.val) :
    VS0.read (Elt Ideal) (VS0.writes (Elt Ideal) (hscM0.unread xs)
        [⟨Rect.unit (s := S4x8192) off S4x1024.size inb,
          k0_pay2 (F := Ideal) T (View.readAt (Elt Ideal) VS0 (Rect.unit (s := S4x8192) off S4x1024.size inb).toLoadRect (hscM0.unread xs))⟩]) (ix2 b m)
      = min (xs (ix2 b m)) (Finset.univ.inf fun p : Fin 512 => T (ix3 b p q)) := by
  subst hoff
  refine (View.read_writes_cons_unit_of_mem VS0 _ inb _ [] (ix2 b m) (ix2 b q) rfl (fun a => by
      match a with
      | ⟨0, _⟩ => show b.val = 0 + b.val; omega
      | ⟨1, _⟩ => show m.val = o + q.val; exact hq)).trans ?_
  refine (pay2_apply T _ b q).trans ?_
  refine congrArg (fun z => min z _) ?_
  rw [View.readAt_eq_ld, hscM0.read_unread]
  refine congrArg xs (funext fun a => Fin.ext ?_)
  match a with
  | ⟨0, _⟩ => show 0 + 1 * b.val = b.val; omega
  | ⟨1, _⟩ => show o + 1 * q.val = m.val; omega

/-- Outside the slice the entry is kept. -/
theorem slice_out (off : Fin 2 → ℕ) (inb : ∀ a, off a + S4x1024.size a ≤ S4x8192.size a) (o : ℕ) (hoff : off = ![0, o])
    (w : (Rect.unit (s := S4x8192) off S4x1024.size inb).shape.Idx → EReal) (xs : Vec Ideal S4x8192 .f32) (b : Fin 4) (m : Fin 8192)
    (hm : m.val < o ∨ o + 1024 ≤ m.val) :
    VS0.read (Elt Ideal) (VS0.writes (Elt Ideal) (hscM0.unread xs) [⟨Rect.unit (s := S4x8192) off S4x1024.size inb, w⟩]) (ix2 b m)
      = xs (ix2 b m) := by
  have key : ∀ (o' sz : ℕ), o' = o → sz = 1024 → (m.val < o' ∨ o' + sz ≤ m.val) := fun o' sz h1 h2 => by
    subst h1 h2; exact hm
  have h := View.read_writes_cons_unit_of_not_mem VS0 (hscM0.unread xs) inb w [] (ix2 b m) hoff (1 : Fin 2) (key _ _ rfl rfl)
  rw [h, View.writes_nil, hscM0.read_unread]

/-! ## Infima over ranges of query points -/

/-- Over an empty range the infimum is +∞. -/
theorem colPart_empty (c : Dev nD) (b : Fin 4) (m : Fin 8192) (lo : ℕ) : colPart V c b m lo lo = (⊤ : EReal) := by
  unfold colPart
  rw [Finset.filter_false_of_mem (fun n _ h => by omega)]
  exact Finset.inf_empty

/-- Extending a range by the 512 points from s on: the minimum with the infimum over those points. -/
theorem colPart_step (c : Dev nD) (b : Fin 4) (m : Fin 8192) (lo s : ℕ) (hlo : lo ≤ s) (hs : s + 512 ≤ 8192) :
    colPart V c b m lo (s + 512)
      = min (colPart V c b m lo s) (Finset.univ.inf fun p : Fin 512 => G V c b ⟨s + p.val, by have := p.isLt; omega⟩ m) := by
  unfold colPart
  refine le_antisymm (le_min ?_ ?_) ?_
  · exact Finset.inf_mono (fun n hn => by
      rw [Finset.mem_filter] at hn ⊢
      exact ⟨hn.1, hn.2.1, by have := hn.2.2; omega⟩)
  · exact Finset.le_inf fun p _ => Finset.inf_le (Finset.mem_filter.2 ⟨Finset.mem_univ _, by
      show lo ≤ s + p.val ∧ s + p.val < s + 512
      have := p.isLt; omega⟩)
  · refine Finset.le_inf fun n hn => ?_
    rw [Finset.mem_filter] at hn
    by_cases h : n.val < s
    · exact (min_le_left _ _).trans (Finset.inf_le (Finset.mem_filter.2 ⟨Finset.mem_univ _, hn.2.1, h⟩))
    · refine (min_le_right _ _).trans ((Finset.inf_le (Finset.mem_univ (⟨n.val - s, by have := hn.2.2; omega⟩ : Fin 512))).trans_eq ?_)
      show G V c b ⟨s + (n.val - s), _⟩ m = G V c b n m
      congr 1
      exact Fin.ext (by show s + (n.val - s) = n.val; omega)

/-- The range of a core half's 4096 query points, by the half's own numbering. -/
theorem colPart_half (c : Dev nD) (b : Fin 4) (m : Fin 8192) (h : Fin 2) :
    colPart V c b m (h.val * 4096) (h.val * 4096 + 4096) = Finset.univ.inf fun n' : Fin 4096 => G V c b (halfIdx h n') m := by
  unfold colPart
  have hh := h.isLt
  refine le_antisymm ?_ ?_
  · exact Finset.le_inf fun n' _ => Finset.inf_le (Finset.mem_filter.2 ⟨Finset.mem_univ _, by
      show h.val * 4096 ≤ h.val * 4096 + n'.val ∧ h.val * 4096 + n'.val < h.val * 4096 + 4096
      have := n'.isLt; omega⟩)
  · refine Finset.le_inf fun n hn => ?_
    rw [Finset.mem_filter] at hn
    refine (Finset.inf_le (Finset.mem_univ (⟨n.val - h.val * 4096, by have := hn.2.2; omega⟩ : Fin 4096))).trans_eq ?_
    show G V c b (halfIdx h ⟨n.val - h.val * 4096, _⟩) m = G V c b n m
    congr 1
    exact Fin.ext (by show h.val * 4096 + (n.val - h.val * 4096) = n.val; have := hn.2.1; omega)

/-! ## The scratch after a point, entry by entry -/

/-- One entry of the scratch after point t, from the entry before: inside the point's slice of columns the range of
    query points grows by the point's 512, elsewhere the entry is kept. -/
theorem scAfter_entry (c : Dev nD) (t : Fin cfg0.N) (hN : t.val < 128) (xs : Vec Ideal S4x8192 .f32) (b : Fin 4) (m : Fin 8192)
    (lo prevHi : ℕ) (hlo : lo ≤ t.val / 8 * 512) (hprev : xs (ix2 b m) = colPart V c b m lo prevHi)
    (hin : m.val / 1024 = t.val % 8 → prevHi = t.val / 8 * 512) :
    scAfter V c t xs (ix2 b m)
      = colPart V c b m lo (if m.val / 1024 = t.val % 8 then t.val / 8 * 512 + 512 else prevHi) := by
  by_cases hm : m.val / 1024 = t.val % 8
  · rw [if_pos hm]
    have hq : m.val - 1024 * (t.val % 8) < 1024 := by have := m.isLt; omega
    have h := slice_in (k0_off1 (grid0.coords t)) (k0_off1_inb (grid0.coords t)) (1024 * (t.val % 8)) (off1_eq t) (tab V c t) xs b m
      ⟨m.val - 1024 * (t.val % 8), hq⟩ (by show m.val = 1024 * (t.val % 8) + (m.val - 1024 * (t.val % 8)); omega)
    unfold scAfter
    rw [h, hprev, hin hm, colPart_step V c b m lo (t.val / 8 * 512) hlo (by omega)]
    refine congrArg (min _) (Finset.inf_congr rfl fun p _ => ?_)
    rw [tab_G V c t b p ⟨m.val - 1024 * (t.val % 8), hq⟩ (by have := p.isLt; omega) (by have := m.isLt; omega)]
    congr 1
    exact Fin.ext (by show t.val % 8 * 1024 + (m.val - 1024 * (t.val % 8)) = m.val; omega)
  · rw [if_neg hm]
    have h := slice_out (k0_off1 (grid0.coords t)) (k0_off1_inb (grid0.coords t)) (1024 * (t.val % 8)) (off1_eq t)
      (k0_pay2 (F := Ideal) (tab V c t) (View.readAt (Elt Ideal) VS0
        (Rect.unit (s := S4x8192) (k0_off1 (grid0.coords t)) S4x1024.size (k0_off1_inb (grid0.coords t))).toLoadRect (hscM0.unread xs)))
      xs b m (by omega)
    unfold scAfter
    rw [h, hprev]

/-! ## The scratch at a core half's first point -/

/-- At a point that resets the scratch, the scratch ends as the slice store over the all-+∞ contents. -/
theorem sc_A (c : Dev nD) (t : Fin cfg0.N) (h0 : t.val % 64 = 0) :
    VS0.read (Elt Ideal) (VS0.writes (Elt Ideal) VS0.junk (runA V c t h0).2.1) = scAfter V c t (k0_pay4 (F := Ideal)) := by
  have e : ∀ inb, VS0.writes (Elt Ideal) VS0.junk
      [(⟨Rect.unit (s := S4x8192) ![0, 0] S4x8192.size inb, k0_pay4 (F := Ideal)⟩ : View.Piece (Elt Ideal) S4x8192 .f32)]
        = hscM0.unread (k0_pay4 (F := Ideal)) := fun inb =>
    hscM0.eq_unread (funext fun y => (View.read_writes_junk_apply_eq_canon VS0 y _).trans
      (congrFun (View.canon_unit_zero (S := S4x8192) hz2 inb _) y))
  unfold runA kernelRun0_A scAfter
  dsimp only
  sl_unfold_words
  simp only [View.readAt_eq_ld, (hs0_0 t).read_unread, (hs0_1 t).read_unread, View.ld_unit_zero (S := S4x3x512) hz3,
    View.ld_unit_zero (S := S4x3x1024) hz3]
  rw [show ∀ (p q : View.Piece (Elt Ideal) S4x8192 .f32), VS0.writes (Elt Ideal) VS0.junk [p, q]
      = VS0.writes (Elt Ideal) (VS0.writes (Elt Ideal) VS0.junk [q]) [p] from fun _ _ => rfl, e]

/-! ## The scratch after every point -/

/-- After position n the scratch's entry (b, m) is the least squared distance from database point m to the query
    points of the core half from its first up to the end of the current query tile (columns the point's database tiles
    have reached) or of the tile before (columns not yet reached). -/
theorem sc_inv (c : Dev nD) : ∀ (n : ℕ) (hn : n < cfg0.N) (b : Fin 4) (m : Fin 8192),
    (outsAt0 V c n hn).2.2 (ix2 b m)
      = colPart V c b m (n / 64 * 4096) (n / 8 * 512 + if m.val / 1024 ≤ n % 8 then 512 else 0)
  | 0, hn, b, m => by
    have hm := m.isLt
    rw [outsAt0_A V c ⟨0, hn⟩ rfl]
    dsimp only
    rw [sc_A V c ⟨0, hn⟩ rfl]
    refine (scAfter_entry V c ⟨0, hn⟩ (by show (0 : ℕ) < 128; omega) _ b m 0 0 (by show 0 ≤ 0 / 8 * 512; omega) ?_
      (fun _ => by show 0 = 0 / 8 * 512; omega)).trans ?_
    · rw [pay4_apply, colPart_empty]
    · congr 1
      show (if m.val / 1024 = 0 % 8 then 0 / 8 * 512 + 512 else 0) = 0 / 8 * 512 + if m.val / 1024 ≤ 0 % 8 then 512 else 0
      split_ifs <;> omega
  | n + 1, hn, b, m => by
    have hm := m.isLt
    have hN : n + 1 < 128 := lt_of_lt_of_eq hn N_0
    by_cases h0 : (n + 1) % 64 = 0
    · rw [outsAt0_A V c ⟨n + 1, hn⟩ h0]
      dsimp only
      rw [sc_A V c ⟨n + 1, hn⟩ h0]
      refine (scAfter_entry V c ⟨n + 1, hn⟩ hN _ b m ((n + 1) / 64 * 4096) ((n + 1) / 8 * 512) (by show _ ≤ (n + 1) / 8 * 512; omega) ?_ (fun _ => rfl)).trans ?_
      · rw [pay4_apply, show (n + 1) / 8 * 512 = (n + 1) / 64 * 4096 from by omega, colPart_empty]
      · congr 1
        show (if m.val / 1024 = (n + 1) % 8 then (n + 1) / 8 * 512 + 512 else (n + 1) / 8 * 512)
          = (n + 1) / 8 * 512 + if m.val / 1024 ≤ (n + 1) % 8 then 512 else 0
        split_ifs <;> omega
    · have ih := sc_inv c n (Nat.lt_of_succ_lt hn) b m
      have hlo : n / 64 * 4096 = (n + 1) / 64 * 4096 := by omega
      show (step0 V c ⟨n + 1, hn⟩ (outsAt0 V c n (Nat.lt_of_succ_lt hn))).2.2 (ix2 b m) = _
      have key : scAfter V c ⟨n + 1, hn⟩ (outsAt0 V c n (Nat.lt_of_succ_lt hn)).2.2 (ix2 b m)
          = colPart V c b m ((n + 1) / 64 * 4096) ((n + 1) / 8 * 512 + if m.val / 1024 ≤ (n + 1) % 8 then 512 else 0) := by
        refine (scAfter_entry V c ⟨n + 1, hn⟩ hN _ b m ((n + 1) / 64 * 4096)
          (n / 8 * 512 + if m.val / 1024 ≤ n % 8 then 512 else 0) (by show _ ≤ (n + 1) / 8 * 512; omega) (by rw [ih, hlo]) ?_).trans ?_
        · intro hmt
          show (n / 8 * 512 + if m.val / 1024 ≤ n % 8 then 512 else 0) = (n + 1) / 8 * 512
          have hmt' : m.val / 1024 = (n + 1) % 8 := hmt
          split_ifs <;> omega
        · congr 1
          show (if m.val / 1024 = (n + 1) % 8 then (n + 1) / 8 * 512 + 512 else n / 8 * 512 + if m.val / 1024 ≤ n % 8 then 512 else 0)
            = (n + 1) / 8 * 512 + if m.val / 1024 ≤ (n + 1) % 8 then 512 else 0
          split_ifs <;> omega
      by_cases h1 : (n + 1) % 8 = 0
      · rw [step0_B V c ⟨n + 1, hn⟩ _ h0 h1]
        dsimp only
        rw [sc_B V c ⟨n + 1, hn⟩ h0 h1]
        exact key
      · by_cases h2 : (n + 1) % 64 = 63
        · rw [step0_D V c ⟨n + 1, hn⟩ _ h2]
          dsimp only
          rw [sc_D V c ⟨n + 1, hn⟩ h2]
          exact key
        · rw [step0_C V c ⟨n + 1, hn⟩ _ h1 h2]
          dsimp only
          rw [sc_C V c ⟨n + 1, hn⟩ h1 h2]
          exact key

/-- At a copy-out point the second output's block holds, at (0, b, m), the least squared distance from database point
    m to the core half's 4096 query points. -/
theorem copyOut (c : Dev nD) (t : Fin cfg0.N) (h2 : t.val % 64 = 63) (u : Fin 1) (b : Fin 4) (m : Fin 8192) :
    (outsAt0 V c t.val t.isLt).2.1 (ix3 u b m)
      = Finset.univ.inf fun n' : Fin 4096 => Cert.Spec.sqdT88 (V c main_v0) (V c main_v1) b
          (halfIdx ⟨t.val / 64, by have := lt_of_lt_of_eq t.isLt N_0; omega⟩ n') m := by
  have hN : t.val < 128 := lt_of_lt_of_eq t.isLt N_0
  have hm := m.isLt
  have hz : t.val ≠ 0 := by omega
  have hsc := sc_inv V c t.val t.isLt b m
  rw [outsAt0_pos V c t hz, step0_D V c t _ h2] at hsc ⊢
  dsimp only at hsc ⊢
  rw [sc_D V c t h2] at hsc
  rw [o3_D V c t h2, pay3_apply, hsc]
  rw [show (t.val / 8 * 512 + if m.val / 1024 ≤ t.val % 8 then 512 else 0) = t.val / 64 * 4096 + 4096 from by
    split_ifs <;> omega]
  exact colPart_half V c b m ⟨t.val / 64, by omega⟩

end Cert.KernelIdeal.Value0

end
-- ==== Proof.KernelValue0Cols.lean ====
import proofs.«115777_j15960098472629_2_alg».proof.Proof.KernelIdeal.Region0.Pieces
import proofs.«115777_j15960098472629_2_alg».proof.Proof.Spec

/-!
# From the scratch's column minimum to the first kernel call's second output array

The second output array is `[2, 4, 8192]`: for each half h of the query cloud (4096 query points), each batch b and
each point m of the d cloud, the least squared distance of m to the query points of that half. Its window's block is
one half, `[1, 4, 8192]`, at block index t / 64; the body fills it only at the last point of a half (t % 64 = 63),
where it copies the scratch out, and the block is written back only there. Given what the block holds at those two
points, the two write-backs cover the array, so it ends at the column minima of both halves.
-/

set_option maxRecDepth 16384

noncomputable section

namespace Cert.KernelIdeal.Value0Cols

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand
open Cert.KernelIdeal.Value0 (idx0_3 halfIdx)

variable (V : (c : Dev nD) → (b : Ref sig .tc) → Buf (Elt Ideal) ((c : Thread nD τ).loc b))

/-- THE RESULT: for each half of the query cloud and each d point, the least squared distance to a query point of
    the half. -/
def colMin (c : Dev nD) : S2x4x8192.Idx → EReal :=
  fun i => Finset.univ.inf fun n' : Fin 4096 => Cert.Spec.sqdT88 (V c main_v0) (V c main_v1) (i 1) (halfIdx (i 0) n') (i 2)

/-- The half a grid position lies in. -/
def halfOf (t : Fin cfg0.N) : Fin 2 := ⟨t.val / 64, by have := lt_of_lt_of_eq t.isLt (show cfg0.N = 128 from N_0); omega⟩

/-- What the copy-out leaves in the second output's block, as a hypothesis: at the last point of a half, the column
    minima over that half's query points. -/
def CopiedOut (c : Dev nD) : Prop :=
  ∀ (t : Fin cfg0.N) (h2 : t.val % 64 = 63) (h : Fin 2) (hh : h.val = t.val / 64) (u : Fin 1) (b : Fin 4) (m : Fin 8192),
    (outsAt0 V c t.val t.isLt).2.1 (ix3 u b m)
      = Finset.univ.inf fun n' : Fin 4096 => Cert.Spec.sqdT88 (V c main_v0) (V c main_v1) b (halfIdx h n') m

/-- WHAT A WRITE-BACK WRITES is the half of the result its point lies in. -/
theorem flushed_eq (c : Dev nD) (H : CopiedOut V c) (t : Fin cfg0.N) (hf : (cfg0.win 3).flush t = true) :
    (dat0 (F := Ideal) V c).flushed 3 t = ((cfg0.win 3).blk t).view.read (Elt Ideal) (colMin V c) := by
  have h63 : t.val % 64 = 63 := (flush0_3 t).mp hf
  obtain ⟨e0, e1, e2⟩ := idx0_3 t
  show (cfg0.win 3).cut (grid0.coords t) ((dat0 (F := Ideal) V c).after 3 t) = _
  rw [after0_3]
  refine funext fun (j : S1x4x8192.Idx) => ?_
  obtain ⟨u, b, m, rfl⟩ : ∃ (u : Fin 1) (b : Fin 4) (m : Fin 8192), j = ix3 u b m := ⟨j 0, j 1, j 2, eq_ix3 j⟩
  show (outsAt0 V c t.val t.isLt).2.1 (ix3 u b m) = colMin V c (((cfg0.win 3).blk t).view.emb (ix3 u b m))
  rw [H t h63 (halfOf t) rfl u b m]
  have hemb : ((cfg0.win 3).blk t).view.emb (ix3 u b m) = (ix3 (halfOf t) b m : S2x4x8192.Idx) := by
    refine funext fun a => Fin.ext ?_
    have hu : u.val = 0 := by omega
    match a with
    | ⟨0, _⟩ => show win0_3.index t (0 : Fin 3) * 1 + 1 * u.val = t.val / 64; rw [e0, hu]; omega
    | ⟨1, _⟩ => show win0_3.index t (1 : Fin 3) * 4 + 1 * b.val = b.val; rw [e1]; omega
    | ⟨2, _⟩ => show win0_3.index t (2 : Fin 3) * 8192 + 1 * m.val = m.val; rw [e2]; omega
  rw [hemb]
  rfl

/-- An index of the array is in point t's block iff each coordinate is in the block's range on its axis. -/
theorem mem_blk (t : Fin cfg0.N) (i : S2x4x8192.Idx) :
    i ∈ ((cfg0.win 3).blk t).view.set ↔ ∀ a : Fin 3, win0_3.index t a * S1x4x8192.size a ≤ (i a).val ∧ (i a).val < win0_3.index t a * S1x4x8192.size a + S1x4x8192.size a := by
  show i ∈ ((View.whole main_v3_1).slice (win0_3.rect t)).set ↔ _
  rw [View.set_slice_whole, Rect.mem_set_unit]
  exact Iff.rfl

/-- THE ARRAY after the call: every entry (h, b, m) is in the block written back at the last point of half h, so
    the array ends at the column minima of the two halves. -/
theorem final0_3 (c : Dev nD) (H : CopiedOut V c) :
    ((dat0 (F := Ideal) V c).arrAt 3 cfg0.N : S2x4x8192.Idx → EReal)
      = fun i => Finset.univ.inf fun n' : Fin 4096 => Cert.Spec.sqdT88 (V c main_v0) (V c main_v1) (i 1) (halfIdx (i 0) n') (i 2) :=
  (dat0 (F := Ideal) V c).arrAt_eq_of_cover 3 (colMin V c) (flushed_eq V c H) fun i => by
    have hi0 : (i 0).val < 2 := (i 0).isLt
    have hi1 : (i 1).val < 4 := (i 1).isLt
    have hi2 : (i 2).val < 8192 := (i 2).isLt
    have hN : cfg0.N = 128 := N_0
    let t : Fin cfg0.N := ⟨(i 0).val * 64 + 63, by rw [hN]; omega⟩
    have ht : t.val = (i 0).val * 64 + 63 := rfl
    obtain ⟨e0, e1, e2⟩ := idx0_3 t
    refine ⟨t, (flush0_3 t).mpr (by rw [ht]; omega), ?_⟩
    rw [mem_blk]
    intro a
    match a with
    | ⟨0, _⟩ => show win0_3.index t (0 : Fin 3) * 1 ≤ (i 0).val ∧ (i 0).val < win0_3.index t (0 : Fin 3) * 1 + 1; rw [e0, ht]; omega
    | ⟨1, _⟩ => show win0_3.index t (1 : Fin 3) * 4 ≤ (i 1).val ∧ (i 1).val < win0_3.index t (1 : Fin 3) * 4 + 4; rw [e1]; omega
    | ⟨2, _⟩ => show win0_3.index t (2 : Fin 3) * 8192 ≤ (i 2).val ∧ (i 2).val < win0_3.index t (2 : Fin 3) * 8192 + 8192; rw [e2]; omega

end Cert.KernelIdeal.Value0Cols

end
-- ==== Proof.KernelValue0Final.lean ====
/-
  The first pallas_call's second output array at the ideal instance: entry (h, b, m) is the minimum, over core half h's
  4096 query points, of the squared distance to database point m of batch b — the scratch's running column minimum as
  the last point of the half copies it out, and the write-back there puts it in the array.
-/
import proofs.«115777_j15960098472629_2_alg».proof.Proof.KernelValue0
import proofs.«115777_j15960098472629_2_alg».proof.Proof.KernelValue0Cols

noncomputable section

namespace Cert.KernelIdeal.Value0

open Cert.KernelIdeal Cert.KernelIdeal.Gen Cert.KernelIdeal.Hand
open Idealize.ShloMosaic Idealize.ShloMosaic.TcCoe Idealize.SL.Sem Idealize.ShloMosaic.ValueIdx

variable (V : (c : Dev nD) → (b : Ref sig .tc) → Buf (Elt Ideal) ((c : Thread nD τ).loc b))

/-- What the copy-out points leave in the second output's block, for either name of the core half. -/
theorem copiedOut (c : Dev nD) : Cert.KernelIdeal.Value0Cols.CopiedOut V c := by
  unfold Cert.KernelIdeal.Value0Cols.CopiedOut
  intro t h2 h hh u b m
  have e : h = ⟨t.val / 64, by have := lt_of_lt_of_eq t.isLt N_0; omega⟩ := Fin.ext hh
  rw [e]
  exact copyOut V c t h2 u b m

theorem final0_3 (c : Dev nD) : ((dat0 (F := Ideal) V c).arrAt 3 cfg0.N : S2x4x8192.Idx → EReal)
    = fun i => Finset.univ.inf fun n' : Fin 4096 => Cert.Spec.sqdT88 (V c main_v0) (V c main_v1) (i 1) (halfIdx (i 0) n') (i 2) :=
  Cert.KernelIdeal.Value0Cols.final0_3 V c (copiedOut V c)

end Cert.KernelIdeal.Value0

end
-- ==== Proof.RefAlgebra.lean ====
/-
  The algebraic law between the two ways of writing a squared distance in three dimensions.

  For real coordinates,  (|a|² + |b|²) − 2·(a·b) = |a − b|² ≥ 0,  so clamping the left side at zero changes nothing.
  On the extended reals the identity fails at the infinities (∞ − ∞), so it is stated for entries that are
  coercions of reals, with the sums written as they are met: each |·|² a sum over Fin 3 added to a zero, the inner
  product a sum over Fin 3, the constants 0 and 2 by their single-precision words.
-/
import Idealize.ShloMosaic.PureOps.Ideal
import Idealize.ShloMosaic.PureOps.Ideal.Laws

noncomputable section

namespace Cert.RefAlgebra

open Idealize.ShloMosaic

/-- The word 0x40000000 is the real number 2. -/
theorem ofBits_two_f32 : Ideal.ofBits .f32 0x40000000#32 = ((2 : ℝ) : EReal) := by
  simp [Ideal.ofBits, Ideal.ieee]
  exact_mod_cast (by norm_num : (8388608 : ℝ) * ((2 : ℝ) ^ 22)⁻¹ = 2)

/-- The word 0x7F800000 is +∞, the top element. -/
theorem ofBits_inf_f32 : Ideal.ofBits .f32 0x7F800000#32 = (⊤ : EReal) := by
  simp [Ideal.ofBits, Ideal.ieee]

/-- Over the reals: the expanded form is the sum of squared differences. -/
theorem real_identity (a0 a1 a2 b0 b1 b2 : ℝ) :
    ((0 + (a0 * a0 + a1 * a1 + a2 * a2)) + (0 + (b0 * b0 + b1 * b1 + b2 * b2))) - 2 * (a0 * b0 + a1 * b1 + a2 * b2)
      = ((a0 - b0) * (a0 - b0) + (a1 - b1) * (a1 - b1)) + (a2 - b2) * (a2 - b2) := by ring

/-- A sum of three squares is nonnegative. -/
theorem real_nonneg (a0 a1 a2 b0 b1 b2 : ℝ) :
    0 ≤ ((a0 - b0) * (a0 - b0) + (a1 - b1) * (a1 - b1)) + (a2 - b2) * (a2 - b2) :=
  add_nonneg (add_nonneg (mul_self_nonneg _) (mul_self_nonneg _)) (mul_self_nonneg _)

/-- Clamping a real that equals a nonnegative real at zero, on the extended reals. -/
theorem max_coe_zero (p q : ℝ) (h : q = p) (hp : 0 ≤ p) : max ((q : ℝ) : EReal) 0 = ((p : ℝ) : EReal) := by
  subst h
  exact max_eq_left (by exact_mod_cast hp)

/-- On the extended reals, for coordinates that are real: the clamped expanded form is the sum of squared
    differences, associated ((dx² + dy²) + dz²). -/
theorem sqdist_law (a b : Fin 3 → EReal) (ha : ∀ k, ∃ x : ℝ, a k = (x : EReal)) (hb : ∀ k, ∃ x : ℝ, b k = (x : EReal)) :
    max (((Ideal.ofBits .f32 0x00000000#32 + ∑ k : Fin 3, a k * a k) + (Ideal.ofBits .f32 0x00000000#32 + ∑ k : Fin 3, b k * b k))
          - Ideal.ofBits .f32 0x40000000#32 * ∑ k : Fin 3, a k * b k) (Ideal.ofBits .f32 0x00000000#32)
      = ((a 0 - b 0) * (a 0 - b 0) + (a 1 - b 1) * (a 1 - b 1)) + (a 2 - b 2) * (a 2 - b 2) := by
  choose x hx using ha
  choose y hy using hb
  simp only [Fin.sum_univ_three, hx, hy, Ideal.ofBits_zero_f32, ofBits_two_f32]
  exact_mod_cast max_coe_zero _ _ (real_identity (x 0) (x 1) (x 2) (y 0) (y 1) (y 2))
    (real_nonneg (x 0) (x 1) (x 2) (y 0) (y 1) (y 2))

end Cert.RefAlgebra

end
-- ==== Proof.RefValue.lean ====
/-
  The reference computes the specified loss.

  Entry (b, n, m) of the reference's table of pairwise squared distances is max((|a|² + |b|²) − 2·(a·b), 0) with
  |a|² = 0 + Σₖ aₖ·aₖ and a·b = Σₖ aₖ·bₖ over the three coordinates; for real coordinates this is the sum of the
  three squared coordinate differences (the law of RefAlgebra). A minimum-reduction along one axis, started from
  +∞, is the infimum over that axis's coordinates of the table's entries, hence the specification's rowMin88,
  colMin88 and rowMin18; and the closing arithmetic on the three arrays of minima is the specification's tail
  term for term. So for real inputs the result is Spec.loss of the four argument arrays.
-/
import proofs.«115777_j15960098472629_2_alg».proof.Proof.Gen.ReferenceIdeal.Read
import proofs.«115777_j15960098472629_2_alg».proof.Proof.Spec
import proofs.«115777_j15960098472629_2_alg».proof.Proof.RefAlgebra

noncomputable section

namespace Cert.ReferenceIdeal.RefValue

open Cert.ReferenceIdeal Cert.ReferenceIdeal.Gen Cert.ReferenceIdeal.Read Idealize.ShloMosaic Idealize.ShloMosaic.ValueIdx

/-! ## One entry of the 8192 × 8192 table -/

theorem idxA (bb : Fin 4) (n m : Fin 8192) (k : Fin 3) :
    idx_main_v25 (idx_main_v26 (idx_main_v31 (ix3 bb n m))) k = ix3 bb n k :=
  funext fun a => Fin.ext (by match a with | ⟨0, _⟩ => rfl | ⟨1, _⟩ => rfl | ⟨2, _⟩ => rfl)
theorem idxB (bb : Fin 4) (n m : Fin 8192) (k : Fin 3) :
    idx_main_v28 (idx_main_v29 (idx_main_v32 (ix3 bb n m))) k = ix3 bb m k :=
  funext fun a => Fin.ext (by match a with | ⟨0, _⟩ => rfl | ⟨1, _⟩ => rfl | ⟨2, _⟩ => rfl)
theorem idxL (bb : Fin 4) (n m : Fin 8192) (k : Fin 3) : lidx_main_v30 (ix3 bb n m) k = ix3 bb n k :=
  funext fun a => Fin.ext (by match a with | ⟨0, _⟩ => rfl | ⟨1, _⟩ => rfl | ⟨2, _⟩ => rfl)
theorem idxR (bb : Fin 4) (n m : Fin 8192) (k : Fin 3) : ridx_main_v30 (ix3 bb n m) k = ix3 bb m k :=
  funext fun a => Fin.ext (by match a with | ⟨0, _⟩ => rfl | ⟨1, _⟩ => rfl | ⟨2, _⟩ => rfl)

/-- An entry of the 8192 × 8192 table is the squared distance of the two points. -/
theorem v38_at (x0 x3 : (⟨S4x8192x3, .f32⟩ : BufTy).Contents (Elt Ideal))
    (h0 : ∀ i, ∃ r : ℝ, x0 i = (r : EReal)) (h3 : ∀ i, ∃ r : ℝ, x3 i = (r : EReal))
    (bb : Fin 4) (n m : Fin 8192) :
    val_main_v38 (F := Ideal) x0 x3 (ix3 bb n m) = Cert.Spec.sqd88 x0 x3 bb n m := by
  rw [val_main_v38_apply, val_main_v36_apply, val_main_v33_apply, val_main_v31_apply, val_main_v26_apply,
    val_main_v25_apply, val_main_v32_apply, val_main_v29_apply, val_main_v28_apply, val_main_v35_apply,
    val_main_v34_apply, val_main_v30_apply, val_main_v37_apply]
  simp only [idxA, idxB, idxL, idxR, val_main_cst_6_apply, val_main_cst_7_apply, val_main_cst_8_apply,
    val_main_cst_9_apply, val_main_v24_apply, val_main_v27_apply, Ideal.maximumf_def, Ideal.subf_def,
    Ideal.addf_def, Ideal.mulf_def, Ideal.ofBits_def]
  exact Cert.RefAlgebra.sqdist_law (fun k => x0 (ix3 bb n k)) (fun k => x3 (ix3 bb m k)) (fun _ => h0 _) (fun _ => h3 _)

/-! ## The 8192 × 8192 table of clamped expanded squared distances, and its two minima -/

theorem red88_2 : S4x8192x8192.Reduces [2] S4x8192 := by decide
theorem red88_1 : S4x8192x8192.Reduces [1] S4x8192 := by decide

theorem lift88_2 (j : S4x8192.Idx) (m : Fin 8192) : red88_2.lift j m = ix3 (j 0) (j 1) m :=
  funext fun c => Fin.ext (by
    show red88_2.liftVal j m.val c = _
    unfold Shape.Reduces.liftVal
    match c with
    | ⟨0, _⟩ => rfl
    | ⟨1, _⟩ => rfl
    | ⟨2, _⟩ => rfl)

theorem lift88_1 (j : S4x8192.Idx) (n : Fin 8192) : red88_1.lift j n = ix3 (j 0) n (j 1) :=
  funext fun c => Fin.ext (by
    show red88_1.liftVal j n.val c = _
    unfold Shape.Reduces.liftVal
    match c with
    | ⟨0, _⟩ => rfl
    | ⟨1, _⟩ => rfl
    | ⟨2, _⟩ => rfl)

/-- The minimum along the last axis: for each point of the first cloud, the least squared distance. -/
theorem v39_at (x0 x3 : (⟨S4x8192x3, .f32⟩ : BufTy).Contents (Elt Ideal))
    (h0 : ∀ i, ∃ r : ℝ, x0 i = (r : EReal)) (h3 : ∀ i, ∃ r : ℝ, x3 i = (r : EReal)) (j : S4x8192.Idx) :
    val_main_v39 (F := Ideal) x0 x3 j = Cert.Spec.rowMin88 x0 x3 j := by
  unfold val_main_v39
  rw [Host.reduce_eq_fold_single FloatOps.minimumf _ _ reducesTo_S4x8192x8192_S4x8192_d2 red88_2 h_S_ j]
  rw [val_main_cst_10_apply, Ideal.ofBits_def, Cert.RefAlgebra.ofBits_inf_f32]
  show (Finset.univ : Finset (Fin 8192)).inf (fun m => val_main_v38 (F := Ideal) x0 x3 (red88_2.lift j m)) = _
  unfold Cert.Spec.rowMin88
  refine Finset.inf_congr rfl fun m _ => ?_
  rw [lift88_2 j m]
  exact v38_at x0 x3 h0 h3 (j 0) (j 1) m

/-- The minimum along the middle axis: for each point of the second cloud, the least squared distance. -/
theorem v40_at (x0 x3 : (⟨S4x8192x3, .f32⟩ : BufTy).Contents (Elt Ideal))
    (h0 : ∀ i, ∃ r : ℝ, x0 i = (r : EReal)) (h3 : ∀ i, ∃ r : ℝ, x3 i = (r : EReal)) (j : S4x8192.Idx) :
    val_main_v40 (F := Ideal) x0 x3 j = Cert.Spec.colMin88 x0 x3 j := by
  unfold val_main_v40
  rw [Host.reduce_eq_fold_single FloatOps.minimumf _ _ reducesTo_S4x8192x8192_S4x8192_d1 red88_1 h_S_ j]
  rw [val_main_cst_11_apply, Ideal.ofBits_def, Cert.RefAlgebra.ofBits_inf_f32]
  show (Finset.univ : Finset (Fin 8192)).inf (fun n => val_main_v38 (F := Ideal) x0 x3 (red88_1.lift j n)) = _
  unfold Cert.Spec.colMin88
  refine Finset.inf_congr rfl fun n _ => ?_
  rw [lift88_1 j n]
  exact v38_at x0 x3 h0 h3 (j 0) n (j 1)

/-! ## The 1024 × 8192 table, and its minimum along the last axis -/

theorem idxA' (bb : Fin 4) (n : Fin 1024) (m : Fin 8192) (k : Fin 3) :
    idx_main_v1 (idx_main_v2 (idx_main_v7 (ix3 bb n m))) k = ix3 bb n k :=
  funext fun a => Fin.ext (by match a with | ⟨0, _⟩ => rfl | ⟨1, _⟩ => rfl | ⟨2, _⟩ => rfl)
theorem idxB' (bb : Fin 4) (n : Fin 1024) (m : Fin 8192) (k : Fin 3) :
    idx_main_v4 (idx_main_v5 (idx_main_v8 (ix3 bb n m))) k = ix3 bb m k :=
  funext fun a => Fin.ext (by match a with | ⟨0, _⟩ => rfl | ⟨1, _⟩ => rfl | ⟨2, _⟩ => rfl)
theorem idxL' (bb : Fin 4) (n : Fin 1024) (m : Fin 8192) (k : Fin 3) : lidx_main_v6 (ix3 bb n m) k = ix3 bb n k :=
  funext fun a => Fin.ext (by match a with | ⟨0, _⟩ => rfl | ⟨1, _⟩ => rfl | ⟨2, _⟩ => rfl)
theorem idxR' (bb : Fin 4) (n : Fin 1024) (m : Fin 8192) (k : Fin 3) : ridx_main_v6 (ix3 bb n m) k = ix3 bb m k :=
  funext fun a => Fin.ext (by match a with | ⟨0, _⟩ => rfl | ⟨1, _⟩ => rfl | ⟨2, _⟩ => rfl)

/-- An entry of the 1024 × 8192 table is the squared distance of the two points. -/
theorem v14_at (x3 : (⟨S4x8192x3, .f32⟩ : BufTy).Contents (Elt Ideal)) (x4 : (⟨S4x1024x3, .f32⟩ : BufTy).Contents (Elt Ideal))
    (h3 : ∀ i, ∃ r : ℝ, x3 i = (r : EReal)) (h4 : ∀ i, ∃ r : ℝ, x4 i = (r : EReal))
    (bb : Fin 4) (n : Fin 1024) (m : Fin 8192) :
    val_main_v14 (F := Ideal) x3 x4 (ix3 bb n m) = Cert.Spec.sqd18 x4 x3 bb n m := by
  rw [val_main_v14_apply, val_main_v12_apply, val_main_v9_apply, val_main_v7_apply, val_main_v2_apply,
    val_main_v1_apply, val_main_v8_apply, val_main_v5_apply, val_main_v4_apply, val_main_v11_apply,
    val_main_v10_apply, val_main_v6_apply, val_main_v13_apply]
  simp only [idxA', idxB', idxL', idxR', val_main_cst_apply, val_main_cst_0_apply, val_main_cst_1_apply,
    val_main_cst_2_apply, val_main_v0_apply, val_main_v3_apply, Ideal.maximumf_def, Ideal.subf_def,
    Ideal.addf_def, Ideal.mulf_def, Ideal.ofBits_def]
  exact Cert.RefAlgebra.sqdist_law (fun k => x4 (ix3 bb n k)) (fun k => x3 (ix3 bb m k)) (fun _ => h4 _) (fun _ => h3 _)

theorem red18_2 : S4x1024x8192.Reduces [2] S4x1024 := by decide

theorem lift18_2 (j : S4x1024.Idx) (m : Fin 8192) : red18_2.lift j m = ix3 (j 0) (j 1) m :=
  funext fun c => Fin.ext (by
    show red18_2.liftVal j m.val c = _
    unfold Shape.Reduces.liftVal
    match c with
    | ⟨0, _⟩ => rfl
    | ⟨1, _⟩ => rfl
    | ⟨2, _⟩ => rfl)

/-- The minimum along the last axis: for each of the 1024 points, the least squared distance. -/
theorem v15_at (x3 : (⟨S4x8192x3, .f32⟩ : BufTy).Contents (Elt Ideal)) (x4 : (⟨S4x1024x3, .f32⟩ : BufTy).Contents (Elt Ideal))
    (h3 : ∀ i, ∃ r : ℝ, x3 i = (r : EReal)) (h4 : ∀ i, ∃ r : ℝ, x4 i = (r : EReal)) (j : S4x1024.Idx) :
    val_main_v15 (F := Ideal) x3 x4 j = Cert.Spec.rowMin18 x4 x3 j := by
  unfold val_main_v15
  rw [Host.reduce_eq_fold_single FloatOps.minimumf _ _ reducesTo_S4x1024x8192_S4x1024_d2 red18_2 h_S_ j]
  rw [val_main_cst_3_apply, Ideal.ofBits_def, Cert.RefAlgebra.ofBits_inf_f32]
  show (Finset.univ : Finset (Fin 8192)).inf (fun m => val_main_v14 (F := Ideal) x3 x4 (red18_2.lift j m)) = _
  unfold Cert.Spec.rowMin18
  refine Finset.inf_congr rfl fun m _ => ?_
  rw [lift18_2 j m]
  exact v14_at x3 x4 h3 h4 (j 0) (j 1) m

/-! ## The result -/

/-- The closing arithmetic of the program is the specification's, applied to the three arrays of minima. -/
theorem v54_tail (x0 : (⟨S4x8192x3, .f32⟩ : BufTy).Contents (Elt Ideal)) (x2 : (⟨S4x1024x1, .f32⟩ : BufTy).Contents (Elt Ideal))
    (x3 : (⟨S4x8192x3, .f32⟩ : BufTy).Contents (Elt Ideal)) (x4 : (⟨S4x1024x3, .f32⟩ : BufTy).Contents (Elt Ideal)) :
    val_main_v54 (F := Ideal) x0 x2 x3 x4
      = Cert.Spec.tail (val_main_v39 (F := Ideal) x0 x3) (val_main_v40 (F := Ideal) x0 x3) (val_main_v15 (F := Ideal) x3 x4) x2 := rfl

/-- For real inputs the program's result is the specified loss. -/
theorem ref_eq (x0 : (⟨S4x8192x3, .f32⟩ : BufTy).Contents (Elt Ideal)) (x2 : (⟨S4x1024x1, .f32⟩ : BufTy).Contents (Elt Ideal))
    (x3 : (⟨S4x8192x3, .f32⟩ : BufTy).Contents (Elt Ideal)) (x4 : (⟨S4x1024x3, .f32⟩ : BufTy).Contents (Elt Ideal))
    (h0 : ∀ i, ∃ r : ℝ, x0 i = (r : EReal)) (h3 : ∀ i, ∃ r : ℝ, x3 i = (r : EReal)) (h4 : ∀ i, ∃ r : ℝ, x4 i = (r : EReal)) :
    val_main_v54 (F := Ideal) x0 x2 x3 x4 = Cert.Spec.loss x0 x2 x3 x4 := by
  rw [v54_tail, show val_main_v39 (F := Ideal) x0 x3 = Cert.Spec.rowMin88 x0 x3 from funext (v39_at x0 x3 h0 h3),
    show val_main_v40 (F := Ideal) x0 x3 = Cert.Spec.colMin88 x0 x3 from funext (v40_at x0 x3 h0 h3),
    show val_main_v15 (F := Ideal) x3 x4 = Cert.Spec.rowMin18 x4 x3 from funext (v15_at x3 x4 h3 h4)]
  rfl

/-- The same for the run's own result term, at a memory whose three point arrays are real. -/
theorem res_eq (m : (ℓ : Loc nD τ sig) → Buf (Elt Ideal) ℓ) (c : Dev nD)
    (h0 : ∀ i, ∃ r : ℝ, m ((c.tc : Thread nD τ).loc main_arg0) i = (r : EReal))
    (h3 : ∀ i, ∃ r : ℝ, m ((c.tc : Thread nD τ).loc main_arg3) i = (r : EReal))
    (h4 : ∀ i, ∃ r : ℝ, m ((c.tc : Thread nD τ).loc main_arg4) i = (r : EReal)) :
    Cert.ReferenceIdeal.Value.res_main_v54 m c
      = Cert.Spec.loss (m ((c.tc : Thread nD τ).loc main_arg0)) (m ((c.tc : Thread nD τ).loc main_arg2))
          (m ((c.tc : Thread nD τ).loc main_arg3)) (m ((c.tc : Thread nD τ).loc main_arg4)) :=
  (val_main_v54_eq (F := Ideal) m c).trans (ref_eq _ _ _ _ h0 h3 h4)

end Cert.ReferenceIdeal.RefValue

end
-- ==== Proof.RefRun.lean ====
/-
  The reference's run, stated with the specification.

  Every weakly fair execution of the reference from a memory whose three point arrays hold reals ends with its result
  at Spec.loss of the four argument arrays and the arguments unchanged.
-/
import proofs.«115777_j15960098472629_2_alg».proof.Proof.RefValue

noncomputable section

namespace Cert.ReferenceIdeal.RefValue

open Cert.ReferenceIdeal Cert.ReferenceIdeal.Gen Idealize.ShloMosaic Idealize.ShloMosaic.TcCoe Idealize.SL.Sem

theorem run_loss (m : (ℓ : Loc nD τ sig) → Buf (Elt Ideal) ℓ) (ρ : Dev nD → PrngReg)
    (h0 : ∀ (c : Dev nD) i, ∃ r : ℝ, m ((c.tc : Thread nD τ).loc main_arg0) i = (r : EReal))
    (h3 : ∀ (c : Dev nD) i, ∃ r : ℝ, m ((c.tc : Thread nD τ).loc main_arg3) i = (r : EReal))
    (h4 : ∀ (c : Dev nD) i, ∃ r : ℝ, m ((c.tc : Thread nD τ).loc main_arg4) i = (r : EReal)) :
    θ_run (defs (F := Ideal)) (onTc (τ := τ) (main (F := Ideal))) ⟨m, fun _ => 0, ρ⟩ fun r => ∀ c : Dev nD,
      r.2.mem ((c.tc : Thread nD τ).loc main_v54)
        = Cert.Spec.loss (m ((c.tc : Thread nD τ).loc main_arg0)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run (defs (F := Ideal)) _ _).mono
    (fun _ h c => ⟨(h c).1.trans (res_eq m c (h0 c) (h3 c) (h4 c)), (h c).2⟩)
    (Cert.ReferenceIdeal.Value.run (F := Ideal) m ρ)

end Cert.ReferenceIdeal.RefValue

end
-- ==== Proof.Finite.lean ====
/-
  Finiteness of the inputs, from the printed precondition.

  The precondition is the conjunction, over the five input arrays, of "every entry has absolute value below +∞".
  Read back: every entry of every array is (the coercion of) a real number. On the extended reals |x| < +∞ excludes
  exactly the two infinities.
-/
import proofs.«115777_j15960098472629_2_alg».proof.Proof.Gen.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.Finite

open Idealize.ShloMosaic Idealize.ShloMosaic.ValueIdx Cert.Pre_finite_inputs Cert.Pre_finite_inputs.Gen

instance : Subsingleton S_.Idx := ⟨fun a b => funext fun d => d.elim0⟩

/-- An extended real whose absolute value is below the word 0x7F800000 (+∞) is a real. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  induction x using EReal.rec with
  | bot => simp [Ideal.cmp] at h
  | coe r => exact ⟨r, rfl⟩
  | top => simp [Ideal.cmp] at h

/-- Under the precondition (the printed predicate is all ones) every entry of each of the five arrays is a real. -/
theorem real_entries (a0 : FVec Ideal S4x8192x3 .f32) (a1 : FVec Ideal S4x2048x3 .f32) (a2 : FVec Ideal S4x1024x1 .f32)
    (a3 : FVec Ideal S4x8192x3 .f32) (a4 : FVec Ideal S4x1024x3 .f32)
    (h : Cert.Pre_finite_inputs.fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have h0 := congrFun h ix0
  dsimp only [Cert.Pre_finite_inputs.fn, Cert.Pre_finite_inputs.fn_part1] at h0
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  exact ⟨fun i => real_of_abs_lt _ (Host.reduce_andi_all _ _ _ _ _ e0 i),
    fun i => real_of_abs_lt _ (Host.reduce_andi_all _ _ _ _ _ e1 i),
    fun i => real_of_abs_lt _ (Host.reduce_andi_all _ _ _ _ _ e2 i),
    fun i => real_of_abs_lt _ (Host.reduce_andi_all _ _ _ _ _ e3 i),
    fun i => real_of_abs_lt _ (Host.reduce_andi_all _ _ _ _ _ e4 i)⟩

end Cert.Finite

end
-- ==== Proof.PreReal.lean ====
/-
  The precondition, read on each program's memory: the entries of the argument arrays are reals.
-/
import proofs.«115777_j15960098472629_2_alg».proof.Defs
import proofs.«115777_j15960098472629_2_alg».proof.Proof.Finite

noncomputable section

namespace Cert.PreReal

open Idealize.ShloMosaic Idealize.ShloMosaic.TcCoe Idealize.SL.Sem Cert.Pre_finite_inputs.Gen

/-- Under the precondition on the kernel's memory, every entry of its five argument arrays is a real. -/
theorem kernel (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg1) i = (r : EReal))
      ∧ (∀ i, ∃ r : ℝ, m ((c.tc : Thread Cert.KernelIdeal.nD Cert.KernelIdeal.τ).loc Cert.KernelIdeal.main_arg2) i = (r : EReal))
      ∧ (∀ i, ∃ r : ℝ, m ((c.tc : Thread Cert.KernelIdeal.nD Cert.KernelIdeal.τ).loc Cert.KernelIdeal.main_arg3) i = (r : EReal))
      ∧ (∀ i, ∃ r : ℝ, m ((c.tc : Thread Cert.KernelIdeal.nD Cert.KernelIdeal.τ).loc Cert.KernelIdeal.main_arg4) i = (r : EReal)) :=
  Cert.Finite.real_entries _ _ _ _ _ (h c)

/-- Under the precondition on the reference's memory, every entry of its five argument arrays is a real. -/
theorem reference (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) :
    (∀ i, ∃ r : ℝ, m ((c.tc : Thread Cert.ReferenceIdeal.nD Cert.ReferenceIdeal.τ).loc Cert.ReferenceIdeal.main_arg0) i = (r : EReal))
      ∧ (∀ i, ∃ r : ℝ, m ((c.tc : Thread Cert.ReferenceIdeal.nD Cert.ReferenceIdeal.τ).loc Cert.ReferenceIdeal.main_arg1) i = (r : EReal))
      ∧ (∀ i, ∃ r : ℝ, m ((c.tc : Thread Cert.ReferenceIdeal.nD Cert.ReferenceIdeal.τ).loc Cert.ReferenceIdeal.main_arg2) i = (r : EReal))
      ∧ (∀ i, ∃ r : ℝ, m ((c.tc : Thread Cert.ReferenceIdeal.nD Cert.ReferenceIdeal.τ).loc Cert.ReferenceIdeal.main_arg3) i = (r : EReal))
      ∧ (∀ i, ∃ r : ℝ, m ((c.tc : Thread Cert.ReferenceIdeal.nD Cert.ReferenceIdeal.τ).loc Cert.ReferenceIdeal.main_arg4) i = (r : EReal)) :=
  Cert.Finite.real_entries _ _ _ _ _ (h c)

end Cert.PreReal

end
-- ==== Proof.lean ====
/-
  The certificate of the nearest-neighbour loss kernel against its jnp reference.

  Both programs compute, from point clouds up, gt : [4, 8192, 3], rad : [4, 1024, 3] and scores conf : [4, 1024, 1],
    loss = 1/2 (1/2 mean D1 + 2 mean D2) + 1/2 mean (conf - exp (- sqrt R))^2 + mean (sqrt D1),
  D1 the row minima and D2 the column minima of the table of squared distances between up and gt, R the row minima of
  the table between rad and gt, every minimum a fold of min from +inf. The kernel forms a squared distance as
  (ax - bx)^2 + (ay - by)^2 + (az - bz)^2, tile by tile, keeping running minima (the row minima in an output block
  carried over the database tiles, the column minima in a scratch carried over the query tiles of each core half and
  joined by a host minimum); the reference forms max (|a|^2 + |b|^2 - 2 a.b, 0) over the whole tables. On real entries
  the two squared distances agree (|a|^2 + |b|^2 - 2 a.b = |a - b|^2 >= 0), which is where the precondition — every
  input finite — is used: the cancellation fails at the infinities. The rest is regrouping of minima, which needs
  nothing: min is commutative and associative and +inf is its neutral element on the extended reals.
  The three frames: each program terminates on every weakly fair execution, faults nowhere and leaves its arguments
  as launched — the kernel's from its two pallas_calls' body obligations composed along the program's segments, at
  the word level and at the ideal instance alike; the reference's from its run. The idealization rewrote nothing.
-/
import proofs.«115777_j15960098472629_2_alg».proof.Defs
import proofs.«115777_j15960098472629_2_alg».proof.Proof.Kernel.Run
import proofs.«115777_j15960098472629_2_alg».proof.Proof.KernelIdeal.Run
import proofs.«115777_j15960098472629_2_alg».proof.Proof.KernelValue
import proofs.«115777_j15960098472629_2_alg».proof.Proof.KernelValue1
import proofs.«115777_j15960098472629_2_alg».proof.Proof.KernelValue0Rows
import proofs.«115777_j15960098472629_2_alg».proof.Proof.KernelValue0Final
import proofs.«115777_j15960098472629_2_alg».proof.Proof.RefRun
import proofs.«115777_j15960098472629_2_alg».proof.Proof.PreReal
import proofs.«115777_j15960098472629_2_alg».proof.Proof.Gen.ReferenceIdeal.Run

noncomputable section

namespace Cert.Proof

open Idealize.ShloMosaic Idealize.ShloMosaic.TcCoe Idealize.SL.Sem

theorem frame_kernel : Cert.frame_Kernel := fun m ρ _ =>
  (θ_run (Cert.Kernel.defs (F := Bits)) _ _).mono (fun _ h c => (h c).2) (Cert.Kernel.Hand.run_all (F := Bits) m ρ)

theorem frame_kernelIdeal : Cert.frame_KernelIdeal := fun m ρ _ =>
  (θ_run (Cert.KernelIdeal.defs (F := Ideal)) _ _).mono (fun _ h c => (h c).2) (Cert.KernelIdeal.Hand.run_all (F := Ideal) m ρ)

theorem frame_referenceIdeal : Cert.frame_ReferenceIdeal := fun m ρ _ =>
  (θ_run (Cert.ReferenceIdeal.defs (F := Ideal)) _ _).mono (fun _ h c => (h c).2) (Cert.ReferenceIdeal.Value.run (F := Ideal) m ρ)

theorem preserves : Cert.preserves_Kernel_KernelIdeal := trivial

/-- From memories agreeing on the arguments both programs end at the specification's loss of the arguments: the kernel by
    its run read back through its segments, the reference by its run and the law of the squared distance on reals. -/
theorem algebraic : Cert.algebraic_KernelIdeal_ReferenceIdeal := by
  intro m ρ m' ρ' hpre hagree
  refine ⟨fun c => Cert.Spec.loss (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run (Cert.KernelIdeal.defs (F := Ideal)) _ _).mono
      (fun _ h c => ⟨(h c).1.trans (Cert.KernelIdeal.HandValue.result_eq m ρ c Cert.KernelIdeal.Value0Rows.final0_2 Cert.KernelIdeal.Value0.final0_3 Cert.KernelIdeal.Value1.final1), (h c).2⟩)
      (Cert.KernelIdeal.Hand.run_all (F := Ideal) m ρ)
  · have hr := fun c => Cert.PreReal.kernel m hpre c
    refine (θ_run (Cert.ReferenceIdeal.defs (F := Ideal)) _ _).mono (fun _ h c => ⟨(h c).1.trans ?_, (h c).2⟩)
      (Cert.ReferenceIdeal.RefValue.run_loss m' ρ'
        (fun c => by rw [(hagree c).1]; exact (hr c).1)
        (fun c => by rw [(hagree c).2.2.2.1]; exact (hr c).2.2.2.1)
        (fun c => by rw [(hagree c).2.2.2.2]; exact (hr c).2.2.2.2))
    rw [(hagree c).1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
